-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x94 : Shape := ⟨2, ![50000, 94]⟩
abbrev S2x600000 : Shape := ⟨2, ![2, 600000]⟩
abbrev S101x64 : Shape := ⟨2, ![101, 64]⟩
abbrev S222x64 : Shape := ⟨2, ![222, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x94 : S_.BroadcastsInDim S50000x94 (![] : Fin 0 → Fin S50000x94.rank)
  reducesTo_S50000x94_S_d0_1 : S50000x94.ReducesTo [0, 1] S_
  h_S_ : 0 < S_.numel
  bcast_S_S101x64 : S_.BroadcastsInDim S101x64 (![] : Fin 0 → Fin S101x64.rank)
  reducesTo_S101x64_S_d0_1 : S101x64.ReducesTo [0, 1] S_
  bcast_S_S222x64 : S_.BroadcastsInDim S222x64 (![] : Fin 0 → Fin S222x64.rank)
  reducesTo_S222x64_S_d0_1 : S222x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg10 : FVec F S64 .f32) (main_arg11 : FVec F S64x128 .f32) (main_arg12 : FVec F S128 .f32) (main_arg13 : FVec F S128x1 .f32) (main_arg14 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg11
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg13
  let main_cst_18 : FVec F S_ .f32 := constant S_ .f32 0x7F800000#32
  let main_v50 : FVec F S128x1 .f32 := broadcastInDim S128x1 ![] bcast_S_S128x1 main_cst_18
  fn_part3 (F := F) main_arg14 main_v48 main_v49 main_v50

def fn_part1 {F : FTy → Type} [FloatOps F] (main_arg7 : FVec F S222x64 .f32) (main_arg8 : FVec F S64 .f32) (main_arg9 : FVec F S64 .f32) (main_arg10 : FVec F S64 .f32) (main_arg11 : FVec F S64x128 .f32) (main_arg12 : FVec F S128 .f32) (main_arg13 : FVec F S128x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S222x64 .f32 := Host.absf main_arg7
  let main_cst_6 : FVec F S_ .f32 := constant S_ .f32 0x7F800000#32
  let main_v20 : FVec F S222x64 .f32 := broadcastInDim S222x64 ![] bcast_S_S222x64 main_cst_6
  let main_v21 : IVec S222x64 1 := cmpf .olt main_v19 main_v20
  let main_c_7 : IVec S_ 1 := constantI S_ 1 1#1
  let main_v22 : IVec S_ 1 := (fun x v => Host.reduce IntOp.andi x v reducesTo_S222x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_v33

def fn {F : FTy → Type} [FloatOps F] (main_arg0 : IVec S50000 32) (main_arg1 : FVec F S50000x94 .f32) (main_arg2 : IVec S2x600000 32) (main_arg3 : IVec S50000 32) (main_arg4 : FVec F S101x64 .f32) (main_arg5 : FVec F S222x64 .f32) (main_arg6 : FVec F S64 .f32) (main_arg7 : FVec F S222x64 .f32) (main_arg8 : FVec F S64 .f32) (main_arg9 : FVec F S64 .f32) (main_arg10 : FVec F S64 .f32) (main_arg11 : FVec F S64x128 .f32) (main_arg12 : FVec F S128 .f32) (main_arg13 : FVec F S128x1 .f32) (main_arg14 : FVec F S1 .f32) : IVec S_ 1 :=
  let main_v0 : FVec F S50000x94 .f32 := Host.absf main_arg1
  let main_cst : FVec F S_ .f32 := constant S_ .f32 0x7F800000#32
  let main_v1 : FVec F S50000x94 .f32 := broadcastInDim S50000x94 ![] bcast_S_S50000x94 main_cst
  let main_v2 : IVec S50000x94 1 := cmpf .olt main_v0 main_v1
  let main_c : IVec S_ 1 := constantI S_ 1 1#1
  let main_v3 : IVec S_ 1 := (fun x v => Host.reduce IntOp.andi x v reducesTo_S50000x94_S_d0_1 h_S_) main_v2 main_c
  let main_v4 : FVec F S101x64 .f32 := Host.absf main_arg4
  let main_cst_0 : FVec F S_ .f32 := constant S_ .f32 0x7F800000#32
  let main_v5 : FVec F S101x64 .f32 := broadcastInDim S101x64 ![] bcast_S_S101x64 main_cst_0
  let main_v6 : IVec S101x64 1 := cmpf .olt main_v4 main_v5
  let main_c_1 : IVec S_ 1 := constantI S_ 1 1#1
  let main_v7 : IVec S_ 1 := (fun x v => Host.reduce IntOp.andi x v reducesTo_S101x64_S_d0_1 h_S_) main_v6 main_c_1
  let main_v8 : IVec S_ 1 := andi main_v3 main_v7
  let main_v9 : FVec F S222x64 .f32 := Host.absf main_arg5
  let main_cst_2 : FVec F S_ .f32 := constant S_ .f32 0x7F800000#32
  let main_v10 : FVec F S222x64 .f32 := broadcastInDim S222x64 ![] bcast_S_S222x64 main_cst_2
  let main_v11 : IVec S222x64 1 := cmpf .olt main_v9 main_v10
  let main_c_3 : IVec S_ 1 := constantI S_ 1 1#1
  let main_v12 : IVec S_ 1 := (fun x v => Host.reduce IntOp.andi x v reducesTo_S222x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_v13 main_v16
-- ==== Kernel.lean ====
abbrev S50000 : Shape := ⟨1, ![50000]⟩
abbrev S50000x94 : Shape := ⟨2, ![50000, 94]⟩
abbrev S2x600000 : Shape := ⟨2, ![2, 600000]⟩
abbrev S101x64 : Shape := ⟨2, ![101, 64]⟩
abbrev S222x64 : Shape := ⟨2, ![222, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S50000x64 : Shape := ⟨2, ![50000, 64]⟩
abbrev S1x600000 : Shape := ⟨2, ![1, 600000]⟩
abbrev S600000 : Shape := ⟨1, ![600000]⟩
abbrev S600000x1 : Shape := ⟨2, ![600000, 1]⟩
abbrev S600000x64 : Shape := ⟨2, ![600000, 64]⟩
abbrev S600000x94 : Shape := ⟨2, ![600000, 94]⟩
abbrev S600000x222 : Shape := ⟨2, ![600000, 222]⟩
abbrev S4000x222 : Shape := ⟨2, ![4000, 222]⟩
abbrev S4000x64 : Shape := ⟨2, ![4000, 64]⟩
abbrev S1x64 : Shape := ⟨2, ![1, 64]⟩
abbrev S5000x64 : Shape := ⟨2, ![5000, 64]⟩
abbrev S512x64 : Shape := ⟨2, ![512, 64]⟩
abbrev S512x1 : Shape := ⟨2, ![512, 1]⟩
abbrev S512x128 : Shape := ⟨2, ![512, 128]⟩
abbrev S1x128 : Shape := ⟨2, ![1, 128]⟩
abbrev S1x1 : Shape := ⟨2, ![1, 1]⟩

abbrev nBuf : Space → Nat
  | .hbm => 132
  | .vmem => 24
  | .smem => 0
  | _ => 0

abbrev hbmTy0_0 (i : Nat) : BufTy := match i % 128 with
  | 0 => ⟨S50000, .i32⟩
  | 1 => ⟨S50000x94, .f32⟩
  | 2 => ⟨S2x600000, .i32⟩
  | 3 => ⟨S50000, .i32⟩
  | 4 => ⟨S101x64, .f32⟩
  | 5 => ⟨S222x64, .f32⟩
  | 6 => ⟨S64, .f32⟩
  | 7 => ⟨S222x64, .f32⟩
  | 8 => ⟨S64, .f32⟩
  | 9 => ⟨S64, .f32⟩
  | 10 => ⟨S64, .f32⟩
  | 11 => ⟨S64x128, .f32⟩
  | 12 => ⟨S128, .f32⟩
  | 13 => ⟨S128x1, .f32⟩
  | 14 => ⟨S1, .f32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x64, .f32⟩
  | 24 => ⟨S1x600000, .i32⟩
  | 25 => ⟨S600000, .i32⟩
  | 26 => ⟨S1x600000, .i32⟩
  | 27 => ⟨S600000, .i32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x64, .f32⟩
  | 37 => ⟨S_, .f32⟩
  | 38 => ⟨S50000x64, .f32⟩
  | 39 => ⟨S600000x1, .i32⟩
  | 40 => ⟨S50000x64, .f32⟩
  | 41 => ⟨S_, .f32⟩
  | 42 => ⟨S600000x1, .f32⟩
  | 43 => ⟨S_, .f32⟩
  | 44 => ⟨S50000x1, .f32⟩
  | 45 => ⟨S600000x1, .i32⟩
  | 46 => ⟨S50000x1, .f32⟩
  | 47 => ⟨S_, .f32⟩
  | 48 => ⟨S50000x1, .f32⟩
  | 49 => ⟨S50000x1, .f32⟩
  | 50 => ⟨S50000x64, .f32⟩
  | 51 => ⟨S50000x64, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x64, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x94, .f32⟩
  | 70 => ⟨S600000x222, .f32⟩
  | 71 => ⟨S600000x64, .f32⟩
  | 72 => ⟨S_, .f32⟩
  | 73 => ⟨S50000x64, .f32⟩
  | 74 => ⟨S600000x1, .i32⟩
  | 75 => ⟨S50000x64, .f32⟩
  | 76 => ⟨S_, .f32⟩
  | 77 => ⟨S600000x1, .f32⟩
  | 78 => ⟨S_, .f32⟩
  | 79 => ⟨S50000x1, .f32⟩
  | 80 => ⟨S600000x1, .i32⟩
  | 81 => ⟨S50000x1, .f32⟩
  | 82 => ⟨S_, .f32⟩
  | 83 => ⟨S50000x1, .f32⟩
  | 84 => ⟨S50000x1, .f32⟩
  | 85 => ⟨S50000x64, .f32⟩
  | 86 => ⟨S50000x64, .f32⟩
  | 87 => ⟨S_, .f32⟩
  | 88 => ⟨S64, .f32⟩
  | 89 => ⟨S_, .f32⟩
  | 90 => ⟨S64, .f32⟩
  | 91 => ⟨S64, .f32⟩
  | 92 => ⟨S_, .i32⟩
  | 93 => ⟨S_, .f32⟩
  | 94 => ⟨S64, .f32⟩
  | 95 => ⟨S1x64, .f32⟩
  | 96 => ⟨S_, .f32⟩
  | 97 => ⟨S1x64, .f32⟩
  | 98 => ⟨S1x64, .f32⟩
  | 99 => ⟨S50000x64, .f32⟩
  | 100 => ⟨S50000x64, .f32⟩
  | 101 => ⟨S50000x64, .f32⟩
  | 102 => ⟨S_, .f32⟩
  | 103 => ⟨S_, .f32⟩
  | 104 => ⟨S_, .f32⟩
  | 105 => ⟨S_, .f32⟩
  | 106 => ⟨S64, .f32⟩
  | 107 => ⟨S64, .f32⟩
  | 108 => ⟨S64, .f32⟩
  | 109 => ⟨S_, .f32⟩
  | 110 => ⟨S_, .i1⟩
  | 111 => ⟨S_, .f32⟩
  | 112 => ⟨S_, .f32⟩
  | 113 => ⟨S64, .f32⟩
  | 114 => ⟨S64, .f32⟩
  | 115 => ⟨S50000x64, .f32⟩
  | 116 => ⟨S_, .f32⟩
  | 117 => ⟨S512x64, .f32⟩
  | 118 => ⟨S50000x1, .i32⟩
  | 119 => ⟨S512x64, .f32⟩
  | 120 => ⟨S_, .f32⟩
  | 121 => ⟨S50000x1, .f32⟩
  | 122 => ⟨S_, .f32⟩
  | 123 => ⟨S512x1, .f32⟩
  | 124 => ⟨S50000x1, .i32⟩
  | 125 => ⟨S512x1, .f32⟩
  | 126 => ⟨S_, .f32⟩
  | 127 => ⟨S512x1, .f32⟩
  | _ => ⟨S50000, .i32⟩

abbrev hbmTy0_1 (i : Nat) : BufTy := match i % 128 with
  | 0 => ⟨S512x1, .f32⟩
  | 1 => ⟨S512x64, .f32⟩
  | 2 => ⟨S512x64, .f32⟩
  | 3 => ⟨S512x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S4000x222, .f32⟩
  | .local _ .vmem, ⟨1, _⟩ => ⟨S4000x222, .f32⟩
  | .local _ .vmem, ⟨2, _⟩ => ⟨S222x64, .f32⟩
  | .local _ .vmem, ⟨3, _⟩ => ⟨S64, .f32⟩
  | .local _ .vmem, ⟨4, _⟩ => ⟨S222x64, .f32⟩
  | .local _ .vmem, ⟨5, _⟩ => ⟨S64, .f32⟩
  | .local _ .vmem, ⟨6, _⟩ => ⟨S4000x64, .f32⟩
  | .local _ .vmem, ⟨7, _⟩ => ⟨S4000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S512x64, .f32⟩
  | .local _ .vmem, ⟨19, _⟩ => ⟨S64x128, .f32⟩
  | .local _ .vmem, ⟨20, _⟩ => ⟨S128, .f32⟩
  | .local _ .vmem, ⟨21, _⟩ => ⟨S128x1, .f32⟩
  | .local _ .vmem, ⟨22, _⟩ => ⟨S1, .f32⟩
  | .local _ .vmem, ⟨23, _⟩ => ⟨S512x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_13 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_cst_15 : Ref sig .tc := ⟨.hbm, 89, rfl⟩
abbrev main_v57 : Ref sig .tc := ⟨.hbm, 90, rfl⟩
abbrev main_v58 : Ref sig .tc := ⟨.hbm, 91, rfl⟩
abbrev main_c_16 : Ref sig .tc := ⟨.hbm, 92, rfl⟩
abbrev main_call0_cst : Ref sig .tc := ⟨.hbm, 93, rfl⟩
abbrev main_call0_v0 : Ref sig .tc := ⟨.hbm, 94, rfl⟩
abbrev main_call0_v1 : Ref sig .tc := ⟨.hbm, 95, rfl⟩
abbrev main_call0_cst_0 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_v7 : Ref sig .tc := ⟨.hbm, 102, rfl⟩
abbrev main_call0_cst_1 : Ref sig .tc := ⟨.hbm, 103, rfl⟩
abbrev main_call0_v8 : Ref sig .tc := ⟨.hbm, 104, rfl⟩
abbrev main_call0_cst_2 : Ref sig .tc := ⟨.hbm, 105, rfl⟩
abbrev main_call0_v9 : Ref sig .tc := ⟨.hbm, 106, rfl⟩
abbrev main_call0_v10 : Ref sig .tc := ⟨.hbm, 107, rfl⟩
abbrev main_call0_v11 : Ref sig .tc := ⟨.hbm, 108, rfl⟩
abbrev main_call0_cst_3 : Ref sig .tc := ⟨.hbm, 109, rfl⟩
abbrev main_call0_v12 : Ref sig .tc := ⟨.hbm, 110, rfl⟩
abbrev main_call0_cst_4 : Ref sig .tc := ⟨.hbm, 111, rfl⟩
abbrev main_call0_call0_v0 : Ref sig .tc := ⟨.hbm, 112, rfl⟩
abbrev main_call0_call0_v1 : Ref sig .tc := ⟨.hbm, 113, rfl⟩
abbrev main_v59 : Ref sig .tc := ⟨.hbm, 114, rfl⟩
abbrev main_v60 : Ref sig .tc := ⟨.hbm, 115, rfl⟩
abbrev main_cst_17 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_18 : Ref sig .tc := ⟨.hbm, 120, rfl⟩
abbrev main_v64 : Ref sig .tc := ⟨.hbm, 121, rfl⟩
abbrev main_cst_19 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_20 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x222 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S222x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S222x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x64 : S_.BroadcastsInDim S50000x64 (![] : Fin 0 → Fin S50000x64.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S600000x64_S600000x64_S600000x94_S600000x222_d1 : Shape.Concatenates [S600000x64, S600000x64, S600000x94] S600000x222 1
  inb_S4000x222_S4000x222_0_0 : ∀ a, (![0, 0] : Fin 2 → Nat) a + S4000x222.size a ≤ S4000x222.size a
  h_S4000x222 : 0 < S4000x222.numel
  shapeCasts_S4000x222_S4000x222 : S4000x222.ShapeCasts S4000x222
  bitsLt_bf16_f32 : FTy.bits .bf16 < FTy.bits .f32
  inb_S222x64_S222x64_0_0 : ∀ a, (![0, 0] : Fin 2 → Nat) a + S222x64.size a ≤ S222x64.size a
  h_S222x64 : 0 < S222x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64_S64 : S64.ShapeCasts S64
  broadcasts_S1x64_S5000x64 : S1x64.Broadcasts S5000x64
  bcast_S_S512x64 : S_.BroadcastsInDim S512x64 (![] : Fin 0 → Fin S512x64.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S101x64_S50000x1_S50000x64_1_0_n_n_0_1_164_wf : GatherDims.WF S101x64 S50000x1 S50000x64 [1] [0] [] [0] [] 1 ![1, 64]
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  scatter_S50000x1_S600000x1_S600000x1_1_0_0_1_wf : ScatterDims.WF S50000x1 S600000x1 S600000x1 [1] [0] [0] 1
  gather_S50000x94_S600000x1_S600000x94_1_0_n_n_0_1_194_wf : GatherDims.WF S50000x94 S600000x1 S600000x94 [1] [0] [] [0] [] 1 ![1, 94]
  dot_S4000x222_S222x64_S4000x64_1_0_0_1_n_n_wf : DotDims.WF S4000x222 S222x64 S4000x64 [1] [0] [0] [1] [] []
  scatter_S512x64_S50000x1_S50000x64_1_0_0_1_wf : ScatterDims.WF S512x64 S50000x1 S50000x64 [1] [0] [0] 1
  scatter_S512x1_S50000x1_S50000x1_1_0_0_1_wf : ScatterDims.WF S512x1 S50000x1 S50000x1 [1] [0] [0] 1
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x222.size a ≤ S600000x222.size a
  hwx0_0 : ∀ i : grid0.Coords, EltTy.bits .f32 = 32 ∨ (Rect.block (s := S600000x222) S4000x222.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S222x64.size a ≤ S222x64.size a
  hwx0_1 : ∀ i : grid0.Coords, EltTy.bits .f32 = 32 ∨ (Rect.block (s := S222x64) S222x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S222x64.size a ≤ S222x64.size a
  hwx0_3 : ∀ i : grid0.Coords, EltTy.bits .f32 = 32 ∨ (Rect.block (s := S222x64) S222x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S600000x64.size a
  hwx0_5 : ∀ i : grid0.Coords, EltTy.bits .f32 = 32 ∨ (Rect.block (s := S600000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S512x64.size a
  hwx2_0 : ∀ i : grid2.Coords, EltTy.bits .f32 = 32 ∨ (Rect.block (s := S512x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S512x1.size a
  hwx2_5 : ∀ i : grid2.Coords, EltTy.bits .f32 = 32 ∨ (Rect.block (s := S512x1) S512x1.size (cc2_transform_5 i) (hinb2_5 i)).WholeWords (EltTy.packing .f32)

variable [Facts₀]

def gather_S101x64_S50000x1_S50000x64_1_0_n_n_0_1_164 : GatherDims S101x64 S50000x1 S50000x64 where
  offsetDims := [1]
  collapsedSliceDims := [0]
  operandBatchingDims := []
  startIndicesBatchingDims := []
  startIndexMap := [0]
  indexVectorDim := 1
  sliceSizes := ![1, 64]
  wf := gather_S101x64_S50000x1_S50000x64_1_0_n_n_0_1_164_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x94_S600000x1_S600000x94_1_0_n_n_0_1_194 : GatherDims S50000x94 S600000x1 S600000x94 where
  offsetDims := [1]
  collapsedSliceDims := [0]
  operandBatchingDims := []
  startIndicesBatchingDims := []
  startIndexMap := [0]
  indexVectorDim := 1
  sliceSizes := ![1, 94]
  wf := gather_S50000x94_S600000x1_S600000x94_1_0_n_n_0_1_194_wf
def dot_S4000x222_S222x64_S4000x64_1_0_0_1_n_n : DotDims S4000x222 S222x64 S4000x64 where
  lhsContracting := [1]
  rhsContracting := [0]
  lhsNonContracting := [0]
  rhsNonContracting := [1]
  lhsBatch := []
  rhsBatch := []
  wf := dot_S4000x222_S222x64_S4000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v43) S4000x222.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S222x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S222x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v55) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v71) S512x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S512x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000 : Shape := ⟨1, ![50000]⟩
abbrev S50000x94 : Shape := ⟨2, ![50000, 94]⟩
abbrev S2x600000 : Shape := ⟨2, ![2, 600000]⟩
abbrev S101x64 : Shape := ⟨2, ![101, 64]⟩
abbrev S222x64 : Shape := ⟨2, ![222, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S50000x64 : Shape := ⟨2, ![50000, 64]⟩
abbrev S1x600000 : Shape := ⟨2, ![1, 600000]⟩
abbrev S600000 : Shape := ⟨1, ![600000]⟩
abbrev S600000x1 : Shape := ⟨2, ![600000, 1]⟩
abbrev S600000x64 : Shape := ⟨2, ![600000, 64]⟩
abbrev S600000x94 : Shape := ⟨2, ![600000, 94]⟩
abbrev S600000x222 : Shape := ⟨2, ![600000, 222]⟩
abbrev S1x64 : Shape := ⟨2, ![1, 64]⟩
abbrev S512x64 : Shape := ⟨2, ![512, 64]⟩
abbrev S512x1 : Shape := ⟨2, ![512, 1]⟩
abbrev S512x128 : Shape := ⟨2, ![512, 128]⟩
abbrev S1x128 : Shape := ⟨2, ![1, 128]⟩
abbrev S1x1 : Shape := ⟨2, ![1, 1]⟩

abbrev nBuf : Space → Nat
  | .hbm => 211
  | .vmem => 0
  | .smem => 0
  | _ => 0

abbrev hbmTy0_0 (i : Nat) : BufTy := match i % 128 with
  | 0 => ⟨S50000, .i32⟩
  | 1 => ⟨S50000x94, .f32⟩
  | 2 => ⟨S2x600000, .i32⟩
  | 3 => ⟨S50000, .i32⟩
  | 4 => ⟨S101x64, .f32⟩
  | 5 => ⟨S222x64, .f32⟩
  | 6 => ⟨S64, .f32⟩
  | 7 => ⟨S222x64, .f32⟩
  | 8 => ⟨S64, .f32⟩
  | 9 => ⟨S64, .f32⟩
  | 10 => ⟨S64, .f32⟩
  | 11 => ⟨S64x128, .f32⟩
  | 12 => ⟨S128, .f32⟩
  | 13 => ⟨S128x1, .f32⟩
  | 14 => ⟨S1, .f32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x64, .f32⟩
  | 24 => ⟨S1x600000, .i32⟩
  | 25 => ⟨S600000, .i32⟩
  | 26 => ⟨S1x600000, .i32⟩
  | 27 => ⟨S600000, .i32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x64, .f32⟩
  | 37 => ⟨S_, .f32⟩
  | 38 => ⟨S50000x64, .f32⟩
  | 39 => ⟨S600000x1, .i32⟩
  | 40 => ⟨S50000x64, .f32⟩
  | 41 => ⟨S_, .f32⟩
  | 42 => ⟨S600000x1, .f32⟩
  | 43 => ⟨S_, .f32⟩
  | 44 => ⟨S50000x1, .f32⟩
  | 45 => ⟨S600000x1, .i32⟩
  | 46 => ⟨S50000x1, .f32⟩
  | 47 => ⟨S_, .f32⟩
  | 48 => ⟨S50000x1, .f32⟩
  | 49 => ⟨S50000x1, .f32⟩
  | 50 => ⟨S50000x64, .f32⟩
  | 51 => ⟨S50000x64, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x64, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x64, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x94, .f32⟩
  | 79 => ⟨S600000x222, .f32⟩
  | 80 => ⟨S600000x64, .f32⟩
  | 81 => ⟨S1x64, .f32⟩
  | 82 => ⟨S600000x64, .f32⟩
  | 83 => ⟨S600000x64, .f32⟩
  | 84 => ⟨S600000x64, .f32⟩
  | 85 => ⟨S600000x64, .f32⟩
  | 86 => ⟨S_, .f32⟩
  | 87 => ⟨S600000x64, .f32⟩
  | 88 => ⟨S600000x64, .f32⟩
  | 89 => ⟨S_, .f32⟩
  | 90 => ⟨S600000x64, .f32⟩
  | 91 => ⟨S600000x64, .f32⟩
  | 92 => ⟨S600000x64, .f32⟩
  | 93 => ⟨S1x64, .f32⟩
  | 94 => ⟨S600000x64, .f32⟩
  | 95 => ⟨S600000x64, .f32⟩
  | 96 => ⟨S_, .f32⟩
  | 97 => ⟨S600000x64, .f32⟩
  | 98 => ⟨S600000x64, .f32⟩
  | 99 => ⟨S600000x64, .f32⟩
  | 100 => ⟨S600000x64, .f32⟩
  | 101 => ⟨S600000x64, .i1⟩
  | 102 => ⟨S600000x64, .f32⟩
  | 103 => ⟨S600000x64, .f32⟩
  | 104 => ⟨S600000x64, .f32⟩
  | 105 => ⟨S600000x64, .f32⟩
  | 106 => ⟨S600000x64, .f32⟩
  | 107 => ⟨S600000x64, .f32⟩
  | 108 => ⟨S600000x64, .f32⟩
  | 109 => ⟨S600000x64, .f32⟩
  | 110 => ⟨S600000x64, .f32⟩
  | 111 => ⟨S_, .f32⟩
  | 112 => ⟨S50000x64, .f32⟩
  | 113 => ⟨S600000x1, .i32⟩
  | 114 => ⟨S50000x64, .f32⟩
  | 115 => ⟨S_, .f32⟩
  | 116 => ⟨S600000x1, .f32⟩
  | 117 => ⟨S_, .f32⟩
  | 118 => ⟨S50000x1, .f32⟩
  | 119 => ⟨S600000x1, .i32⟩
  | 120 => ⟨S50000x1, .f32⟩
  | 121 => ⟨S_, .f32⟩
  | 122 => ⟨S50000x1, .f32⟩
  | 123 => ⟨S50000x1, .f32⟩
  | 124 => ⟨S50000x64, .f32⟩
  | 125 => ⟨S50000x64, .f32⟩
  | 126 => ⟨S_, .f32⟩
  | 127 => ⟨S64, .f32⟩
  | _ => ⟨S50000, .i32⟩

abbrev hbmTy0_1 (i : Nat) : BufTy := match i % 128 with
  | 0 => ⟨S_, .f32⟩
  | 1 => ⟨S64, .f32⟩
  | 2 => ⟨S64, .f32⟩
  | 3 => ⟨S_, .i32⟩
  | 4 => ⟨S_, .f32⟩
  | 5 => ⟨S64, .f32⟩
  | 6 => ⟨S1x64, .f32⟩
  | 7 => ⟨S_, .f32⟩
  | 8 => ⟨S1x64, .f32⟩
  | 9 => ⟨S1x64, .f32⟩
  | 10 => ⟨S50000x64, .f32⟩
  | 11 => ⟨S50000x64, .f32⟩
  | 12 => ⟨S50000x64, .f32⟩
  | 13 => ⟨S_, .f32⟩
  | 14 => ⟨S_, .f32⟩
  | 15 => ⟨S_, .f32⟩
  | 16 => ⟨S_, .f32⟩
  | 17 => ⟨S64, .f32⟩
  | 18 => ⟨S64, .f32⟩
  | 19 => ⟨S64, .f32⟩
  | 20 => ⟨S_, .f32⟩
  | 21 => ⟨S_, .i1⟩
  | 22 => ⟨S_, .f32⟩
  | 23 => ⟨S_, .f32⟩
  | 24 => ⟨S64, .f32⟩
  | 25 => ⟨S64, .f32⟩
  | 26 => ⟨S1x64, .f32⟩
  | 27 => ⟨S50000x64, .f32⟩
  | 28 => ⟨S50000x64, .f32⟩
  | 29 => ⟨S_, .f32⟩
  | 30 => ⟨S64, .f32⟩
  | 31 => ⟨S64, .f32⟩
  | 32 => ⟨S64, .f32⟩
  | 33 => ⟨S1x64, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S1x64, .f32⟩
  | 40 => ⟨S50000x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S_, .f32⟩
  | 47 => ⟨S512x64, .f32⟩
  | 48 => ⟨S50000x1, .i32⟩
  | 49 => ⟨S512x64, .f32⟩
  | 50 => ⟨S_, .f32⟩
  | 51 => ⟨S50000x1, .f32⟩
  | 52 => ⟨S_, .f32⟩
  | 53 => ⟨S512x1, .f32⟩
  | 54 => ⟨S50000x1, .i32⟩
  | 55 => ⟨S512x1, .f32⟩
  | 56 => ⟨S_, .f32⟩
  | 57 => ⟨S512x1, .f32⟩
  | 58 => ⟨S512x1, .f32⟩
  | 59 => ⟨S512x64, .f32⟩
  | 60 => ⟨S512x64, .f32⟩
  | 61 => ⟨S512x128, .f32⟩
  | 62 => ⟨S1x128, .f32⟩
  | 63 => ⟨S512x128, .f32⟩
  | 64 => ⟨S512x128, .f32⟩
  | 65 => ⟨S_, .f32⟩
  | 66 => ⟨S512x128, .f32⟩
  | 67 => ⟨S512x128, .f32⟩
  | 68 => ⟨S512x128, .f32⟩
  | 69 => ⟨S512x128, .f32⟩
  | 70 => ⟨S512x128, .i1⟩
  | 71 => ⟨S512x128, .f32⟩
  | 72 => ⟨S512x128, .f32⟩
  | 73 => ⟨S512x128, .f32⟩
  | 74 => ⟨S512x128, .f32⟩
  | 75 => ⟨S512x128, .f32⟩
  | 76 => ⟨S512x128, .f32⟩
  | 77 => ⟨S512x128, .f32⟩
  | 78 => ⟨S512x128, .f32⟩
  | 79 => ⟨S512x1, .f32⟩
  | 80 => ⟨S1x1, .f32⟩
  | 81 => ⟨S512x1, .f32⟩
  | 82 => ⟨S512x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call0_cst : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_v8 : Ref sig .tc := ⟨.hbm, 105, rfl⟩
abbrev main_call0_v9 : Ref sig .tc := ⟨.hbm, 106, rfl⟩
abbrev main_call0_v10 : Ref sig .tc := ⟨.hbm, 107, rfl⟩
abbrev main_call0_v11 : Ref sig .tc := ⟨.hbm, 108, rfl⟩
abbrev main_v65 : Ref sig .tc := ⟨.hbm, 109, rfl⟩
abbrev main_v66 : Ref sig .tc := ⟨.hbm, 110, rfl⟩
abbrev main_cst_14 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_15 : Ref sig .tc := ⟨.hbm, 115, rfl⟩
abbrev main_v70 : Ref sig .tc := ⟨.hbm, 116, rfl⟩
abbrev main_cst_16 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_17 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_18 : Ref sig .tc := ⟨.hbm, 126, rfl⟩
abbrev main_v78 : Ref sig .tc := ⟨.hbm, 127, rfl⟩
abbrev main_cst_19 : Ref sig .tc := ⟨.hbm, 128, rfl⟩
abbrev main_v79 : Ref sig .tc := ⟨.hbm, 129, rfl⟩
abbrev main_v80 : Ref sig .tc := ⟨.hbm, 130, rfl⟩
abbrev main_c_20 : Ref sig .tc := ⟨.hbm, 131, rfl⟩
abbrev main_call1_cst : Ref sig .tc := ⟨.hbm, 132, rfl⟩
abbrev main_call1_v0 : Ref sig .tc := ⟨.hbm, 133, rfl⟩
abbrev main_call1_v1 : Ref sig .tc := ⟨.hbm, 134, rfl⟩
abbrev main_call1_cst_0 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_call1_v5 : Ref sig .tc := ⟨.hbm, 139, rfl⟩
abbrev main_call1_v6 : Ref sig .tc := ⟨.hbm, 140, rfl⟩
abbrev main_call1_v7 : Ref sig .tc := ⟨.hbm, 141, rfl⟩
abbrev main_call1_cst_1 : Ref sig .tc := ⟨.hbm, 142, rfl⟩
abbrev main_call1_v8 : Ref sig .tc := ⟨.hbm, 143, rfl⟩
abbrev main_call1_cst_2 : Ref sig .tc := ⟨.hbm, 144, rfl⟩
abbrev main_call1_v9 : Ref sig .tc := ⟨.hbm, 145, rfl⟩
abbrev main_call1_v10 : Ref sig .tc := ⟨.hbm, 146, rfl⟩
abbrev main_call1_v11 : Ref sig .tc := ⟨.hbm, 147, rfl⟩
abbrev main_call1_cst_3 : Ref sig .tc := ⟨.hbm, 148, rfl⟩
abbrev main_call1_v12 : Ref sig .tc := ⟨.hbm, 149, rfl⟩
abbrev main_call1_cst_4 : Ref sig .tc := ⟨.hbm, 150, rfl⟩
abbrev main_call1_call0_v0 : Ref sig .tc := ⟨.hbm, 151, rfl⟩
abbrev main_call1_call0_v1 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_cst_21 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_call2_cst : Ref sig .tc := ⟨.hbm, 171, rfl⟩
abbrev main_call2_v0 : Ref sig .tc := ⟨.hbm, 172, rfl⟩
abbrev main_v98 : Ref sig .tc := ⟨.hbm, 173, rfl⟩
abbrev main_cst_22 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_cst_23 : Ref sig .tc := ⟨.hbm, 178, rfl⟩
abbrev main_v102 : Ref sig .tc := ⟨.hbm, 179, rfl⟩
abbrev main_cst_24 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_25 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_call3_cst : Ref sig .tc := ⟨.hbm, 193, rfl⟩
abbrev main_call3_v0 : Ref sig .tc := ⟨.hbm, 194, rfl⟩
abbrev main_call3_v1 : Ref sig .tc := ⟨.hbm, 195, rfl⟩
abbrev main_call3_v2 : Ref sig .tc := ⟨.hbm, 196, rfl⟩
abbrev main_call3_v3 : Ref sig .tc := ⟨.hbm, 197, rfl⟩
abbrev main_call3_v4 : Ref sig .tc := ⟨.hbm, 198, rfl⟩
abbrev main_call3_v5 : Ref sig .tc := ⟨.hbm, 199, rfl⟩
abbrev main_call3_v6 : Ref sig .tc := ⟨.hbm, 200, rfl⟩
abbrev main_call3_v7 : Ref sig .tc := ⟨.hbm, 201, rfl⟩
abbrev main_call3_v8 : Ref sig .tc := ⟨.hbm, 202, rfl⟩
abbrev main_call3_v9 : Ref sig .tc := ⟨.hbm, 203, rfl⟩
abbrev main_call3_v10 : Ref sig .tc := ⟨.hbm, 204, rfl⟩
abbrev main_call3_v11 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x64 : S_.BroadcastsInDim S50000x64 (![] : Fin 0 → Fin S50000x64.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S600000x64_S600000x64_S600000x94_S600000x222_d1 : Shape.Concatenates [S600000x64, S600000x64, S600000x94] S600000x222 1
  bcast_S64_S1x64_1 : S64.BroadcastsInDim S1x64 (![1] : Fin 1 → Fin S1x64.rank)
  bcast_S1x64_S600000x64_0_1 : S1x64.BroadcastsInDim S600000x64 (![0, 1] : Fin 2 → Fin S600000x64.rank)
  bcast_S_S600000x64 : S_.BroadcastsInDim S600000x64 (![] : Fin 0 → Fin S600000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S101x64_S50000x1_S50000x64_1_0_n_n_0_1_164_wf : GatherDims.WF S101x64 S50000x1 S50000x64 [1] [0] [] [0] [] 1 ![1, 64]
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  scatter_S50000x1_S600000x1_S600000x1_1_0_0_1_wf : ScatterDims.WF S50000x1 S600000x1 S600000x1 [1] [0] [0] 1
  gather_S50000x94_S600000x1_S600000x94_1_0_n_n_0_1_194_wf : GatherDims.WF S50000x94 S600000x1 S600000x94 [1] [0] [] [0] [] 1 ![1, 94]
  dot_S600000x222_S222x64_S600000x64_1_0_0_1_n_n_wf : DotDims.WF S600000x222 S222x64 S600000x64 [1] [0] [0] [1] [] []
  scatter_S512x64_S50000x1_S50000x64_1_0_0_1_wf : ScatterDims.WF S512x64 S50000x1 S50000x64 [1] [0] [0] 1
  scatter_S512x1_S50000x1_S50000x1_1_0_0_1_wf : ScatterDims.WF S512x1 S50000x1 S50000x1 [1] [0] [0] 1
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []

variable [Facts₀]

def gather_S101x64_S50000x1_S50000x64_1_0_n_n_0_1_164 : GatherDims S101x64 S50000x1 S50000x64 where
  offsetDims := [1]
  collapsedSliceDims := [0]
  operandBatchingDims := []
  startIndicesBatchingDims := []
  startIndexMap := [0]
  indexVectorDim := 1
  sliceSizes := ![1, 64]
  wf := gather_S101x64_S50000x1_S50000x64_1_0_n_n_0_1_164_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x94_S600000x1_S600000x94_1_0_n_n_0_1_194 : GatherDims S50000x94 S600000x1 S600000x94 where
  offsetDims := [1]
  collapsedSliceDims := [0]
  operandBatchingDims := []
  startIndicesBatchingDims := []
  startIndexMap := [0]
  indexVectorDim := 1
  sliceSizes := ![1, 94]
  wf := gather_S50000x94_S600000x1_S600000x94_1_0_n_n_0_1_194_wf
def dot_S600000x222_S222x64_S600000x64_1_0_0_1_n_n : DotDims S600000x222 S222x64 S600000x64 where
  lhsContracting := [1]
  rhsContracting := [0]
  lhsNonContracting := [0]
  rhsNonContracting := [1]
  lhsBatch := []
  rhsBatch := []
  wf := dot_S600000x222_S222x64_S600000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KRun.Reg0.lean ====
/- The message kernel at one grid point, and what the pipeline's run around it is read with.
   The first launch (a grid of 150 points) takes, per point, a tile of 4000 rows of the input z (600000 x 222) and
   the whole weights W_f, W_c (222 x 64) and biases b_f, b_c (64), and computes the gated message
   logistic(z W_f + b_f) * softplus(z W_c + b_c), a 4000 x 64 tile of the result (the products taken on operands rounded to
   bf16). Established here, at any float instance and for any contents `V` of the arrays when the launch is entered: each
   window's block at a point as a function of the array the launch finds (`iblk0`); the body reads its five input
   buffers whole, stores one value over its whole output buffer, terminates without a fault, leaves the inputs as they
   were and the output at `out0_5` of the inputs (`sound_kernel0`), which is the stored value of the blocks themselves
   (`out0_5_eq`); and every window's buffer before and after the body at every point (`dat0`, `before0_w`, `after0_w`),
   from which the body meets what the pipeline asks of it at every point (`body_obligation0`). -/
import proofs.«173417_j18064632447537_1_alg».proof.Proof.Gen.Kernel.Launch
import proofs.«173417_j18064632447537_1_alg».proof.Proof.Gen.Kernel.Skeleton
import proofs.«173417_j18064632447537_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! # Region 0: `cc0__message_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4000x222 := Rect.unit (s := S4000x222) ![0, 0] S4000x222.size inb_S4000x222_S4000x222_0_0
abbrev r0_1 : Rect S222x64 := Rect.unit (s := S222x64) ![0, 0] S222x64.size inb_S222x64_S222x64_0_0
abbrev r0_2 : Rect S64 := Rect.unit (s := S64) ![0] S64.size inb_S64_S64_0
abbrev r0_3 : Rect S222x64 := Rect.unit (s := S222x64) ![0, 0] S222x64.size inb_S222x64_S222x64_0_0
abbrev r0_4 : Rect S64 := Rect.unit (s := S64) ![0] S64.size inb_S64_S64_0
abbrev r0_5 : Rect S4000x64 := Rect.unit (s := S4000x64) ![0, 0] S4000x64.size inb_S4000x64_S4000x64_0_0

/-- What the body leaves in its output buffer, from the input windows' blocks: its one store, of the payload
    over the blocks read whole. -/
def out0_5 (x0 : Vec F S4000x222 .f32) (x1 : Vec F S222x64 .f32) (x2 : Vec F S64 .f32) (x3 : Vec F S222x64 .f32) (x4 : Vec F S64 .f32) : Vec F S4000x64 .f32 :=
  View.canon [⟨r0_5, k0_pay1 (View.ld x0 r0_0) (View.ld x1 r0_1) (View.ld x3 r0_3) (View.ld x2 r0_2) (View.ld x4 r0_4)⟩]

/-- The one store covers the buffer. -/
theorem cover0_5 (p0 : Vec F S4000x64 .f32) (y : S4000x64.Idx) :
    ∃ pc ∈ ([⟨r0_5, p0⟩] : List (View.Piece (Elt F) S4000x64 .f32)), y ∈ pc.1.set :=
  View.cover_of_tiled [⟨r0_5, p0⟩] S4000x64.size (by rfl) y

/-- Read whole and stored whole, the buffer ends at the payload of the blocks themselves. -/
theorem out0_5_eq (x0 : Vec F S4000x222 .f32) (x1 : Vec F S222x64 .f32) (x2 : Vec F S64 .f32) (x3 : Vec F S222x64 .f32) (x4 : Vec F S64 .f32) : out0_5 x0 x1 x2 x3 x4 = k0_pay1 x0 x1 x3 x2 x4 := by
  unfold out0_5
  rw [View.canon_unit_zero (S := S4000x64) (funext fun a => by fin_cases a <;> rfl)]
  rw [View.ld_unit_zero (S := S4000x222) (funext fun a => by fin_cases a <;> rfl) _ x0, View.ld_unit_zero (S := S222x64) (funext fun a => by fin_cases a <;> rfl) _ x1, View.ld_unit_zero (S := S64) (funext fun a => by fin_cases a <;> rfl) _ x2, View.ld_unit_zero (S := S222x64) (funext fun a => by fin_cases a <;> rfl) _ x3, View.ld_unit_zero (S := S64) (funext fun a => by fin_cases a <;> rfl) _ x4]

set_option maxHeartbeats 1000000 in
/-- The kernel body on whole staging buffers, the inputs' at contents `xW` and the output's at anything, runs to the
    continuation holding the inputs' as they were and the output's at `out0_5` of the inputs'. -/
theorem sound_kernel0 (c : Dev nD) (E : Set ℕ) (i : grid0.Coords) (arg0 : Memref sig .tc .vmem S4000x222 .f32) (harg0 : arg0.IsWhole) (arg1 : Memref sig .tc .vmem S222x64 .f32) (harg1 : arg1.IsWhole) (arg2 : Memref sig .tc .vmem S64 .f32) (harg2 : arg2.IsWhole) (arg3 : Memref sig .tc .vmem S222x64 .f32) (harg3 : arg3.IsWhole) (arg4 : Memref sig .tc .vmem S64 .f32) (harg4 : arg4.IsWhole) (arg5 : Memref sig .tc .vmem S4000x64 .f32) (harg5 : arg5.IsWhole)
    (x0 : Vec F S4000x222 .f32) (x1 : Vec F S222x64 .f32) (x2 : Vec F S64 .f32) (x3 : Vec F S222x64 .f32) (x4 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__message_kernel i arg0 harg0 arg1 harg1 arg2 harg2 arg3 harg3 arg4 harg4 arg5 harg5) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body at point `t`
    each input's buffer at its block and the output's at `out0_5` of the input blocks; the class invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- What the pipeline asks of the body, at every point: from its windows' buffers as the pipeline hands them over to
    the same buffers as the body leaves them. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRun.Reg1.lean ====
/- The normalisation kernel at one grid point, and what the pipeline's run around it is read with.
   The second launch (a grid of 10 points) takes, per point, a tile of 5000 rows of its two row-tiled inputs o and x
   (50000 x 64 each) and the whole mean, variance, scale and shift vectors (64 each), and computes
   max(((o - mean) * rsqrt(variance + 1e-5)) * scale + shift + x, 0), a 5000 x 64 tile of the result. Established here, at any
   float instance and for any contents `V` of the arrays when the launch is entered: each window's block at a point as a
   function of the array the launch finds (`iblk1`); the body reads its six input buffers whole, stores one value over its
   whole output buffer, terminates without a fault, leaves the inputs as they were and the output at `out1_6` of the
   inputs (`sound_kernel1`), which is the stored value of the blocks themselves (`out1_6_eq`); and every window's buffer
   before and after the body at every point (`dat1`, `before1_w`, `after1_w`), from which the body meets what the pipeline
   asks of it at every point (`body_obligation1`). -/
import proofs.«173417_j18064632447537_1_alg».proof.Proof.Gen.Kernel.Launch
import proofs.«173417_j18064632447537_1_alg».proof.Proof.Gen.Kernel.Skeleton
import proofs.«173417_j18064632447537_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! # Region 1: `cc1__bn_relu_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S64 := Rect.unit (s := S64) ![0] S64.size inb_S64_S64_0
abbrev r1_3 : Rect S64 := Rect.unit (s := S64) ![0] S64.size inb_S64_S64_0
abbrev r1_4 : Rect S64 := Rect.unit (s := S64) ![0] S64.size inb_S64_S64_0
abbrev r1_5 : Rect S64 := Rect.unit (s := S64) ![0] S64.size inb_S64_S64_0
abbrev r1_6 : Rect S5000x64 := Rect.unit (s := S5000x64) ![0, 0] S5000x64.size inb_S5000x64_S5000x64_0_0

/-- What the body leaves in its output buffer, from the input windows' blocks: its one store, of the payload
    over the blocks read whole. -/
def out1_6 (x0 : Vec F S5000x64 .f32) (x1 : Vec F S5000x64 .f32) (x2 : Vec F S64 .f32) (x3 : Vec F S64 .f32) (x4 : Vec F S64 .f32) (x5 : Vec F S64 .f32) : Vec F S5000x64 .f32 :=
  View.canon [⟨r1_6, k1_pay1 (View.ld x0 r1_0) (View.ld x1 r1_1) (View.ld x2 r1_2) (View.ld x3 r1_3) (View.ld x4 r1_4) (View.ld x5 r1_5)⟩]

/-- The one store covers the buffer. -/
theorem cover1_6 (p0 : Vec F S5000x64 .f32) (y : S5000x64.Idx) :
    ∃ pc ∈ ([⟨r1_6, p0⟩] : List (View.Piece (Elt F) S5000x64 .f32)), y ∈ pc.1.set :=
  View.cover_of_tiled [⟨r1_6, p0⟩] S5000x64.size (by rfl) y

/-- Read whole and stored whole, the buffer ends at the payload of the blocks themselves. -/
theorem out1_6_eq (x0 : Vec F S5000x64 .f32) (x1 : Vec F S5000x64 .f32) (x2 : Vec F S64 .f32) (x3 : Vec F S64 .f32) (x4 : Vec F S64 .f32) (x5 : Vec F S64 .f32) : out1_6 x0 x1 x2 x3 x4 x5 = k1_pay1 x0 x1 x2 x3 x4 x5 := by
  unfold out1_6
  rw [View.canon_unit_zero (S := S5000x64) (funext fun a => by fin_cases a <;> rfl)]
  rw [View.ld_unit_zero (S := S5000x64) (funext fun a => by fin_cases a <;> rfl) _ x0, View.ld_unit_zero (S := S5000x64) (funext fun a => by fin_cases a <;> rfl) _ x1, View.ld_unit_zero (S := S64) (funext fun a => by fin_cases a <;> rfl) _ x2, View.ld_unit_zero (S := S64) (funext fun a => by fin_cases a <;> rfl) _ x3, View.ld_unit_zero (S := S64) (funext fun a => by fin_cases a <;> rfl) _ x4, View.ld_unit_zero (S := S64) (funext fun a => by fin_cases a <;> rfl) _ x5]

set_option maxHeartbeats 1000000 in
/-- The kernel body on whole staging buffers, the inputs' at contents `xW` and the output's at anything, runs to the
    continuation holding the inputs' as they were and the output's at `out1_6` of the inputs'. -/
theorem sound_kernel1 (c : Dev nD) (E : Set ℕ) (i : grid1.Coords) (arg0 : Memref sig .tc .vmem S5000x64 .f32) (harg0 : arg0.IsWhole) (arg1 : Memref sig .tc .vmem S5000x64 .f32) (harg1 : arg1.IsWhole) (arg2 : Memref sig .tc .vmem S64 .f32) (harg2 : arg2.IsWhole) (arg3 : Memref sig .tc .vmem S64 .f32) (harg3 : arg3.IsWhole) (arg4 : Memref sig .tc .vmem S64 .f32) (harg4 : arg4.IsWhole) (arg5 : Memref sig .tc .vmem S64 .f32) (harg5 : arg5.IsWhole) (arg6 : Memref sig .tc .vmem S5000x64 .f32) (harg6 : arg6.IsWhole)
    (x0 : Vec F S5000x64 .f32) (x1 : Vec F S5000x64 .f32) (x2 : Vec F S64 .f32) (x3 : Vec F S64 .f32) (x4 : Vec F S64 .f32) (x5 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__bn_relu_kernel i arg0 harg0 arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t`
    each input's buffer at its block and the output's at `out1_6` of the input blocks; the class invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- What the pipeline asks of the body, at every point: from its windows' buffers as the pipeline hands them over to
    the same buffers as the body leaves them. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.Reg2.lean ====
/- The read-out head at its one grid point, and what the pipeline's run around it is read with.
   The third launch (a grid of one point) takes the input h (512 x 64), the weights W_1 (64 x 128), b_1 (128),
   W_2 (128 x 1), b_2 (1), all whole, and computes softplus(h W_1 + b_1) W_2 + b_2, the 512 x 1 result of the program (the
   products taken on operands rounded to bf16). Established here, at any float instance and for any contents `V` of the
   arrays when the launch is entered: each window's block as a function of the array the launch finds (`iblk2`); the body
   reads its five input buffers whole, stores one value over its whole output buffer, terminates without a fault, leaves
   the inputs as they were and the output at `out2_5` of the inputs (`sound_kernel2`), which is the stored value of the
   blocks themselves (`out2_5_eq`); and every window's buffer before and after the body (`dat2`, `before2_w`, `after2_w`),
   from which the body meets what the pipeline asks of it (`body_obligation2`). -/
import proofs.«173417_j18064632447537_1_alg».proof.Proof.Gen.Kernel.Launch
import proofs.«173417_j18064632447537_1_alg».proof.Proof.Gen.Kernel.Skeleton
import proofs.«173417_j18064632447537_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! # Region 2: `cc2__mlp_head_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S512x64 := Rect.unit (s := S512x64) ![0, 0] S512x64.size inb_S512x64_S512x64_0_0
abbrev r2_1 : Rect S64x128 := Rect.unit (s := S64x128) ![0, 0] S64x128.size inb_S64x128_S64x128_0_0
abbrev r2_2 : Rect S128 := Rect.unit (s := S128) ![0] S128.size inb_S128_S128_0
abbrev r2_3 : Rect S128x1 := Rect.unit (s := S128x1) ![0, 0] S128x1.size inb_S128x1_S128x1_0_0
abbrev r2_4 : Rect S1 := Rect.unit (s := S1) ![0] S1.size inb_S1_S1_0
abbrev r2_5 : Rect S512x1 := Rect.unit (s := S512x1) ![0, 0] S512x1.size inb_S512x1_S512x1_0_0

/-- What the body leaves in its output buffer, from the input windows' blocks: its one store, of the payload
    over the blocks read whole. -/
def out2_5 (x0 : Vec F S512x64 .f32) (x1 : Vec F S64x128 .f32) (x2 : Vec F S128 .f32) (x3 : Vec F S128x1 .f32) (x4 : Vec F S1 .f32) : Vec F S512x1 .f32 :=
  View.canon [⟨r2_5, k2_pay1 (View.ld x0 r2_0) (View.ld x1 r2_1) (View.ld x2 r2_2) (View.ld x3 r2_3) (View.ld x4 r2_4)⟩]

/-- The one store covers the buffer. -/
theorem cover2_5 (p0 : Vec F S512x1 .f32) (y : S512x1.Idx) :
    ∃ pc ∈ ([⟨r2_5, p0⟩] : List (View.Piece (Elt F) S512x1 .f32)), y ∈ pc.1.set :=
  View.cover_of_tiled [⟨r2_5, p0⟩] S512x1.size (by rfl) y

/-- Read whole and stored whole, the buffer ends at the payload of the blocks themselves. -/
theorem out2_5_eq (x0 : Vec F S512x64 .f32) (x1 : Vec F S64x128 .f32) (x2 : Vec F S128 .f32) (x3 : Vec F S128x1 .f32) (x4 : Vec F S1 .f32) : out2_5 x0 x1 x2 x3 x4 = k2_pay1 x0 x1 x2 x3 x4 := by
  unfold out2_5
  rw [View.canon_unit_zero (S := S512x1) (funext fun a => by fin_cases a <;> rfl)]
  rw [View.ld_unit_zero (S := S512x64) (funext fun a => by fin_cases a <;> rfl) _ x0, View.ld_unit_zero (S := S64x128) (funext fun a => by fin_cases a <;> rfl) _ x1, View.ld_unit_zero (S := S128) (funext fun a => by fin_cases a <;> rfl) _ x2, View.ld_unit_zero (S := S128x1) (funext fun a => by fin_cases a <;> rfl) _ x3, View.ld_unit_zero (S := S1) (funext fun a => by fin_cases a <;> rfl) _ x4]

set_option maxHeartbeats 1000000 in
/-- The kernel body on whole staging buffers, the inputs' at contents `xW` and the output's at anything, runs to the
    continuation holding the inputs' as they were and the output's at `out2_5` of the inputs'. -/
theorem sound_kernel2 (c : Dev nD) (E : Set ℕ) (i : grid2.Coords) (arg0 : Memref sig .tc .vmem S512x64 .f32) (harg0 : arg0.IsWhole) (arg1 : Memref sig .tc .vmem S64x128 .f32) (harg1 : arg1.IsWhole) (arg2 : Memref sig .tc .vmem S128 .f32) (harg2 : arg2.IsWhole) (arg3 : Memref sig .tc .vmem S128x1 .f32) (harg3 : arg3.IsWhole) (arg4 : Memref sig .tc .vmem S1 .f32) (harg4 : arg4.IsWhole) (arg5 : Memref sig .tc .vmem S512x1 .f32) (harg5 : arg5.IsWhole)
    (x0 : Vec F S512x64 .f32) (x1 : Vec F S64x128 .f32) (x2 : Vec F S128 .f32) (x3 : Vec F S128x1 .f32) (x4 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__mlp_head_kernel i arg0 harg0 arg1 harg1 arg2 harg2 arg3 harg3 arg4 harg4 arg5 harg5) K := by
  simp only [cc2__mlp_head_kernel_eq_skeleton]; unfold cc2__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the class invariant;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- What the pipeline asks of the body, at every point: from its windows' buffers as the pipeline hands them over to
    the same buffers as the body leaves them. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/- The whole program's run. @main is three kernel launches among stretches of host operations: host operations, the message
   kernel (150 points), two host stretches, the normalisation kernel (10 points), host operations, the read-out head (one
   point). Established here, at any float instance, from any launch memory `m`: the contents of every buffer at each of the
   eight boundaries between those items (`W0` at launch … `W7` at the end: a host stretch applies its operations to the
   contents before it; a launch replaces its windows' arrays by what its pipeline leaves — an input as found, the output
   with every point's tile written back — and leaves every other buffer alone); each launch entered from the boundary
   before it and left at the one after (`reg0`, `reg1`, `reg2`); no item writes an argument array (`W7_main_argK`); and so
   (`run`) every weakly fair execution on the TensorCores terminates without a fault with the result buffer at `W7`'s
   contents and the fifteen argument arrays as launched (`frame`: the arguments alone). -/
import proofs.«173417_j18064632447537_1_alg».proof.Proof.Gen.Kernel.Launch
import proofs.«173417_j18064632447537_1_alg».proof.Proof.Gen.Kernel.Skeleton
import proofs.«173417_j18064632447537_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«173417_j18064632447537_1_alg».proof.Proof.Gen.Kernel.Regions
import proofs.«173417_j18064632447537_1_alg».proof.Proof.KRun.Reg0
import proofs.«173417_j18064632447537_1_alg».proof.Proof.KRun.Reg1
import proofs.«173417_j18064632447537_1_alg».proof.Proof.KRun.Reg2

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! # The run: the buffers' contents at each boundary between @main's items, folded from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After `hostOps1_1`. -/
abbrev W4 : Dev nD → Valuation τ sig (Elt F) := fun c => StableHlo.after hostOps1_1 (W3 m ρ c)
abbrev V4 : (c : Dev nD) → (b : Ref sig .tc) → Buf (Elt F) ((c : Thread nD τ).loc b) := fun c b => W4 m ρ c b
/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`. -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b
/-- At region 2's exit: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h

/-! ## No item writes an argument: a host stretch does not name it, a region reads it through an input window or
    passes it by -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := W5_of_ne m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of_ne m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of_ne m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of_ne m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := W1_of m ρ c main_arg5 (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of_ne m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := (W2_arr m ρ c 2).trans (((dat0 (V1 m ρ) c).arrAt_in 2 rfl _).trans (A_eq0 (V1 m ρ) c 2))
    _ = W0 m ρ c (Proc.devRef .tc main_arg6) := W1_of m ρ c main_arg6 (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of m ρ c main_arg7 (by decide)
    _ = W4 m ρ c (Proc.devRef .tc main_arg7) := W5_of_ne m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := (W2_arr m ρ c 3).trans (((dat0 (V1 m ρ) c).arrAt_in 3 rfl _).trans (A_eq0 (V1 m ρ) c 3))
    _ = W0 m ρ c (Proc.devRef .tc main_arg7) := W1_of m ρ c main_arg7 (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of m ρ c main_arg8 (by decide)
    _ = W4 m ρ c (Proc.devRef .tc main_arg8) := W5_of_ne m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := (W2_arr m ρ c 4).trans (((dat0 (V1 m ρ) c).arrAt_in 4 rfl _).trans (A_eq0 (V1 m ρ) c 4))
    _ = W0 m ρ c (Proc.devRef .tc main_arg8) := W1_of m ρ c main_arg8 (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_of m ρ c main_arg9 (by decide)
    _ = W4 m ρ c (Proc.devRef .tc main_arg9) := (W5_arr m ρ c 4).trans (((dat1 (V4 m ρ) c).arrAt_in 4 rfl _).trans (A_eq1 (V4 m ρ) c 4))
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := W6_of m ρ c main_arg10 (by decide)
    _ = W4 m ρ c (Proc.devRef .tc main_arg10) := (W5_arr m ρ c 5).trans (((dat1 (V4 m ρ) c).arrAt_in 5 rfl _).trans (A_eq1 (V4 m ρ) c 5))
    _ = W3 m ρ c (Proc.devRef .tc main_arg10) := W4_of m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := (W7_arr m ρ c 1).trans (((dat2 (V6 m ρ) c).arrAt_in 1 rfl _).trans (A_eq2 (V6 m ρ) c 1))
    _ = W5 m ρ c (Proc.devRef .tc main_arg11) := W6_of m ρ c main_arg11 (by decide)
    _ = W4 m ρ c (Proc.devRef .tc main_arg11) := W5_of_ne m ρ c main_arg11 (by decide)
    _ = W3 m ρ c (Proc.devRef .tc main_arg11) := W4_of m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := (W7_arr m ρ c 2).trans (((dat2 (V6 m ρ) c).arrAt_in 2 rfl _).trans (A_eq2 (V6 m ρ) c 2))
    _ = W5 m ρ c (Proc.devRef .tc main_arg12) := W6_of m ρ c main_arg12 (by decide)
    _ = W4 m ρ c (Proc.devRef .tc main_arg12) := W5_of_ne m ρ c main_arg12 (by decide)
    _ = W3 m ρ c (Proc.devRef .tc main_arg12) := W4_of m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := (W7_arr m ρ c 3).trans (((dat2 (V6 m ρ) c).arrAt_in 3 rfl _).trans (A_eq2 (V6 m ρ) c 3))
    _ = W5 m ρ c (Proc.devRef .tc main_arg13) := W6_of m ρ c main_arg13 (by decide)
    _ = W4 m ρ c (Proc.devRef .tc main_arg13) := W5_of_ne m ρ c main_arg13 (by decide)
    _ = W3 m ρ c (Proc.devRef .tc main_arg13) := W4_of m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := (W7_arr m ρ c 4).trans (((dat2 (V6 m ρ) c).arrAt_in 4 rfl _).trans (A_eq2 (V6 m ρ) c 4))
    _ = W5 m ρ c (Proc.devRef .tc main_arg14) := W6_of m ρ c main_arg14 (by decide)
    _ = W4 m ρ c (Proc.devRef .tc main_arg14) := W5_of_ne m ρ c main_arg14 (by decide)
    _ = W3 m ρ c (Proc.devRef .tc main_arg14) := W4_of m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl
/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at `W1`, left at `W2`. Its arrays are
    split out of the unscoped buffers and put back at the exit contents; the generator register goes into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are
    split out of the unscoped buffers and put back at the exit contents; the generator register goes into the class
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. Its arrays are
    split out of the unscoped buffers and put back at the exit contents; the generator register goes into the class
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .region (reg2 m ρ) ]

set_option backward.isDefEq.respectTransparency.types false in
/-- THE RUN: at the compiled mesh, from any memory with zero counters, every weakly fair execution of @main on the
    TensorCores terminates, nothing faulting, and every final state has the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v72 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

/-- THE FRAME: the run, read at the argument arrays only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run m ρ)

end Cert.Kernel.Hand

end
-- ==== Proof.KIRun.Reg0.lean ====
/- The message kernel at one grid point, and what the pipeline's run around it is read with.
   The first launch (a grid of 150 points) takes, per point, a tile of 4000 rows of the input z (600000 x 222) and
   the whole weights W_f, W_c (222 x 64) and biases b_f, b_c (64), and computes the gated message
   logistic(z W_f + b_f) * softplus(z W_c + b_c), a 4000 x 64 tile of the result (the products taken on operands rounded to
   bf16). Established here, at any float instance and for any contents `V` of the arrays when the launch is entered: each
   window's block at a point as a function of the array the launch finds (`iblk0`); the body reads its five input
   buffers whole, stores one value over its whole output buffer, terminates without a fault, leaves the inputs as they
   were and the output at `out0_5` of the inputs (`sound_kernel0`), which is the stored value of the blocks themselves
   (`out0_5_eq`); and every window's buffer before and after the body at every point (`dat0`, `before0_w`, `after0_w`),
   from which the body meets what the pipeline asks of it at every point (`body_obligation0`). -/
import proofs.«173417_j18064632447537_1_alg».proof.Proof.Gen.KernelIdeal.Launch
import proofs.«173417_j18064632447537_1_alg».proof.Proof.Gen.KernelIdeal.Skeleton
import proofs.«173417_j18064632447537_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! # Region 0: `cc0__message_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4000x222 := Rect.unit (s := S4000x222) ![0, 0] S4000x222.size inb_S4000x222_S4000x222_0_0
abbrev r0_1 : Rect S222x64 := Rect.unit (s := S222x64) ![0, 0] S222x64.size inb_S222x64_S222x64_0_0
abbrev r0_2 : Rect S64 := Rect.unit (s := S64) ![0] S64.size inb_S64_S64_0
abbrev r0_3 : Rect S222x64 := Rect.unit (s := S222x64) ![0, 0] S222x64.size inb_S222x64_S222x64_0_0
abbrev r0_4 : Rect S64 := Rect.unit (s := S64) ![0] S64.size inb_S64_S64_0
abbrev r0_5 : Rect S4000x64 := Rect.unit (s := S4000x64) ![0, 0] S4000x64.size inb_S4000x64_S4000x64_0_0

/-- What the body leaves in its output buffer, from the input windows' blocks: its one store, of the payload
    over the blocks read whole. -/
def out0_5 (x0 : Vec F S4000x222 .f32) (x1 : Vec F S222x64 .f32) (x2 : Vec F S64 .f32) (x3 : Vec F S222x64 .f32) (x4 : Vec F S64 .f32) : Vec F S4000x64 .f32 :=
  View.canon [⟨r0_5, k0_pay1 (View.ld x0 r0_0) (View.ld x1 r0_1) (View.ld x3 r0_3) (View.ld x2 r0_2) (View.ld x4 r0_4)⟩]

/-- The one store covers the buffer. -/
theorem cover0_5 (p0 : Vec F S4000x64 .f32) (y : S4000x64.Idx) :
    ∃ pc ∈ ([⟨r0_5, p0⟩] : List (View.Piece (Elt F) S4000x64 .f32)), y ∈ pc.1.set :=
  View.cover_of_tiled [⟨r0_5, p0⟩] S4000x64.size (by rfl) y

/-- Read whole and stored whole, the buffer ends at the payload of the blocks themselves. -/
theorem out0_5_eq (x0 : Vec F S4000x222 .f32) (x1 : Vec F S222x64 .f32) (x2 : Vec F S64 .f32) (x3 : Vec F S222x64 .f32) (x4 : Vec F S64 .f32) : out0_5 x0 x1 x2 x3 x4 = k0_pay1 x0 x1 x3 x2 x4 := by
  unfold out0_5
  rw [View.canon_unit_zero (S := S4000x64) (funext fun a => by fin_cases a <;> rfl)]
  rw [View.ld_unit_zero (S := S4000x222) (funext fun a => by fin_cases a <;> rfl) _ x0, View.ld_unit_zero (S := S222x64) (funext fun a => by fin_cases a <;> rfl) _ x1, View.ld_unit_zero (S := S64) (funext fun a => by fin_cases a <;> rfl) _ x2, View.ld_unit_zero (S := S222x64) (funext fun a => by fin_cases a <;> rfl) _ x3, View.ld_unit_zero (S := S64) (funext fun a => by fin_cases a <;> rfl) _ x4]

set_option maxHeartbeats 1000000 in
/-- The kernel body on whole staging buffers, the inputs' at contents `xW` and the output's at anything, runs to the
    continuation holding the inputs' as they were and the output's at `out0_5` of the inputs'. -/
theorem sound_kernel0 (c : Dev nD) (E : Set ℕ) (i : grid0.Coords) (arg0 : Memref sig .tc .vmem S4000x222 .f32) (harg0 : arg0.IsWhole) (arg1 : Memref sig .tc .vmem S222x64 .f32) (harg1 : arg1.IsWhole) (arg2 : Memref sig .tc .vmem S64 .f32) (harg2 : arg2.IsWhole) (arg3 : Memref sig .tc .vmem S222x64 .f32) (harg3 : arg3.IsWhole) (arg4 : Memref sig .tc .vmem S64 .f32) (harg4 : arg4.IsWhole) (arg5 : Memref sig .tc .vmem S4000x64 .f32) (harg5 : arg5.IsWhole)
    (x0 : Vec F S4000x222 .f32) (x1 : Vec F S222x64 .f32) (x2 : Vec F S64 .f32) (x3 : Vec F S222x64 .f32) (x4 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__message_kernel i arg0 harg0 arg1 harg1 arg2 harg2 arg3 harg3 arg4 harg4 arg5 harg5) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body at point `t`
    each input's buffer at its block and the output's at `out0_5` of the input blocks; the class invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- What the pipeline asks of the body, at every point: from its windows' buffers as the pipeline hands them over to
    the same buffers as the body leaves them. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRun.Reg1.lean ====
/- The normalisation kernel at one grid point, and what the pipeline's run around it is read with.
   The second launch (a grid of 10 points) takes, per point, a tile of 5000 rows of its two row-tiled inputs o and x
   (50000 x 64 each) and the whole mean, variance, scale and shift vectors (64 each), and computes
   max(((o - mean) * rsqrt(variance + 1e-5)) * scale + shift + x, 0), a 5000 x 64 tile of the result. Established here, at any
   float instance and for any contents `V` of the arrays when the launch is entered: each window's block at a point as a
   function of the array the launch finds (`iblk1`); the body reads its six input buffers whole, stores one value over its
   whole output buffer, terminates without a fault, leaves the inputs as they were and the output at `out1_6` of the
   inputs (`sound_kernel1`), which is the stored value of the blocks themselves (`out1_6_eq`); and every window's buffer
   before and after the body at every point (`dat1`, `before1_w`, `after1_w`), from which the body meets what the pipeline
   asks of it at every point (`body_obligation1`). -/
import proofs.«173417_j18064632447537_1_alg».proof.Proof.Gen.KernelIdeal.Launch
import proofs.«173417_j18064632447537_1_alg».proof.Proof.Gen.KernelIdeal.Skeleton
import proofs.«173417_j18064632447537_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! # Region 1: `cc1__bn_relu_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S64 := Rect.unit (s := S64) ![0] S64.size inb_S64_S64_0
abbrev r1_3 : Rect S64 := Rect.unit (s := S64) ![0] S64.size inb_S64_S64_0
abbrev r1_4 : Rect S64 := Rect.unit (s := S64) ![0] S64.size inb_S64_S64_0
abbrev r1_5 : Rect S64 := Rect.unit (s := S64) ![0] S64.size inb_S64_S64_0
abbrev r1_6 : Rect S5000x64 := Rect.unit (s := S5000x64) ![0, 0] S5000x64.size inb_S5000x64_S5000x64_0_0

/-- What the body leaves in its output buffer, from the input windows' blocks: its one store, of the payload
    over the blocks read whole. -/
def out1_6 (x0 : Vec F S5000x64 .f32) (x1 : Vec F S5000x64 .f32) (x2 : Vec F S64 .f32) (x3 : Vec F S64 .f32) (x4 : Vec F S64 .f32) (x5 : Vec F S64 .f32) : Vec F S5000x64 .f32 :=
  View.canon [⟨r1_6, k1_pay1 (View.ld x0 r1_0) (View.ld x1 r1_1) (View.ld x2 r1_2) (View.ld x3 r1_3) (View.ld x4 r1_4) (View.ld x5 r1_5)⟩]

/-- The one store covers the buffer. -/
theorem cover1_6 (p0 : Vec F S5000x64 .f32) (y : S5000x64.Idx) :
    ∃ pc ∈ ([⟨r1_6, p0⟩] : List (View.Piece (Elt F) S5000x64 .f32)), y ∈ pc.1.set :=
  View.cover_of_tiled [⟨r1_6, p0⟩] S5000x64.size (by rfl) y

/-- Read whole and stored whole, the buffer ends at the payload of the blocks themselves. -/
theorem out1_6_eq (x0 : Vec F S5000x64 .f32) (x1 : Vec F S5000x64 .f32) (x2 : Vec F S64 .f32) (x3 : Vec F S64 .f32) (x4 : Vec F S64 .f32) (x5 : Vec F S64 .f32) : out1_6 x0 x1 x2 x3 x4 x5 = k1_pay1 x0 x1 x2 x3 x4 x5 := by
  unfold out1_6
  rw [View.canon_unit_zero (S := S5000x64) (funext fun a => by fin_cases a <;> rfl)]
  rw [View.ld_unit_zero (S := S5000x64) (funext fun a => by fin_cases a <;> rfl) _ x0, View.ld_unit_zero (S := S5000x64) (funext fun a => by fin_cases a <;> rfl) _ x1, View.ld_unit_zero (S := S64) (funext fun a => by fin_cases a <;> rfl) _ x2, View.ld_unit_zero (S := S64) (funext fun a => by fin_cases a <;> rfl) _ x3, View.ld_unit_zero (S := S64) (funext fun a => by fin_cases a <;> rfl) _ x4, View.ld_unit_zero (S := S64) (funext fun a => by fin_cases a <;> rfl) _ x5]

set_option maxHeartbeats 1000000 in
/-- The kernel body on whole staging buffers, the inputs' at contents `xW` and the output's at anything, runs to the
    continuation holding the inputs' as they were and the output's at `out1_6` of the inputs'. -/
theorem sound_kernel1 (c : Dev nD) (E : Set ℕ) (i : grid1.Coords) (arg0 : Memref sig .tc .vmem S5000x64 .f32) (harg0 : arg0.IsWhole) (arg1 : Memref sig .tc .vmem S5000x64 .f32) (harg1 : arg1.IsWhole) (arg2 : Memref sig .tc .vmem S64 .f32) (harg2 : arg2.IsWhole) (arg3 : Memref sig .tc .vmem S64 .f32) (harg3 : arg3.IsWhole) (arg4 : Memref sig .tc .vmem S64 .f32) (harg4 : arg4.IsWhole) (arg5 : Memref sig .tc .vmem S64 .f32) (harg5 : arg5.IsWhole) (arg6 : Memref sig .tc .vmem S5000x64 .f32) (harg6 : arg6.IsWhole)
    (x0 : Vec F S5000x64 .f32) (x1 : Vec F S5000x64 .f32) (x2 : Vec F S64 .f32) (x3 : Vec F S64 .f32) (x4 : Vec F S64 .f32) (x5 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__bn_relu_kernel i arg0 harg0 arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t`
    each input's buffer at its block and the output's at `out1_6` of the input blocks; the class invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- What the pipeline asks of the body, at every point: from its windows' buffers as the pipeline hands them over to
    the same buffers as the body leaves them. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.Reg2.lean ====
/- The read-out head at its one grid point, and what the pipeline's run around it is read with.
   The third launch (a grid of one point) takes the input h (512 x 64), the weights W_1 (64 x 128), b_1 (128),
   W_2 (128 x 1), b_2 (1), all whole, and computes softplus(h W_1 + b_1) W_2 + b_2, the 512 x 1 result of the program (the
   products taken on operands rounded to bf16). Established here, at any float instance and for any contents `V` of the
   arrays when the launch is entered: each window's block as a function of the array the launch finds (`iblk2`); the body
   reads its five input buffers whole, stores one value over its whole output buffer, terminates without a fault, leaves
   the inputs as they were and the output at `out2_5` of the inputs (`sound_kernel2`), which is the stored value of the
   blocks themselves (`out2_5_eq`); and every window's buffer before and after the body (`dat2`, `before2_w`, `after2_w`),
   from which the body meets what the pipeline asks of it (`body_obligation2`). -/
import proofs.«173417_j18064632447537_1_alg».proof.Proof.Gen.KernelIdeal.Launch
import proofs.«173417_j18064632447537_1_alg».proof.Proof.Gen.KernelIdeal.Skeleton
import proofs.«173417_j18064632447537_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! # Region 2: `cc2__mlp_head_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S512x64 := Rect.unit (s := S512x64) ![0, 0] S512x64.size inb_S512x64_S512x64_0_0
abbrev r2_1 : Rect S64x128 := Rect.unit (s := S64x128) ![0, 0] S64x128.size inb_S64x128_S64x128_0_0
abbrev r2_2 : Rect S128 := Rect.unit (s := S128) ![0] S128.size inb_S128_S128_0
abbrev r2_3 : Rect S128x1 := Rect.unit (s := S128x1) ![0, 0] S128x1.size inb_S128x1_S128x1_0_0
abbrev r2_4 : Rect S1 := Rect.unit (s := S1) ![0] S1.size inb_S1_S1_0
abbrev r2_5 : Rect S512x1 := Rect.unit (s := S512x1) ![0, 0] S512x1.size inb_S512x1_S512x1_0_0

/-- What the body leaves in its output buffer, from the input windows' blocks: its one store, of the payload
    over the blocks read whole. -/
def out2_5 (x0 : Vec F S512x64 .f32) (x1 : Vec F S64x128 .f32) (x2 : Vec F S128 .f32) (x3 : Vec F S128x1 .f32) (x4 : Vec F S1 .f32) : Vec F S512x1 .f32 :=
  View.canon [⟨r2_5, k2_pay1 (View.ld x0 r2_0) (View.ld x1 r2_1) (View.ld x2 r2_2) (View.ld x3 r2_3) (View.ld x4 r2_4)⟩]

/-- The one store covers the buffer. -/
theorem cover2_5 (p0 : Vec F S512x1 .f32) (y : S512x1.Idx) :
    ∃ pc ∈ ([⟨r2_5, p0⟩] : List (View.Piece (Elt F) S512x1 .f32)), y ∈ pc.1.set :=
  View.cover_of_tiled [⟨r2_5, p0⟩] S512x1.size (by rfl) y

/-- Read whole and stored whole, the buffer ends at the payload of the blocks themselves. -/
theorem out2_5_eq (x0 : Vec F S512x64 .f32) (x1 : Vec F S64x128 .f32) (x2 : Vec F S128 .f32) (x3 : Vec F S128x1 .f32) (x4 : Vec F S1 .f32) : out2_5 x0 x1 x2 x3 x4 = k2_pay1 x0 x1 x2 x3 x4 := by
  unfold out2_5
  rw [View.canon_unit_zero (S := S512x1) (funext fun a => by fin_cases a <;> rfl)]
  rw [View.ld_unit_zero (S := S512x64) (funext fun a => by fin_cases a <;> rfl) _ x0, View.ld_unit_zero (S := S64x128) (funext fun a => by fin_cases a <;> rfl) _ x1, View.ld_unit_zero (S := S128) (funext fun a => by fin_cases a <;> rfl) _ x2, View.ld_unit_zero (S := S128x1) (funext fun a => by fin_cases a <;> rfl) _ x3, View.ld_unit_zero (S := S1) (funext fun a => by fin_cases a <;> rfl) _ x4]

set_option maxHeartbeats 1000000 in
/-- The kernel body on whole staging buffers, the inputs' at contents `xW` and the output's at anything, runs to the
    continuation holding the inputs' as they were and the output's at `out2_5` of the inputs'. -/
theorem sound_kernel2 (c : Dev nD) (E : Set ℕ) (i : grid2.Coords) (arg0 : Memref sig .tc .vmem S512x64 .f32) (harg0 : arg0.IsWhole) (arg1 : Memref sig .tc .vmem S64x128 .f32) (harg1 : arg1.IsWhole) (arg2 : Memref sig .tc .vmem S128 .f32) (harg2 : arg2.IsWhole) (arg3 : Memref sig .tc .vmem S128x1 .f32) (harg3 : arg3.IsWhole) (arg4 : Memref sig .tc .vmem S1 .f32) (harg4 : arg4.IsWhole) (arg5 : Memref sig .tc .vmem S512x1 .f32) (harg5 : arg5.IsWhole)
    (x0 : Vec F S512x64 .f32) (x1 : Vec F S64x128 .f32) (x2 : Vec F S128 .f32) (x3 : Vec F S128x1 .f32) (x4 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__mlp_head_kernel i arg0 harg0 arg1 harg1 arg2 harg2 arg3 harg3 arg4 harg4 arg5 harg5) K := by
  simp only [cc2__mlp_head_kernel_eq_skeleton]; unfold cc2__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the class invariant;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- What the pipeline asks of the body, at every point: from its windows' buffers as the pipeline hands them over to
    the same buffers as the body leaves them. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/- The whole program's run. @main is three kernel launches among stretches of host operations: host operations, the message
   kernel (150 points), two host stretches, the normalisation kernel (10 points), host operations, the read-out head (one
   point). Established here, at any float instance, from any launch memory `m`: the contents of every buffer at each of the
   eight boundaries between those items (`W0` at launch … `W7` at the end: a host stretch applies its operations to the
   contents before it; a launch replaces its windows' arrays by what its pipeline leaves — an input as found, the output
   with every point's tile written back — and leaves every other buffer alone); each launch entered from the boundary
   before it and left at the one after (`reg0`, `reg1`, `reg2`); no item writes an argument array (`W7_main_argK`); and so
   (`run`) every weakly fair execution on the TensorCores terminates without a fault with the result buffer at `W7`'s
   contents and the fifteen argument arrays as launched (`frame`: the arguments alone). -/
import proofs.«173417_j18064632447537_1_alg».proof.Proof.Gen.KernelIdeal.Launch
import proofs.«173417_j18064632447537_1_alg».proof.Proof.Gen.KernelIdeal.Skeleton
import proofs.«173417_j18064632447537_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«173417_j18064632447537_1_alg».proof.Proof.Gen.KernelIdeal.Regions
import proofs.«173417_j18064632447537_1_alg».proof.Proof.KIRun.Reg0
import proofs.«173417_j18064632447537_1_alg».proof.Proof.KIRun.Reg1
import proofs.«173417_j18064632447537_1_alg».proof.Proof.KIRun.Reg2

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! # The run: the buffers' contents at each boundary between @main's items, folded from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After `hostOps1_1`. -/
abbrev W4 : Dev nD → Valuation τ sig (Elt F) := fun c => StableHlo.after hostOps1_1 (W3 m ρ c)
abbrev V4 : (c : Dev nD) → (b : Ref sig .tc) → Buf (Elt F) ((c : Thread nD τ).loc b) := fun c b => W4 m ρ c b
/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`. -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b
/-- At region 2's exit: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h

/-! ## No item writes an argument: a host stretch does not name it, a region reads it through an input window or
    passes it by -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := W5_of_ne m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of_ne m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of_ne m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of_ne m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := W1_of m ρ c main_arg5 (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of_ne m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := (W2_arr m ρ c 2).trans (((dat0 (V1 m ρ) c).arrAt_in 2 rfl _).trans (A_eq0 (V1 m ρ) c 2))
    _ = W0 m ρ c (Proc.devRef .tc main_arg6) := W1_of m ρ c main_arg6 (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of m ρ c main_arg7 (by decide)
    _ = W4 m ρ c (Proc.devRef .tc main_arg7) := W5_of_ne m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := (W2_arr m ρ c 3).trans (((dat0 (V1 m ρ) c).arrAt_in 3 rfl _).trans (A_eq0 (V1 m ρ) c 3))
    _ = W0 m ρ c (Proc.devRef .tc main_arg7) := W1_of m ρ c main_arg7 (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of m ρ c main_arg8 (by decide)
    _ = W4 m ρ c (Proc.devRef .tc main_arg8) := W5_of_ne m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := (W2_arr m ρ c 4).trans (((dat0 (V1 m ρ) c).arrAt_in 4 rfl _).trans (A_eq0 (V1 m ρ) c 4))
    _ = W0 m ρ c (Proc.devRef .tc main_arg8) := W1_of m ρ c main_arg8 (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_of m ρ c main_arg9 (by decide)
    _ = W4 m ρ c (Proc.devRef .tc main_arg9) := (W5_arr m ρ c 4).trans (((dat1 (V4 m ρ) c).arrAt_in 4 rfl _).trans (A_eq1 (V4 m ρ) c 4))
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := W6_of m ρ c main_arg10 (by decide)
    _ = W4 m ρ c (Proc.devRef .tc main_arg10) := (W5_arr m ρ c 5).trans (((dat1 (V4 m ρ) c).arrAt_in 5 rfl _).trans (A_eq1 (V4 m ρ) c 5))
    _ = W3 m ρ c (Proc.devRef .tc main_arg10) := W4_of m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := (W7_arr m ρ c 1).trans (((dat2 (V6 m ρ) c).arrAt_in 1 rfl _).trans (A_eq2 (V6 m ρ) c 1))
    _ = W5 m ρ c (Proc.devRef .tc main_arg11) := W6_of m ρ c main_arg11 (by decide)
    _ = W4 m ρ c (Proc.devRef .tc main_arg11) := W5_of_ne m ρ c main_arg11 (by decide)
    _ = W3 m ρ c (Proc.devRef .tc main_arg11) := W4_of m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := (W7_arr m ρ c 2).trans (((dat2 (V6 m ρ) c).arrAt_in 2 rfl _).trans (A_eq2 (V6 m ρ) c 2))
    _ = W5 m ρ c (Proc.devRef .tc main_arg12) := W6_of m ρ c main_arg12 (by decide)
    _ = W4 m ρ c (Proc.devRef .tc main_arg12) := W5_of_ne m ρ c main_arg12 (by decide)
    _ = W3 m ρ c (Proc.devRef .tc main_arg12) := W4_of m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := (W7_arr m ρ c 3).trans (((dat2 (V6 m ρ) c).arrAt_in 3 rfl _).trans (A_eq2 (V6 m ρ) c 3))
    _ = W5 m ρ c (Proc.devRef .tc main_arg13) := W6_of m ρ c main_arg13 (by decide)
    _ = W4 m ρ c (Proc.devRef .tc main_arg13) := W5_of_ne m ρ c main_arg13 (by decide)
    _ = W3 m ρ c (Proc.devRef .tc main_arg13) := W4_of m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := (W7_arr m ρ c 4).trans (((dat2 (V6 m ρ) c).arrAt_in 4 rfl _).trans (A_eq2 (V6 m ρ) c 4))
    _ = W5 m ρ c (Proc.devRef .tc main_arg14) := W6_of m ρ c main_arg14 (by decide)
    _ = W4 m ρ c (Proc.devRef .tc main_arg14) := W5_of_ne m ρ c main_arg14 (by decide)
    _ = W3 m ρ c (Proc.devRef .tc main_arg14) := W4_of m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl
/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at `W1`, left at `W2`. Its arrays are
    split out of the unscoped buffers and put back at the exit contents; the generator register goes into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are
    split out of the unscoped buffers and put back at the exit contents; the generator register goes into the class
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. Its arrays are
    split out of the unscoped buffers and put back at the exit contents; the generator register goes into the class
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .region (reg2 m ρ) ]

set_option backward.isDefEq.respectTransparency.types false in
/-- THE RUN: at the compiled mesh, from any memory with zero counters, every weakly fair execution of @main on the
    TensorCores terminates, nothing faulting, and every final state has the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v72 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

/-- THE FRAME: the run, read at the argument arrays only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run m ρ)

end Cert.KernelIdeal.Hand

end
-- ==== Proof.RefRun.lean ====
/- The reference program's run: @main of the reference as a list of its 196 host operations
   (the four outlined functions' bodies listed where they are called, over that call's buffers), cut
   into six consecutive stretches, and the run read back: every weakly fair execution terminates with
   the result buffer at the operations' fold over the launch contents and every argument unchanged. -/
import proofs.«173417_j18064632447537_1_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main from its first statement to the concatenate writing `main_v50`: the index arithmetic, the gathers of the node and edge features, the two scatter-adds and the mean they form. 65 operations. -/
abbrev ops0 : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 101#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg4 main_v5 main_v6 ((fun x i => Host.gather gather_S101x64_S50000x1_S50000x64_1_0_n_n_0_1_164 x i) : (⟨S101x64, .f32⟩ : BufTy).Contents (Elt F) → (⟨S50000x1, .i32⟩ : BufTy).Contents (Elt F) → (⟨S50000x64, .f32⟩ : BufTy).Contents (Elt F)),
    StableHlo.unary main_arg2 main_v7 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v7 main_v8 rfl shapeCasts_S1x600000_S600000,
    StableHlo.unary main_arg2 main_v9 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v9 main_v10 rfl shapeCasts_S1x600000_S600000,
    StableHlo.nullary main_c_1 (constantI S_ 32 0#32),
    StableHlo.unary main_c_1 main_v11 (broadcastInDim S600000 ![] bcast_S_S600000 : (⟨S_, .i32⟩ : BufTy).Contents (Elt F) → (⟨S600000, .i32⟩ : BufTy).Contents (Elt F)),
    StableHlo.binary main_v8 main_v11 main_v12 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v13 (broadcastInDim S600000 ![] bcast_S_S600000 : (⟨S_, .i32⟩ : BufTy).Contents (Elt F) → (⟨S600000, .i32⟩ : BufTy).Contents (Elt F)),
    StableHlo.binary main_v8 main_v13 main_v14 (addi : (⟨S600000, .i32⟩ : BufTy).Contents (Elt F) → (⟨S600000, .i32⟩ : BufTy).Contents (Elt F) → (⟨S600000, .i32⟩ : BufTy).Contents (Elt F)),
    StableHlo.ternary main_v12 main_v14 main_v8 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v15 main_v16 (broadcastInDim S600000x1 ![0] bcast_S600000_S600000x1_0 : (⟨S600000, .i32⟩ : BufTy).Contents (Elt F) → (⟨S600000x1, .i32⟩ : BufTy).Contents (Elt F)),
    StableHlo.binary main_v6 main_v16 main_v17 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    StableHlo.nullary main_cst (constant S_ .f32 0x00000000#32),
    StableHlo.unary main_cst main_v18 (broadcastInDim S50000x64 ![] bcast_S_S50000x64 : (⟨S_, .f32⟩ : BufTy).Contents (Elt F) → (⟨S50000x64, .f32⟩ : BufTy).Contents (Elt F)),
    StableHlo.unary main_v10 main_v19 (broadcastInDim S600000x1 ![0] bcast_S600000_S600000x1_0 : (⟨S600000, .i32⟩ : BufTy).Contents (Elt F) → (⟨S600000x1, .i32⟩ : BufTy).Contents (Elt F)),
    StableHlo.ternary main_v18 main_v19 main_v17 main_v20 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F)),
    StableHlo.nullary main_cst_3 (constant S_ .f32 0x3F800000#32),
    StableHlo.unary main_cst_3 main_v21 (broadcastInDim S600000x1 ![] bcast_S_S600000x1 : (⟨S_, .f32⟩ : BufTy).Contents (Elt F) → (⟨S600000x1, .f32⟩ : BufTy).Contents (Elt F)),
    StableHlo.nullary main_cst_4 (constant S_ .f32 0x00000000#32),
    StableHlo.unary main_cst_4 main_v22 (broadcastInDim S50000x1 ![] bcast_S_S50000x1 : (⟨S_, .f32⟩ : BufTy).Contents (Elt F) → (⟨S50000x1, .f32⟩ : BufTy).Contents (Elt F)),
    StableHlo.unary main_v10 main_v23 (broadcastInDim S600000x1 ![0] bcast_S600000_S600000x1_0 : (⟨S600000, .i32⟩ : BufTy).Contents (Elt F) → (⟨S600000x1, .i32⟩ : BufTy).Contents (Elt F)),
    StableHlo.ternary main_v22 main_v23 main_v21 main_v24 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F)),
    StableHlo.nullary main_cst_5 (constant S_ .f32 0x3F800000#32),
    StableHlo.unary main_cst_5 main_v25 (broadcastInDim S50000x1 ![] bcast_S_S50000x1 : (⟨S_, .f32⟩ : BufTy).Contents (Elt F) → (⟨S50000x1, .f32⟩ : BufTy).Contents (Elt F)),
    StableHlo.binary main_v24 main_v25 main_v26 (maximumf : (⟨S50000x1, .f32⟩ : BufTy).Contents (Elt F) → (⟨S50000x1, .f32⟩ : BufTy).Contents (Elt F) → (⟨S50000x1, .f32⟩ : BufTy).Contents (Elt F)),
    StableHlo.unary main_v26 main_v27 (broadcastInDim S50000x64 ![0, 1] bcast_S50000x1_S50000x64_0_1 : (⟨S50000x1, .f32⟩ : BufTy).Contents (Elt F) → (⟨S50000x64, .f32⟩ : BufTy).Contents (Elt F)),
    StableHlo.binary main_v20 main_v27 main_v28 (Host.divf : (⟨S50000x64, .f32⟩ : BufTy).Contents (Elt F) → (⟨S50000x64, .f32⟩ : BufTy).Contents (Elt F) → (⟨S50000x64, .f32⟩ : BufTy).Contents (Elt F)),
    StableHlo.nullary main_c_6 (constantI S_ 32 0#32),
    StableHlo.unary main_c_6 main_v29 (broadcastInDim S600000 ![] bcast_S_S600000 : (⟨S_, .i32⟩ : BufTy).Contents (Elt F) → (⟨S600000, .i32⟩ : BufTy).Contents (Elt F)),
    StableHlo.binary main_v8 main_v29 main_v30 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v31 (broadcastInDim S600000 ![] bcast_S_S600000 : (⟨S_, .i32⟩ : BufTy).Contents (Elt F) → (⟨S600000, .i32⟩ : BufTy).Contents (Elt F)),
    StableHlo.binary main_v8 main_v31 main_v32 (addi : (⟨S600000, .i32⟩ : BufTy).Contents (Elt F) → (⟨S600000, .i32⟩ : BufTy).Contents (Elt F) → (⟨S600000, .i32⟩ : BufTy).Contents (Elt F)),
    StableHlo.ternary main_v30 main_v32 main_v8 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v33 main_v34 (broadcastInDim S600000x1 ![0] bcast_S600000_S600000x1_0 : (⟨S600000, .i32⟩ : BufTy).Contents (Elt F) → (⟨S600000x1, .i32⟩ : BufTy).Contents (Elt F)),
    StableHlo.binary main_v6 main_v34 main_v35 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    StableHlo.nullary main_c_8 (constantI S_ 32 0#32),
    StableHlo.unary main_c_8 main_v36 (broadcastInDim S600000 ![] bcast_S_S600000 : (⟨S_, .i32⟩ : BufTy).Contents (Elt F) → (⟨S600000, .i32⟩ : BufTy).Contents (Elt F)),
    StableHlo.binary main_v10 main_v36 main_v37 (cmpi .slt : (⟨S600000, .i32⟩ : BufTy).Contents (Elt F) → (⟨S600000, .i32⟩ : BufTy).Contents (Elt F) → (⟨S600000, .i1⟩ : BufTy).Contents (Elt F)),
    StableHlo.nullary main_c_9 (constantI S_ 32 50000#32),
    StableHlo.unary main_c_9 main_v38 (broadcastInDim S600000 ![] bcast_S_S600000 : (⟨S_, .i32⟩ : BufTy).Contents (Elt F) → (⟨S600000, .i32⟩ : BufTy).Contents (Elt F)),
    StableHlo.binary main_v10 main_v38 main_v39 (addi : (⟨S600000, .i32⟩ : BufTy).Contents (Elt F) → (⟨S600000, .i32⟩ : BufTy).Contents (Elt F) → (⟨S600000, .i32⟩ : BufTy).Contents (Elt F)),
    StableHlo.ternary main_v37 main_v39 main_v10 main_v40 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v40 main_v41 (broadcastInDim S600000x1 ![0] bcast_S600000_S600000x1_0 : (⟨S600000, .i32⟩ : BufTy).Contents (Elt F) → (⟨S600000x1, .i32⟩ : BufTy).Contents (Elt F)),
    StableHlo.binary main_v28 main_v41 main_v42 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    StableHlo.nullary main_c_10 (constantI S_ 32 0#32),
    StableHlo.unary main_c_10 main_v43 (broadcastInDim S600000 ![] bcast_S_S600000 : (⟨S_, .i32⟩ : BufTy).Contents (Elt F) → (⟨S600000, .i32⟩ : BufTy).Contents (Elt F)),
    StableHlo.binary main_v10 main_v43 main_v44 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 50000#32),
    StableHlo.unary main_c_11 main_v45 (broadcastInDim S600000 ![] bcast_S_S600000 : (⟨S_, .i32⟩ : BufTy).Contents (Elt F) → (⟨S600000, .i32⟩ : BufTy).Contents (Elt F)),
    StableHlo.binary main_v10 main_v45 main_v46 (addi : (⟨S600000, .i32⟩ : BufTy).Contents (Elt F) → (⟨S600000, .i32⟩ : BufTy).Contents (Elt F) → (⟨S600000, .i32⟩ : BufTy).Contents (Elt F)),
    StableHlo.ternary main_v44 main_v46 main_v10 main_v47 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v47 main_v48 (broadcastInDim S600000x1 ![0] bcast_S600000_S600000x1_0 : (⟨S600000, .i32⟩ : BufTy).Contents (Elt F) → (⟨S600000x1, .i32⟩ : BufTy).Contents (Elt F)),
    StableHlo.binary main_arg1 main_v48 main_v49 ((fun x i => Host.gather gather_S50000x94_S600000x1_S600000x94_1_0_n_n_0_1_194 x i) : (⟨S50000x94, .f32⟩ : BufTy).Contents (Elt F) → (⟨S600000x1, .i32⟩ : BufTy).Contents (Elt F) → (⟨S600000x94, .f32⟩ : BufTy).Contents (Elt F)),
    StableHlo.nary ![main_v35, main_v42, main_v49] main_v50 (fun u => concatenate S600000x222 1 [⟨S600000x64, u 0⟩, ⟨S600000x64, u 1⟩, ⟨S600000x94, u 2⟩] concatenates_S600000x64_S600000x64_S600000x94_S600000x222_d1) ]

/-- From the first dot_general (`main_v51`) to the product `main_v66`: the gate, the second dot_general, softplus (the call's fourteen operations, result `main_v65`) and their product. 31 operations. -/
abbrev ops1 : List (HloOp τ sig (Elt F)) :=
  [ StableHlo.binary main_v50 main_arg5 main_v51 ((fun l r => Host.dotGeneral dot_S600000x222_S222x64_S600000x64_1_0_0_1_n_n none l r) : (⟨S600000x222, .f32⟩ : BufTy).Contents (Elt F) → (⟨S222x64, .f32⟩ : BufTy).Contents (Elt F) → (⟨S600000x64, .f32⟩ : BufTy).Contents (Elt F)),
    StableHlo.unary main_arg6 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S600000x64 ![0, 1] bcast_S1x64_S600000x64_0_1 : (⟨S1x64, .f32⟩ : BufTy).Contents (Elt F) → (⟨S600000x64, .f32⟩ : BufTy).Contents (Elt F)),
    StableHlo.binary main_v51 main_v53 main_v54 (addf : (⟨S600000x64, .f32⟩ : BufTy).Contents (Elt F) → (⟨S600000x64, .f32⟩ : BufTy).Contents (Elt F) → (⟨S600000x64, .f32⟩ : BufTy).Contents (Elt F)),
    StableHlo.unary main_v54 main_v55 (Host.negf : (⟨S600000x64, .f32⟩ : BufTy).Contents (Elt F) → (⟨S600000x64, .f32⟩ : BufTy).Contents (Elt F)),
    StableHlo.unary main_v55 main_v56 (Host.exp : (⟨S600000x64, .f32⟩ : BufTy).Contents (Elt F) → (⟨S600000x64, .f32⟩ : BufTy).Contents (Elt F)),
    StableHlo.nullary main_cst_12 (constant S_ .f32 0x3F800000#32),
    StableHlo.unary main_cst_12 main_v57 (broadcastInDim S600000x64 ![] bcast_S_S600000x64 : (⟨S_, .f32⟩ : BufTy).Contents (Elt F) → (⟨S600000x64, .f32⟩ : BufTy).Contents (Elt F)),
    StableHlo.binary main_v57 main_v56 main_v58 (addf : (⟨S600000x64, .f32⟩ : BufTy).Contents (Elt F) → (⟨S600000x64, .f32⟩ : BufTy).Contents (Elt F) → (⟨S600000x64, .f32⟩ : BufTy).Contents (Elt F)),
    StableHlo.nullary main_cst_13 (constant S_ .f32 0x3F800000#32),
    StableHlo.unary main_cst_13 main_v59 (broadcastInDim S600000x64 ![] bcast_S_S600000x64 : (⟨S_, .f32⟩ : BufTy).Contents (Elt F) → (⟨S600000x64, .f32⟩ : BufTy).Contents (Elt F)),
    StableHlo.binary main_v59 main_v58 main_v60 (Host.divf : (⟨S600000x64, .f32⟩ : BufTy).Contents (Elt F) → (⟨S600000x64, .f32⟩ : BufTy).Contents (Elt F) → (⟨S600000x64, .f32⟩ : BufTy).Contents (Elt F)),
    StableHlo.binary main_v50 main_arg7 main_v61 ((fun l r => Host.dotGeneral dot_S600000x222_S222x64_S600000x64_1_0_0_1_n_n none l r) : (⟨S600000x222, .f32⟩ : BufTy).Contents (Elt F) → (⟨S222x64, .f32⟩ : BufTy).Contents (Elt F) → (⟨S600000x64, .f32⟩ : BufTy).Contents (Elt F)),
    StableHlo.unary main_arg8 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S600000x64 ![0, 1] bcast_S1x64_S600000x64_0_1 : (⟨S1x64, .f32⟩ : BufTy).Contents (Elt F) → (⟨S600000x64, .f32⟩ : BufTy).Contents (Elt F)),
    StableHlo.binary main_v61 main_v63 main_v64 (addf : (⟨S600000x64, .f32⟩ : BufTy).Contents (Elt F) → (⟨S600000x64, .f32⟩ : BufTy).Contents (Elt F) → (⟨S600000x64, .f32⟩ : BufTy).Contents (Elt F)),
    StableHlo.TRef.nullary main_call0.cst (constant S_ .f32 0x00000000#32),
    StableHlo.TRef.unary main_call0.cst main_call0.v0 (broadcastInDim S600000x64 ![] bcast_S_S600000x64),
    StableHlo.TRef.binary (.of main_v64 : StableHlo.TRef sig ⟨S600000x64, .f32⟩) main_call0.v0 main_call0.v1 maximumf,
    StableHlo.TRef.unary main_call0.cst main_call0.v2 (broadcastInDim S600000x64 ![] bcast_S_S600000x64),
    StableHlo.TRef.binary (.of main_v64 : StableHlo.TRef sig ⟨S600000x64, .f32⟩) main_call0.v2 main_call0.v3 subf,
    StableHlo.TRef.binary main_call0.v3 main_call0.v3 main_call0.v4 (cmpf .une),
    StableHlo.TRef.unary main_call0.cst main_call0.v5 (broadcastInDim S600000x64 ![] bcast_S_S600000x64),
    StableHlo.TRef.binary (.of main_v64 : StableHlo.TRef sig ⟨S600000x64, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.binary main_v60 main_v65 main_v66 (mulf : (⟨S600000x64, .f32⟩ : BufTy).Contents (Elt F) → (⟨S600000x64, .f32⟩ : BufTy).Contents (Elt F) → (⟨S600000x64, .f32⟩ : BufTy).Contents (Elt F)) ]

/-- From `main_cst_14` to the variance call's result `main_v81`: the scatter-mean `main_v77`, its column mean `main_v80`, then the variance function's nineteen operations and the three of the select it calls. 43 operations. -/
abbrev ops2 : List (HloOp τ sig (Elt F)) :=
  [ StableHlo.nullary main_cst_14 (constant S_ .f32 0x00000000#32),
    StableHlo.unary main_cst_14 main_v67 (broadcastInDim S50000x64 ![] bcast_S_S50000x64 : (⟨S_, .f32⟩ : BufTy).Contents (Elt F) → (⟨S50000x64, .f32⟩ : BufTy).Contents (Elt F)),
    StableHlo.unary main_v8 main_v68 (broadcastInDim S600000x1 ![0] bcast_S600000_S600000x1_0 : (⟨S600000, .i32⟩ : BufTy).Contents (Elt F) → (⟨S600000x1, .i32⟩ : BufTy).Contents (Elt F)),
    StableHlo.ternary main_v67 main_v68 main_v66 main_v69 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F)),
    StableHlo.nullary main_cst_15 (constant S_ .f32 0x3F800000#32),
    StableHlo.unary main_cst_15 main_v70 (broadcastInDim S600000x1 ![] bcast_S_S600000x1 : (⟨S_, .f32⟩ : BufTy).Contents (Elt F) → (⟨S600000x1, .f32⟩ : BufTy).Contents (Elt F)),
    StableHlo.nullary main_cst_16 (constant S_ .f32 0x00000000#32),
    StableHlo.unary main_cst_16 main_v71 (broadcastInDim S50000x1 ![] bcast_S_S50000x1 : (⟨S_, .f32⟩ : BufTy).Contents (Elt F) → (⟨S50000x1, .f32⟩ : BufTy).Contents (Elt F)),
    StableHlo.unary main_v8 main_v72 (broadcastInDim S600000x1 ![0] bcast_S600000_S600000x1_0 : (⟨S600000, .i32⟩ : BufTy).Contents (Elt F) → (⟨S600000x1, .i32⟩ : BufTy).Contents (Elt F)),
    StableHlo.ternary main_v71 main_v72 main_v70 main_v73 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F)),
    StableHlo.nullary main_cst_17 (constant S_ .f32 0x3F800000#32),
    StableHlo.unary main_cst_17 main_v74 (broadcastInDim S50000x1 ![] bcast_S_S50000x1 : (⟨S_, .f32⟩ : BufTy).Contents (Elt F) → (⟨S50000x1, .f32⟩ : BufTy).Contents (Elt F)),
    StableHlo.binary main_v73 main_v74 main_v75 (maximumf : (⟨S50000x1, .f32⟩ : BufTy).Contents (Elt F) → (⟨S50000x1, .f32⟩ : BufTy).Contents (Elt F) → (⟨S50000x1, .f32⟩ : BufTy).Contents (Elt F)),
    StableHlo.unary main_v75 main_v76 (broadcastInDim S50000x64 ![0, 1] bcast_S50000x1_S50000x64_0_1 : (⟨S50000x1, .f32⟩ : BufTy).Contents (Elt F) → (⟨S50000x64, .f32⟩ : BufTy).Contents (Elt F)),
    StableHlo.binary main_v69 main_v76 main_v77 (Host.divf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x00000000#32),
    StableHlo.binary main_v77 main_cst_18 main_v78 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_19 (constant S_ .f32 0x47435000#32),
    StableHlo.unary main_cst_19 main_v79 (broadcastInDim S64 ![] bcast_S_S64 : (⟨S_, .f32⟩ : BufTy).Contents (Elt F) → (⟨S64, .f32⟩ : BufTy).Contents (Elt F)),
    StableHlo.binary main_v78 main_v79 main_v80 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call1.cst (constant S_ .f32 0x00000000#32),
    StableHlo.TRef.binary (.of main_v77 : StableHlo.TRef sig ⟨S50000x64, .f32⟩) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v77 : StableHlo.TRef sig ⟨S50000x64, .f32⟩) main_call1.v4 main_call1.v5 subf,
    StableHlo.TRef.binary main_call1.v5 main_call1.v5 main_call1.v6 mulf,
    StableHlo.TRef.unary (.of main_c_20 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b) ]

/-- From `main_v82` to the relu call's result `main_v98`: the normalization, scale and shift, the residual sum, then relu's three operations. 20 operations. -/
abbrev ops3 : List (HloOp τ sig (Elt F)) :=
  [ StableHlo.unary main_v80 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S50000x64 ![0, 1] bcast_S1x64_S50000x64_0_1 : (⟨S1x64, .f32⟩ : BufTy).Contents (Elt F) → (⟨S50000x64, .f32⟩ : BufTy).Contents (Elt F)),
    StableHlo.binary main_v77 main_v83 main_v84 (subf : (⟨S50000x64, .f32⟩ : BufTy).Contents (Elt F) → (⟨S50000x64, .f32⟩ : BufTy).Contents (Elt F) → (⟨S50000x64, .f32⟩ : BufTy).Contents (Elt F)),
    StableHlo.nullary main_cst_21 (constant S_ .f32 0x3727C5AC#32),
    StableHlo.unary main_cst_21 main_v85 (broadcastInDim S64 ![] bcast_S_S64 : (⟨S_, .f32⟩ : BufTy).Contents (Elt F) → (⟨S64, .f32⟩ : BufTy).Contents (Elt F)),
    StableHlo.binary main_v81 main_v85 main_v86 (addf : (⟨S64, .f32⟩ : BufTy).Contents (Elt F) → (⟨S64, .f32⟩ : BufTy).Contents (Elt F) → (⟨S64, .f32⟩ : BufTy).Contents (Elt F)),
    StableHlo.unary main_v86 main_v87 (Host.sqrt : (⟨S64, .f32⟩ : BufTy).Contents (Elt F) → (⟨S64, .f32⟩ : BufTy).Contents (Elt F)),
    StableHlo.unary main_v87 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v84 main_v89 main_v90 (Host.divf : (⟨S50000x64, .f32⟩ : BufTy).Contents (Elt F) → (⟨S50000x64, .f32⟩ : BufTy).Contents (Elt F) → (⟨S50000x64, .f32⟩ : BufTy).Contents (Elt F)),
    StableHlo.unary main_arg9 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S50000x64 ![0, 1] bcast_S1x64_S50000x64_0_1 : (⟨S1x64, .f32⟩ : BufTy).Contents (Elt F) → (⟨S50000x64, .f32⟩ : BufTy).Contents (Elt F)),
    StableHlo.binary main_v90 main_v92 main_v93 (mulf : (⟨S50000x64, .f32⟩ : BufTy).Contents (Elt F) → (⟨S50000x64, .f32⟩ : BufTy).Contents (Elt F) → (⟨S50000x64, .f32⟩ : BufTy).Contents (Elt F)),
    StableHlo.unary main_arg10 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S50000x64 ![0, 1] bcast_S1x64_S50000x64_0_1 : (⟨S1x64, .f32⟩ : BufTy).Contents (Elt F) → (⟨S50000x64, .f32⟩ : BufTy).Contents (Elt F)),
    StableHlo.binary main_v93 main_v95 main_v96 (addf : (⟨S50000x64, .f32⟩ : BufTy).Contents (Elt F) → (⟨S50000x64, .f32⟩ : BufTy).Contents (Elt F) → (⟨S50000x64, .f32⟩ : BufTy).Contents (Elt F)),
    StableHlo.binary main_v96 main_v6 main_v97 (addf : (⟨S50000x64, .f32⟩ : BufTy).Contents (Elt F) → (⟨S50000x64, .f32⟩ : BufTy).Contents (Elt F) → (⟨S50000x64, .f32⟩ : BufTy).Contents (Elt F)),
    StableHlo.TRef.nullary main_call2.cst (constant S_ .f32 0x00000000#32),
    StableHlo.TRef.unary main_call2.cst main_call2.v0 (broadcastInDim S50000x64 ![] bcast_S_S50000x64),
    StableHlo.TRef.binary (.of main_v97 : StableHlo.TRef sig ⟨S50000x64, .f32⟩) main_call2.v0 main_call2.v1 maximumf ]

/-- From `main_cst_22` to the quotient `main_v109`: the pooling scatter-adds and the mean they form. 15 operations. -/
abbrev ops4 : List (HloOp τ sig (Elt F)) :=
  [ StableHlo.nullary main_cst_22 (constant S_ .f32 0x00000000#32),
    StableHlo.unary main_cst_22 main_v99 (broadcastInDim S512x64 ![] bcast_S_S512x64 : (⟨S_, .f32⟩ : BufTy).Contents (Elt F) → (⟨S512x64, .f32⟩ : BufTy).Contents (Elt F)),
    StableHlo.unary main_arg3 main_v100 (broadcastInDim S50000x1 ![0] bcast_S50000_S50000x1_0 : (⟨S50000, .i32⟩ : BufTy).Contents (Elt F) → (⟨S50000x1, .i32⟩ : BufTy).Contents (Elt F)),
    StableHlo.ternary main_v99 main_v100 main_v98 main_v101 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_23 (constant S_ .f32 0x3F800000#32),
    StableHlo.unary main_cst_23 main_v102 (broadcastInDim S50000x1 ![] bcast_S_S50000x1 : (⟨S_, .f32⟩ : BufTy).Contents (Elt F) → (⟨S50000x1, .f32⟩ : BufTy).Contents (Elt F)),
    StableHlo.nullary main_cst_24 (constant S_ .f32 0x00000000#32),
    StableHlo.unary main_cst_24 main_v103 (broadcastInDim S512x1 ![] bcast_S_S512x1 : (⟨S_, .f32⟩ : BufTy).Contents (Elt F) → (⟨S512x1, .f32⟩ : BufTy).Contents (Elt F)),
    StableHlo.unary main_arg3 main_v104 (broadcastInDim S50000x1 ![0] bcast_S50000_S50000x1_0 : (⟨S50000, .i32⟩ : BufTy).Contents (Elt F) → (⟨S50000x1, .i32⟩ : BufTy).Contents (Elt F)),
    StableHlo.ternary main_v103 main_v104 main_v102 main_v105 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)),
    StableHlo.nullary main_cst_25 (constant S_ .f32 0x3F800000#32),
    StableHlo.unary main_cst_25 main_v106 (broadcastInDim S512x1 ![] bcast_S_S512x1 : (⟨S_, .f32⟩ : BufTy).Contents (Elt F) → (⟨S512x1, .f32⟩ : BufTy).Contents (Elt F)),
    StableHlo.binary main_v105 main_v106 main_v107 (maximumf : (⟨S512x1, .f32⟩ : BufTy).Contents (Elt F) → (⟨S512x1, .f32⟩ : BufTy).Contents (Elt F) → (⟨S512x1, .f32⟩ : BufTy).Contents (Elt F)),
    StableHlo.unary main_v107 main_v108 (broadcastInDim S512x64 ![0, 1] bcast_S512x1_S512x64_0_1 : (⟨S512x1, .f32⟩ : BufTy).Contents (Elt F) → (⟨S512x64, .f32⟩ : BufTy).Contents (Elt F)),
    StableHlo.binary main_v101 main_v108 main_v109 (Host.divf : (⟨S512x64, .f32⟩ : BufTy).Contents (Elt F) → (⟨S512x64, .f32⟩ : BufTy).Contents (Elt F) → (⟨S512x64, .f32⟩ : BufTy).Contents (Elt F)) ]

/-- From the dot_general writing `main_v110` to the last operation (`main_v118`): the first dense layer, softplus (fourteen operations, result `main_v114`), the second dense layer. 22 operations. -/
abbrev ops5 : List (HloOp τ sig (Elt F)) :=
  [ StableHlo.binary main_v109 main_arg11 main_v110 ((fun l r => Host.dotGeneral dot_S512x64_S64x128_S512x128_1_0_0_1_n_n none l r) : (⟨S512x64, .f32⟩ : BufTy).Contents (Elt F) → (⟨S64x128, .f32⟩ : BufTy).Contents (Elt F) → (⟨S512x128, .f32⟩ : BufTy).Contents (Elt F)),
    StableHlo.unary main_arg12 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S512x128 ![0, 1] bcast_S1x128_S512x128_0_1 : (⟨S1x128, .f32⟩ : BufTy).Contents (Elt F) → (⟨S512x128, .f32⟩ : BufTy).Contents (Elt F)),
    StableHlo.binary main_v110 main_v112 main_v113 (addf : (⟨S512x128, .f32⟩ : BufTy).Contents (Elt F) → (⟨S512x128, .f32⟩ : BufTy).Contents (Elt F) → (⟨S512x128, .f32⟩ : BufTy).Contents (Elt F)),
    StableHlo.TRef.nullary main_call3.cst (constant S_ .f32 0x00000000#32),
    StableHlo.TRef.unary main_call3.cst main_call3.v0 (broadcastInDim S512x128 ![] bcast_S_S512x128),
    StableHlo.TRef.binary (.of main_v113 : StableHlo.TRef sig ⟨S512x128, .f32⟩) main_call3.v0 main_call3.v1 maximumf,
    StableHlo.TRef.unary main_call3.cst main_call3.v2 (broadcastInDim S512x128 ![] bcast_S_S512x128),
    StableHlo.TRef.binary (.of main_v113 : StableHlo.TRef sig ⟨S512x128, .f32⟩) main_call3.v2 main_call3.v3 subf,
    StableHlo.TRef.binary main_call3.v3 main_call3.v3 main_call3.v4 (cmpf .une),
    StableHlo.TRef.unary main_call3.cst main_call3.v5 (broadcastInDim S512x128 ![] bcast_S_S512x128),
    StableHlo.TRef.binary (.of main_v113 : StableHlo.TRef sig ⟨S512x128, .f32⟩) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select,
    StableHlo.binary main_v114 main_arg13 main_v115 ((fun l r => Host.dotGeneral dot_S512x128_S128x1_S512x1_1_0_0_1_n_n none l r) : (⟨S512x128, .f32⟩ : BufTy).Contents (Elt F) → (⟨S128x1, .f32⟩ : BufTy).Contents (Elt F) → (⟨S512x1, .f32⟩ : BufTy).Contents (Elt F)),
    StableHlo.unary main_arg14 main_v116 (broadcastInDim S1x1 ![1] bcast_S1_S1x1_1 : (⟨S1, .f32⟩ : BufTy).Contents (Elt F) → (⟨S1x1, .f32⟩ : BufTy).Contents (Elt F)),
    StableHlo.unary main_v116 main_v117 (broadcastInDim S512x1 ![0, 1] bcast_S1x1_S512x1_0_1 : (⟨S1x1, .f32⟩ : BufTy).Contents (Elt F) → (⟨S512x1, .f32⟩ : BufTy).Contents (Elt F)),
    StableHlo.binary main_v115 main_v117 main_v118 (addf : (⟨S512x1, .f32⟩ : BufTy).Contents (Elt F) → (⟨S512x1, .f32⟩ : BufTy).Contents (Elt F) → (⟨S512x1, .f32⟩ : BufTy).Contents (Elt F)) ]

/-- @main's 196 operations, in program order. -/
abbrev ops : List (HloOp τ sig (Elt F)) := ops0 ++ ops1 ++ ops2 ++ ops3 ++ ops4 ++ ops5

/-! ## @main is that line -/

/-- A property of every element of two lists is one of every element of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- The fold over a concatenation is the fold over the second list from the fold over the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

set_option maxRecDepth 16384 in
set_option maxHeartbeats 4000000 in
/-- @main is the straight line of its operations: its three windows and the four functions' definitions unfolded at
    their calls, both sides are one chain of steps once sequencing is reassociated. -/
theorem main_eq (c : Dev nD) : main (F := F) c = StableHlo.seq ops := by
  simp only [ops, StableHlo.seq_append]
  simp only [main, main_part0, main_part1, main_part2, fn_softplus.body, fn_var.body, fn_where.body, fn_relu.body,
    fn_softplus_0.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## What the stretches touch and write -/

/-- Each operation of the stretch touches TensorCore references only. -/
theorem ops0_sub : (ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.unary_bufs_sub .., StableHlo.reshape_bufs_sub .., StableHlo.unary_bufs_sub ..,
    StableHlo.reshape_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.nullary_bufs_sub .., StableHlo.unary_bufs_sub ..,
    StableHlo.unary_bufs_sub .., StableHlo.ternary_bufs_sub .., StableHlo.nullary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.nary_bufs_sub ..⟩
/-- Each operation of the stretch determines its result. -/
theorem ops0_fresh : (ops0 : List (HloOp τ sig (Elt F))).Forall fun op => op.fresh = ∅ := by
  simp only [List.Forall]; repeat' constructor
/-- The references the stretch writes, in order. -/
abbrev W0 : List (Ref sig .tc) := [main_c, main_v0, main_v1, main_c_0, main_v2, main_v3, main_v4, main_v5, main_v6, main_v7, main_v8, main_v9, main_v10, main_c_1, main_v11, main_v12, main_c_2, main_v13, main_v14, main_v15, main_v16, main_v17, main_cst, main_v18, main_v19, main_v20, main_cst_3, main_v21, main_cst_4, main_v22, main_v23, main_v24, main_cst_5, main_v25, main_v26, main_v27, main_v28, main_c_6, main_v29, main_v30, main_c_7, main_v31, main_v32, main_v33, main_v34, main_v35, main_c_8, main_v36, main_v37, main_c_9, main_v38, main_v39, main_v40, main_v41, main_v42, main_c_10, main_v43, main_v44, main_c_11, main_v45, main_v46, main_v47, main_v48, main_v49, main_v50]
/-- Each operation of the stretch writes its own entry of that list and nothing else. -/
theorem ops0_writes : (ops0 : List (HloOp τ sig (Elt F))).Forall fun op => op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- Each operation of the stretch touches TensorCore references only. -/
theorem ops1_sub : (ops1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.binary_bufs_sub .., StableHlo.unary_bufs_sub .., StableHlo.unary_bufs_sub .., StableHlo.binary_bufs_sub .., StableHlo.nullary_bufs_sub .., StableHlo.unary_bufs_sub ..,
    StableHlo.binary_bufs_sub .., StableHlo.unary_bufs_sub .., StableHlo.binary_bufs_sub .., StableHlo.binary_bufs_sub .., StableHlo.unary_bufs_sub .., StableHlo.binary_bufs_sub ..,
    StableHlo.unary_bufs_sub .., StableHlo.unary_bufs_sub .., StableHlo.unary_bufs_sub .., StableHlo.unary_bufs_sub .., StableHlo.binary_bufs_sub .., StableHlo.ternary_bufs_sub ..,
    StableHlo.binary_bufs_sub ..⟩
/-- Each operation of the stretch determines its result. -/
theorem ops1_fresh : (ops1 : List (HloOp τ sig (Elt F))).Forall fun op => op.fresh = ∅ := by
  simp only [List.Forall]; repeat' constructor
/-- The references the stretch writes, in order. -/
abbrev W1 : List (Ref sig .tc) := [main_v51, main_v52, main_v53, main_v54, main_v55, main_v56, main_cst_12, main_v57, main_v58, main_cst_13, main_v59, main_v60, main_v61, main_v62, main_v63, main_v64, main_call0_cst, main_call0_v0, main_call0_v1, main_call0_v2, main_call0_v3, main_call0_v4, main_call0_v5, main_call0_v6, main_call0_v7, main_call0_v8, main_call0_v9, main_call0_v10, main_call0_v11, main_v65, main_v66]
/-- Each operation of the stretch writes its own entry of that list and nothing else. -/
theorem ops1_writes : (ops1 : List (HloOp τ sig (Elt F))).Forall fun op => op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- Each operation of the stretch touches TensorCore references only. -/
theorem ops2_sub : (ops2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub ..,
    StableHlo.nullary_bufs_sub .., StableHlo.unary_bufs_sub .., StableHlo.unary_bufs_sub .., StableHlo.ternary_bufs_sub .., StableHlo.nullary_bufs_sub .., StableHlo.unary_bufs_sub ..,
    StableHlo.binary_bufs_sub .., StableHlo.unary_bufs_sub .., StableHlo.binary_bufs_sub .., StableHlo.nullary_bufs_sub .., StableHlo.binary_bufs_sub .., StableHlo.nullary_bufs_sub ..,
    StableHlo.unary_bufs_sub .., StableHlo.binary_bufs_sub .., StableHlo.nullary_bufs_sub .., StableHlo.nullary_bufs_sub .., StableHlo.binary_bufs_sub .., StableHlo.unary_bufs_sub ..,
    StableHlo.nullary_bufs_sub .., StableHlo.unary_bufs_sub .., StableHlo.binary_bufs_sub .., StableHlo.unary_bufs_sub .., StableHlo.binary_bufs_sub .., StableHlo.binary_bufs_sub ..,
    StableHlo.unary_bufs_sub .., StableHlo.nullary_bufs_sub .., StableHlo.binary_bufs_sub .., StableHlo.nullary_bufs_sub .., StableHlo.binary_bufs_sub .., StableHlo.unary_bufs_sub ..,
    StableHlo.binary_bufs_sub .., StableHlo.nullary_bufs_sub .., StableHlo.binary_bufs_sub .., StableHlo.nullary_bufs_sub .., StableHlo.unary_bufs_sub .., StableHlo.unary_bufs_sub ..,
    StableHlo.ternary_bufs_sub ..⟩
/-- Each operation of the stretch determines its result. -/
theorem ops2_fresh : (ops2 : List (HloOp τ sig (Elt F))).Forall fun op => op.fresh = ∅ := by
  simp only [List.Forall]; repeat' constructor
/-- The references the stretch writes, in order. -/
abbrev W2 : List (Ref sig .tc) := [main_cst_14, main_v67, main_v68, main_v69, main_cst_15, main_v70, main_cst_16, main_v71, main_v72, main_v73, main_cst_17, main_v74, main_v75, main_v76, main_v77, main_cst_18, main_v78, main_cst_19, main_v79, main_v80, main_c_20, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v81]
/-- Each operation of the stretch writes its own entry of that list and nothing else. -/
theorem ops2_writes : (ops2 : List (HloOp τ sig (Elt F))).Forall fun op => op.writes ⊆ (W2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- Each operation of the stretch touches TensorCore references only. -/
theorem ops3_sub : (ops3 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.unary_bufs_sub ..,
    StableHlo.binary_bufs_sub .., StableHlo.unary_bufs_sub .., StableHlo.unary_bufs_sub .., StableHlo.binary_bufs_sub .., StableHlo.binary_bufs_sub .., StableHlo.nullary_bufs_sub ..,
    StableHlo.unary_bufs_sub .., StableHlo.binary_bufs_sub ..⟩
/-- Each operation of the stretch determines its result. -/
theorem ops3_fresh : (ops3 : List (HloOp τ sig (Elt F))).Forall fun op => op.fresh = ∅ := by
  simp only [List.Forall]; repeat' constructor
/-- The references the stretch writes, in order. -/
abbrev W3 : List (Ref sig .tc) := [main_v82, main_v83, main_v84, main_cst_21, main_v85, main_v86, main_v87, main_v88, main_v89, main_v90, main_v91, main_v92, main_v93, main_v94, main_v95, main_v96, main_v97, main_call2_cst, main_call2_v0, main_v98]
/-- Each operation of the stretch writes its own entry of that list and nothing else. -/
theorem ops3_writes : (ops3 : List (HloOp τ sig (Elt F))).Forall fun op => op.writes ⊆ (W3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- Each operation of the stretch touches TensorCore references only. -/
theorem ops4_sub : (ops4 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub ..,
    StableHlo.nullary_bufs_sub .., StableHlo.unary_bufs_sub .., StableHlo.unary_bufs_sub .., StableHlo.ternary_bufs_sub .., StableHlo.nullary_bufs_sub .., StableHlo.unary_bufs_sub ..,
    StableHlo.binary_bufs_sub .., StableHlo.unary_bufs_sub .., StableHlo.binary_bufs_sub ..⟩
/-- Each operation of the stretch determines its result. -/
theorem ops4_fresh : (ops4 : List (HloOp τ sig (Elt F))).Forall fun op => op.fresh = ∅ := by
  simp only [List.Forall]; repeat' constructor
/-- The references the stretch writes, in order. -/
abbrev W4 : List (Ref sig .tc) := [main_cst_22, main_v99, main_v100, main_v101, main_cst_23, main_v102, main_cst_24, main_v103, main_v104, main_v105, main_cst_25, main_v106, main_v107, main_v108, main_v109]
/-- Each operation of the stretch writes its own entry of that list and nothing else. -/
theorem ops4_writes : (ops4 : List (HloOp τ sig (Elt F))).Forall fun op => op.writes ⊆ (W4.map (Proc.devRef (τ := τ) .tc)).toFinset := by
  simp only [List.Forall]
  refine ⟨?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- Each operation of the stretch touches TensorCore references only. -/
theorem ops5_sub : (ops5 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub ..,
    StableHlo.binary_bufs_sub .., StableHlo.unary_bufs_sub .., StableHlo.binary_bufs_sub .., StableHlo.binary_bufs_sub .., StableHlo.unary_bufs_sub .., StableHlo.binary_bufs_sub ..,
    StableHlo.unary_bufs_sub .., StableHlo.unary_bufs_sub .., StableHlo.unary_bufs_sub .., StableHlo.unary_bufs_sub .., StableHlo.binary_bufs_sub .., StableHlo.ternary_bufs_sub ..,
    StableHlo.binary_bufs_sub .., StableHlo.unary_bufs_sub .., StableHlo.unary_bufs_sub .., StableHlo.binary_bufs_sub ..⟩
/-- Each operation of the stretch determines its result. -/
theorem ops5_fresh : (ops5 : List (HloOp τ sig (Elt F))).Forall fun op => op.fresh = ∅ := by
  simp only [List.Forall]; repeat' constructor
/-- The references the stretch writes, in order. -/
abbrev W5 : List (Ref sig .tc) := [main_v110, main_v111, main_v112, main_v113, main_call3_cst, main_call3_v0, main_call3_v1, main_call3_v2, main_call3_v3, main_call3_v4, main_call3_v5, main_call3_v6, main_call3_v7, main_call3_v8, main_call3_v9, main_call3_v10, main_call3_v11, main_v114, main_v115, main_v116, main_v117, main_v118]
/-- Each operation of the stretch writes its own entry of that list and nothing else. -/
theorem ops5_writes : (ops5 : List (HloOp τ sig (Elt F))).Forall fun op => op.writes ⊆ (W5.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, StableHlo.nary_writes, Finset.singleton_subset_iff, List.mem_toFinset]; exact List.mem_map_of_mem (by decide))

theorem ops_sub : (ops : List (HloOp τ sig (Elt F))).Forall fun op => op.bufs ⊆ StableHlo.tcRefs τ sig :=
  forall_append (forall_append (forall_append (forall_append (forall_append ops0_sub ops1_sub) ops2_sub) ops3_sub) ops4_sub) ops5_sub

theorem ops_fresh : ∀ op ∈ (ops : List (HloOp τ sig (Elt F))), op.fresh = ∅ :=
  List.forall_iff_forall_mem.1
    (forall_append (forall_append (forall_append (forall_append (forall_append ops0_fresh ops1_fresh) ops2_fresh) ops3_fresh) ops4_fresh) ops5_fresh)

/-- The fold over the whole line, stretch by stretch. -/
theorem after_ops (V : Valuation τ sig (Elt F)) :
    StableHlo.after ops V
      = StableHlo.after ops5 (StableHlo.after ops4 (StableHlo.after ops3 (StableHlo.after ops2 (StableHlo.after ops1 (StableHlo.after ops0 V))))) := by
  simp only [ops, after_append]

/-- A reference none of the six stretches writes keeps its contents through the line. -/
theorem after_ops_keep (V : Valuation τ sig (Elt F)) (r : Ref sig .tc)
    (h0 : r ∉ W0) (h1 : r ∉ W1) (h2 : r ∉ W2) (h3 : r ∉ W3) (h4 : r ∉ W4) (h5 : r ∉ W5) :
    StableHlo.after ops V (Proc.devRef .tc r) = V (Proc.devRef .tc r) := by
  rw [after_ops, StableHlo.after_of_writes_sub ops5 _ ops5_writes h5, StableHlo.after_of_writes_sub ops4 _ ops4_writes h4,
    StableHlo.after_of_writes_sub ops3 _ ops3_writes h3, StableHlo.after_of_writes_sub ops2 _ ops2_writes h2,
    StableHlo.after_of_writes_sub ops1 _ ops1_writes h1, StableHlo.after_of_writes_sub ops0 _ ops0_writes h0]

/-! ## The run -/

/-- On the device, for any float values, from any memory with zero counters: every weakly fair execution of @main
    terminates with the result buffer at the operations' fold over the launch contents and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = StableHlo.after ops (StableHlo.launchContents m c) (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨h c main_v118,
      (h c main_arg0).trans (after_ops_keep _ main_arg0 (by decide) (by decide) (by decide) (by decide) (by decide) (by decide)),
      (h c main_arg1).trans (after_ops_keep _ main_arg1 (by decide) (by decide) (by decide) (by decide) (by decide) (by decide)),
      (h c main_arg2).trans (after_ops_keep _ main_arg2 (by decide) (by decide) (by decide) (by decide) (by decide) (by decide)),
      (h c main_arg3).trans (after_ops_keep _ main_arg3 (by decide) (by decide) (by decide) (by decide) (by decide) (by decide)),
      (h c main_arg4).trans (after_ops_keep _ main_arg4 (by decide) (by decide) (by decide) (by decide) (by decide) (by decide)),
      (h c main_arg5).trans (after_ops_keep _ main_arg5 (by decide) (by decide) (by decide) (by decide) (by decide) (by decide)),
      (h c main_arg6).trans (after_ops_keep _ main_arg6 (by decide) (by decide) (by decide) (by decide) (by decide) (by decide)),
      (h c main_arg7).trans (after_ops_keep _ main_arg7 (by decide) (by decide) (by decide) (by decide) (by decide) (by decide)),
      (h c main_arg8).trans (after_ops_keep _ main_arg8 (by decide) (by decide) (by decide) (by decide) (by decide) (by decide)),
      (h c main_arg9).trans (after_ops_keep _ main_arg9 (by decide) (by decide) (by decide) (by decide) (by decide) (by decide)),
      (h c main_arg10).trans (after_ops_keep _ main_arg10 (by decide) (by decide) (by decide) (by decide) (by decide) (by decide)),
      (h c main_arg11).trans (after_ops_keep _ main_arg11 (by decide) (by decide) (by decide) (by decide) (by decide) (by decide)),
      (h c main_arg12).trans (after_ops_keep _ main_arg12 (by decide) (by decide) (by decide) (by decide) (by decide) (by decide)),
      (h c main_arg13).trans (after_ops_keep _ main_arg13 (by decide) (by decide) (by decide) (by decide) (by decide) (by decide)),
      (h c main_arg14).trans (after_ops_keep _ main_arg14 (by decide) (by decide) (by decide) (by decide) (by decide) (by decide))⟩)
    (StableHlo.run_seq scopedRefs_eq scopedSems_eq defs main (fun _ => ops) main_eq (fun _ => ops_sub) m ρ (fun _ => ops_fresh))

/-- The frame alone: every argument ends holding its launch contents. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => (h c).2) (run m ρ)

end Cert.ReferenceIdeal.Hand

end
-- ==== Proof.HostRead.lean ====
/-
  Reading a straight line of host operations.

  A host stretch is a list of operations, each writing one array as a function of the arrays it reads. What an array holds
  after the whole stretch is found by walking the list from its end: the operation that writes the array gives its function
  of its operands' contents before it, every other operation leaves the array alone. Done for every operand in turn this
  expresses the array as one composed term of the stretch's input arrays. (The operands of a join over a family of arrays
  are not opened: the k-th array of a family is no literal array.)
-/
import Idealize.ShloMosaic.Lib.StableHlo.Run

noncomputable section

namespace Cert.HostRead

open Idealize.ShloMosaic Idealize.ShloMosaic.TcCoe Idealize.ShloMosaic.StableHlo

/-- One pass over a literal straight line: each operation read at its own result array is its function of its operands'
    contents; at any other literal array it leaves what was there. -/
macro "read_pass" : tactic =>
  `(tactic| (simp (disch := decide) only [after_cons, after_nil,
      nullary_result', unary_result', binary_result', ternary_result', quaternary_result', reshape_result',
      nary_result', unaryIndexed_result', binaryIndexed_result',
      nullary_result_ne', unary_result_ne', binary_result_ne', ternary_result_ne', quaternary_result_ne', reshape_result_ne',
      nary_result_ne', unaryIndexed_result_ne', binaryIndexed_result_ne']))

/-- The same, under the name the stage modules use. -/
macro "read_line" : tactic => `(tactic| read_pass)

end Cert.HostRead

end
-- ==== Proof.LibHostSSA.lean ====
/-
  Reading a straight line of host operations one operation at a time.

  In a line where every array is written by at most one operation, and an operation reads only arrays written before it
  (or never written by the line), what an array holds AFTER THE WHOLE LINE obeys the operation that writes it: the
  result array holds the operation's function of its operand arrays, all read after the whole line. The reason: cut the
  line at the operation; the part after it writes neither the result nor the operands, so reading them after the whole
  line is reading them right after (for the result) or right before (for the operands) the operation. The lemmas take
  the line, the list of arrays it writes in order, the position of the operation, and three list non-memberships that a
  literal line decides. Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- The line `L` writes exactly the arrays `W`, in order: each operation its one result array. -/
def WritesAre : List (HloOp τ sig Val) → List (Ref sig .tc) → Prop
  | [], [] => True
  | op :: L, r :: W => op.writes = {Proc.devRef .tc r} ∧ WritesAre L W
  | [], _ :: _ => False
  | _ :: _, [] => False

/-- A line leaves alone every array it does not write. -/
theorem WritesAre.keeps : ∀ {L : List (HloOp τ sig Val)} {W : List (Ref sig .tc)}, WritesAre L W →
    ∀ (V : Valuation τ sig Val) (r : Ref sig .tc), r ∉ W → StableHlo.after L V (Proc.devRef .tc r) = V (Proc.devRef .tc r)
  | [], [], _, _, _, _ => rfl
  | op :: L, w :: W, h, V, r, hr => by
      rw [StableHlo.after_cons, WritesAre.keeps h.2 _ r (fun hm => hr (List.mem_cons_of_mem _ hm)),
        op.result_of_not_mem V (by
          rw [h.1, Finset.mem_singleton]
          exact StableHlo.devRef_ne_of_ne (fun e => hr (e ▸ List.mem_cons_self)))]
  | [], _ :: _, h, _, _, _ => h.elim
  | _ :: _, [], h, _, _, _ => h.elim

/-- The tail of a line writes the tail of the list. -/
theorem WritesAre.drop : ∀ (k : ℕ) {L : List (HloOp τ sig Val)} {W : List (Ref sig .tc)}, WritesAre L W →
    WritesAre (L.drop k) (W.drop k)
  | 0, _, _, h => h
  | _ + 1, [], [], _ => trivial
  | k + 1, _ :: _, _ :: _, h => WritesAre.drop k h.2
  | _ + 1, [], _ :: _, h => h.elim
  | _ + 1, _ :: _, [], h => h.elim

variable {L : List (HloOp τ sig Val)} {W : List (Ref sig .tc)}

/-- An array no operation from position `k` on writes holds after the line what it held before position `k`. -/
theorem after_eq_take (h : WritesAre L W) (k : ℕ) (V : Valuation τ sig Val) (r : Ref sig .tc) (hr : r ∉ W.drop k) :
    StableHlo.after L V (Proc.devRef .tc r) = StableHlo.after (L.take k) V (Proc.devRef .tc r) := by
  conv_lhs => rw [← List.take_append_drop k L]
  rw [after_append]
  exact (h.drop k).keeps _ r hr

/-- An array no operation after position `k` writes holds after the line what operation `k` leaves in it. -/
theorem after_at (h : WritesAre L W) (k : ℕ) (V : Valuation τ sig Val) (op : HloOp τ sig Val)
    (hk : L.drop k = op :: L.drop (k + 1)) (r : Ref sig .tc) (hr : r ∉ W.drop (k + 1)) :
    StableHlo.after L V (Proc.devRef .tc r) = op.result (StableHlo.after (L.take k) V) (Proc.devRef .tc r) := by
  conv_lhs => rw [← List.take_append_drop k L, hk]
  rw [after_append, StableHlo.after_cons]
  exact (h.drop (k + 1)).keeps _ r hr

variable {x a b c y : Ref sig .tc}

theorem ssa_nullary (h : WritesAre L W) (k : ℕ) (V : Valuation τ sig Val) (v : y.ty.Contents Val) (hy)
    (hk : L.drop k = nullary (τ := τ) y v hy :: L.drop (k + 1)) (hy' : y ∉ W.drop (k + 1)) :
    StableHlo.after L V (Proc.devRef .tc y) = v := by
  rw [after_at h k V _ hk y hy', nullary_result]

theorem ssa_unary (h : WritesAre L W) (k : ℕ) (V : Valuation τ sig Val) (f : x.ty.Contents Val → y.ty.Contents Val) (hx hy)
    (hk : L.drop k = unary (τ := τ) x y f hx hy :: L.drop (k + 1)) (hy' : y ∉ W.drop (k + 1)) (hx' : x ∉ W.drop k) :
    StableHlo.after L V (Proc.devRef .tc y) = f (StableHlo.after L V (Proc.devRef .tc x)) := by
  rw [after_at h k V _ hk y hy', unary_result, after_eq_take h k V x hx']

theorem ssa_binary (h : WritesAre L W) (k : ℕ) (V : Valuation τ sig Val)
    (f : a.ty.Contents Val → b.ty.Contents Val → y.ty.Contents Val) (ha hb hy)
    (hk : L.drop k = binary (τ := τ) a b y f ha hb hy :: L.drop (k + 1)) (hy' : y ∉ W.drop (k + 1))
    (ha' : a ∉ W.drop k) (hb' : b ∉ W.drop k) :
    StableHlo.after L V (Proc.devRef .tc y) = f (StableHlo.after L V (Proc.devRef .tc a)) (StableHlo.after L V (Proc.devRef .tc b)) := by
  rw [after_at h k V _ hk y hy', binary_result, after_eq_take h k V a ha', after_eq_take h k V b hb']

theorem ssa_ternary (h : WritesAre L W) (k : ℕ) (V : Valuation τ sig Val)
    (f : c.ty.Contents Val → a.ty.Contents Val → b.ty.Contents Val → y.ty.Contents Val) (hc ha hb hy)
    (hk : L.drop k = ternary (τ := τ) c a b y f hc ha hb hy :: L.drop (k + 1)) (hy' : y ∉ W.drop (k + 1))
    (hc' : c ∉ W.drop k) (ha' : a ∉ W.drop k) (hb' : b ∉ W.drop k) :
    StableHlo.after L V (Proc.devRef .tc y)
      = f (StableHlo.after L V (Proc.devRef .tc c)) (StableHlo.after L V (Proc.devRef .tc a)) (StableHlo.after L V (Proc.devRef .tc b)) := by
  rw [after_at h k V _ hk y hy', ternary_result, after_eq_take h k V c hc', after_eq_take h k V a ha', after_eq_take h k V b hb']

theorem ssa_reshape (h : WritesAre L W) (k : ℕ) (V : Valuation τ sig Val) (he hn hx hy)
    (hk : L.drop k = reshape (τ := τ) (Val := Val) x y he hn hx hy :: L.drop (k + 1)) (hy' : y ∉ W.drop (k + 1)) (hx' : x ∉ W.drop k) :
    StableHlo.after L V (Proc.devRef .tc y)
      = fun i => he ▸ shapeCast y.ty.shape (StableHlo.after L V (Proc.devRef .tc x)) hn i := by
  rw [after_at h k V _ hk y hy', reshape_result, after_eq_take h k V x hx']

/-- A join of three operands, written as one operation over a literal family of three arrays. -/
theorem ssa_nary3 (h : WritesAre L W) (k : ℕ) (V : Valuation τ sig Val)
    (f : ((i : Fin 3) → ((![a, b, c] : Fin 3 → Ref sig .tc) i).ty.Contents Val) → y.ty.Contents Val) (hxs hy)
    (hk : L.drop k = nary (τ := τ) ![a, b, c] y f hxs hy :: L.drop (k + 1)) (hy' : y ∉ W.drop (k + 1))
    (ha' : a ∉ W.drop k) (hb' : b ∉ W.drop k) (hc' : c ∉ W.drop k) :
    StableHlo.after L V (Proc.devRef .tc y)
      = f (Fin.cons (StableHlo.after L V (Proc.devRef .tc a)) (Fin.cons (StableHlo.after L V (Proc.devRef .tc b))
          (Fin.cons (StableHlo.after L V (Proc.devRef .tc c)) (fun i => i.elim0)))) := by
  rw [after_at h k V _ hk y hy', nary_result, after_eq_take h k V a ha', after_eq_take h k V b hb', after_eq_take h k V c hc']
  congr 1; funext i; fin_cases i <;> rfl

end Cert.Lib

end
-- ==== Proof.Chains.lean ====
/-
  The host stretches that the two programs share.

  Between its kernel launches the kernel program gathers, scatter-adds and normalises with the very operations the
  reference applies at the same places: the incidence features z = [x[src] | hx[hid] | motif[hid]], the scatter-mean of the
  messages with its column mean and variance, and the scatter-mean over graphs. Each such stretch, read as a composed term
  of its input arrays, is the same term on both sides; so equal inputs give equal outputs, whatever the arrays hold.
-/
import proofs.«173417_j18064632447537_1_alg».proof.Proof.Gen.KernelIdeal.Regions
import proofs.«173417_j18064632447537_1_alg».proof.Proof.RefRun
import proofs.«173417_j18064632447537_1_alg».proof.Proof.HostRead
import proofs.«173417_j18064632447537_1_alg».proof.Proof.LibHostSSA

set_option maxRecDepth 8192

noncomputable section

namespace Cert.Chains

open Cert.HostRead Idealize.ShloMosaic Idealize.ShloMosaic.TcCoe Idealize.ShloMosaic.StableHlo

variable {F : FTy → Type} [FloatOps F]

local notation "KV" => Valuation Cert.KernelIdeal.τ Cert.KernelIdeal.sig (Elt F)
local notation "RV" => Valuation Cert.ReferenceIdeal.τ Cert.ReferenceIdeal.sig (Elt F)

/-! ## The incidence features -/

set_option maxHeartbeats 4000000 in
/-- The embedded atoms x = table[atom_z]. -/
theorem embed (VK : KV) (VR : RV)
    (h0 : VK (Proc.devRef .tc Cert.KernelIdeal.main_arg0) = VR (Proc.devRef .tc Cert.ReferenceIdeal.main_arg0))
    (h4 : VK (Proc.devRef .tc Cert.KernelIdeal.main_arg4) = VR (Proc.devRef .tc Cert.ReferenceIdeal.main_arg4)) :
    StableHlo.after (Cert.KernelIdeal.Gen.hostOps0 (F := F)) VK (Proc.devRef .tc Cert.KernelIdeal.main_v6)
      = StableHlo.after (Cert.ReferenceIdeal.Hand.ops0 (F := F)) VR (Proc.devRef .tc Cert.ReferenceIdeal.main_v6) := by
  read_pass
  rw [h0, h4]
  rfl

set_option maxHeartbeats 4000000 in
/-- The source index row of the incidence list. -/
theorem srcIdx (VK : KV) (VR : RV)
    (h2 : VK (Proc.devRef .tc Cert.KernelIdeal.main_arg2) = VR (Proc.devRef .tc Cert.ReferenceIdeal.main_arg2)) :
    StableHlo.after (Cert.KernelIdeal.Gen.hostOps0 (F := F)) VK (Proc.devRef .tc Cert.KernelIdeal.main_v8)
      = StableHlo.after (Cert.ReferenceIdeal.Hand.ops0 (F := F)) VR (Proc.devRef .tc Cert.ReferenceIdeal.main_v8) := by
  read_pass
  rw [h2]
  rfl

set_option maxHeartbeats 4000000 in
/-- x gathered at the source atoms. -/
theorem zSrc (VK : KV) (VR : RV)
    (h0 : VK (Proc.devRef .tc Cert.KernelIdeal.main_arg0) = VR (Proc.devRef .tc Cert.ReferenceIdeal.main_arg0))
    (h2 : VK (Proc.devRef .tc Cert.KernelIdeal.main_arg2) = VR (Proc.devRef .tc Cert.ReferenceIdeal.main_arg2))
    (h4 : VK (Proc.devRef .tc Cert.KernelIdeal.main_arg4) = VR (Proc.devRef .tc Cert.ReferenceIdeal.main_arg4)) :
    StableHlo.after (Cert.KernelIdeal.Gen.hostOps0 (F := F)) VK (Proc.devRef .tc Cert.KernelIdeal.main_v17)
      = StableHlo.after (Cert.ReferenceIdeal.Hand.ops0 (F := F)) VR (Proc.devRef .tc Cert.ReferenceIdeal.main_v35) := by
  read_pass
  rw [h0, h2, h4]
  rfl

set_option maxHeartbeats 4000000 in
/-- The hyperedge means gathered back at the incidences. -/
theorem zHyper (VK : KV) (VR : RV)
    (h0 : VK (Proc.devRef .tc Cert.KernelIdeal.main_arg0) = VR (Proc.devRef .tc Cert.ReferenceIdeal.main_arg0))
    (h2 : VK (Proc.devRef .tc Cert.KernelIdeal.main_arg2) = VR (Proc.devRef .tc Cert.ReferenceIdeal.main_arg2))
    (h4 : VK (Proc.devRef .tc Cert.KernelIdeal.main_arg4) = VR (Proc.devRef .tc Cert.ReferenceIdeal.main_arg4)) :
    StableHlo.after (Cert.KernelIdeal.Gen.hostOps0 (F := F)) VK (Proc.devRef .tc Cert.KernelIdeal.main_v35)
      = StableHlo.after (Cert.ReferenceIdeal.Hand.ops0 (F := F)) VR (Proc.devRef .tc Cert.ReferenceIdeal.main_v42) := by
  read_pass
  rw [h0, h2, h4]
  rfl

set_option maxHeartbeats 4000000 in
/-- The motif attributes gathered at the incidences. -/
theorem zMotif (VK : KV) (VR : RV)
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2)) :
    StableHlo.after (Cert.KernelIdeal.Gen.hostOps0 (F := F)) VK (Proc.devRef .tc Cert.KernelIdeal.main_v42)
      = StableHlo.after (Cert.ReferenceIdeal.Hand.ops0 (F := F)) VR (Proc.devRef .tc Cert.ReferenceIdeal.main_v49) := by
  read_pass
  rw [h1, h2]
  rfl

/-- Each operation of the kernel program's first stretch writes its own array. -/
theorem writesK0 : Cert.Lib.WritesAre (Cert.KernelIdeal.Gen.hostOps0 (F := F)) Cert.KernelIdeal.Gen.hostOps0_W := by
  simp only [Cert.Lib.WritesAre, Cert.KernelIdeal.Gen.hostOps0_W, StableHlo.nullary_writes, StableHlo.unary_writes, StableHlo.binary_writes,
    StableHlo.ternary_writes, StableHlo.reshape_writes, StableHlo.nary_writes, and_self]

/-- Each operation of the reference's first stretch writes its own array. -/
theorem writesR0 : Cert.Lib.WritesAre (Cert.ReferenceIdeal.Hand.ops0 (F := F)) Cert.ReferenceIdeal.Hand.W0 := by
  simp only [Cert.Lib.WritesAre, Cert.ReferenceIdeal.Hand.W0, StableHlo.nullary_writes, StableHlo.unary_writes, StableHlo.binary_writes,
    StableHlo.ternary_writes, StableHlo.reshape_writes, StableHlo.nary_writes, and_self]

set_option maxHeartbeats 4000000 in
/-- The incidence features z: the join of the three gathered pieces, the same on both sides. -/
theorem zJoin (VK : KV) (VR : RV)
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2))
    (h4 : VK (Proc.devRef .tc Cert.KernelIdeal.main_arg4) = VR (Proc.devRef .tc Cert.ReferenceIdeal.main_arg4)) :
    StableHlo.after (Cert.KernelIdeal.Gen.hostOps0 (F := F)) VK (Proc.devRef .tc Cert.KernelIdeal.main_v43)
      = StableHlo.after (Cert.ReferenceIdeal.Hand.ops0 (F := F)) VR (Proc.devRef .tc Cert.ReferenceIdeal.main_v50) := by
  rw [Cert.Lib.ssa_nary3 (a := Cert.KernelIdeal.main_v17) (b := Cert.KernelIdeal.main_v35) (c := Cert.KernelIdeal.main_v42) (y := Cert.KernelIdeal.main_v43)
      (writesK0 (F := F)) 55 VK _ _ _ rfl (by decide) (by decide) (by decide) (by decide),
    Cert.Lib.ssa_nary3 (a := Cert.ReferenceIdeal.main_v35) (b := Cert.ReferenceIdeal.main_v42) (c := Cert.ReferenceIdeal.main_v49) (y := Cert.ReferenceIdeal.main_v50)
      (writesR0 (F := F)) 64 VR _ _ _ rfl (by decide) (by decide) (by decide) (by decide),
    zSrc VK VR h0 h2 h4, zHyper VK VR h0 h2 h4, zMotif VK VR h1 h2]
  rfl

/-! ## The scatter-mean of the messages, its column mean and variance -/

set_option maxHeartbeats 4000000 in
/-- The messages averaged over each atom's incidences. -/
theorem aggOut (VK : KV) (VR : RV)
    (hm : VK (Proc.devRef .tc Cert.KernelIdeal.main_v44) = VR (Proc.devRef .tc Cert.ReferenceIdeal.main_v66))
    (hs : VK (Proc.devRef .tc Cert.KernelIdeal.main_v8) = VR (Proc.devRef .tc Cert.ReferenceIdeal.main_v8)) :
    StableHlo.after (Cert.KernelIdeal.Gen.hostOps1_1 (F := F)) (StableHlo.after (Cert.KernelIdeal.Gen.hostOps1 (F := F)) VK) (Proc.devRef .tc Cert.KernelIdeal.main_v55)
      = StableHlo.after (Cert.ReferenceIdeal.Hand.ops2 (F := F)) VR (Proc.devRef .tc Cert.ReferenceIdeal.main_v77) := by
  read_pass
  rw [hm, hs]
  rfl

set_option maxHeartbeats 4000000 in
/-- Its column mean. -/
theorem aggMean (VK : KV) (VR : RV)
    (hm : VK (Proc.devRef .tc Cert.KernelIdeal.main_v44) = VR (Proc.devRef .tc Cert.ReferenceIdeal.main_v66))
    (hs : VK (Proc.devRef .tc Cert.KernelIdeal.main_v8) = VR (Proc.devRef .tc Cert.ReferenceIdeal.main_v8)) :
    StableHlo.after (Cert.KernelIdeal.Gen.hostOps1_1 (F := F)) (StableHlo.after (Cert.KernelIdeal.Gen.hostOps1 (F := F)) VK) (Proc.devRef .tc Cert.KernelIdeal.main_v58)
      = StableHlo.after (Cert.ReferenceIdeal.Hand.ops2 (F := F)) VR (Proc.devRef .tc Cert.ReferenceIdeal.main_v80) := by
  read_pass
  rw [hm, hs]
  rfl

set_option maxHeartbeats 4000000 in
/-- Its column variance. -/
theorem aggVar (VK : KV) (VR : RV)
    (hm : VK (Proc.devRef .tc Cert.KernelIdeal.main_v44) = VR (Proc.devRef .tc Cert.ReferenceIdeal.main_v66))
    (hs : VK (Proc.devRef .tc Cert.KernelIdeal.main_v8) = VR (Proc.devRef .tc Cert.ReferenceIdeal.main_v8)) :
    StableHlo.after (Cert.KernelIdeal.Gen.hostOps1_1 (F := F)) (StableHlo.after (Cert.KernelIdeal.Gen.hostOps1 (F := F)) VK) (Proc.devRef .tc Cert.KernelIdeal.main_v59)
      = StableHlo.after (Cert.ReferenceIdeal.Hand.ops2 (F := F)) VR (Proc.devRef .tc Cert.ReferenceIdeal.main_v81) := by
  read_pass
  rw [hm, hs]
  rfl

/-! ## The scatter-mean over graphs -/

set_option maxHeartbeats 4000000 in
/-- The atom features averaged over each graph. -/
theorem pooled (VK : KV) (VR : RV)
    (hx : VK (Proc.devRef .tc Cert.KernelIdeal.main_v60) = VR (Proc.devRef .tc Cert.ReferenceIdeal.main_v98))
    (hb : VK (Proc.devRef .tc Cert.KernelIdeal.main_arg3) = VR (Proc.devRef .tc Cert.ReferenceIdeal.main_arg3)) :
    StableHlo.after (Cert.KernelIdeal.Gen.hostOps2 (F := F)) VK (Proc.devRef .tc Cert.KernelIdeal.main_v71)
      = StableHlo.after (Cert.ReferenceIdeal.Hand.ops4 (F := F)) VR (Proc.devRef .tc Cert.ReferenceIdeal.main_v109) := by
  read_pass
  rw [hx, hb]
  rfl

end Cert.Chains

end
-- ==== Proof.Links.lean ====
/-
  The arrays the two programs share, stage by stage.

  Run side by side from memories that agree on the arguments, the kernel program and the reference hold the same arrays at
  corresponding places: after the first host stretch the incidence features z, the embedded atoms x and the source index;
  after the message stage (given that the two message arrays agree) the scatter-mean of the messages with its column mean
  and variance; after the normalisation stage (given that the two normalised arrays agree) the features pooled over graphs.
  The weights and biases are arguments, which nothing writes.
-/
import proofs.«173417_j18064632447537_1_alg».proof.Defs
import proofs.«173417_j18064632447537_1_alg».proof.Proof.KIRun
import proofs.«173417_j18064632447537_1_alg».proof.Proof.RefRun
import proofs.«173417_j18064632447537_1_alg».proof.Proof.Chains

set_option maxRecDepth 8192

noncomputable section

namespace Cert.Links

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The two launch memories agree on the fifteen arguments (on device c). -/
def Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

/-- The reference's arrays after its first stretch, … , after its fifth. -/
abbrev R0 : Valuation Cert.ReferenceIdeal.τ Cert.ReferenceIdeal.sig (Elt Ideal) := StableHlo.after (Cert.ReferenceIdeal.Hand.ops0 (F := Ideal)) (StableHlo.launchContents m' c)
abbrev R1 : Valuation Cert.ReferenceIdeal.τ Cert.ReferenceIdeal.sig (Elt Ideal) := StableHlo.after (Cert.ReferenceIdeal.Hand.ops1 (F := Ideal)) (R0 m' c)
abbrev R2 : Valuation Cert.ReferenceIdeal.τ Cert.ReferenceIdeal.sig (Elt Ideal) := StableHlo.after (Cert.ReferenceIdeal.Hand.ops2 (F := Ideal)) (R1 m' c)
abbrev R3 : Valuation Cert.ReferenceIdeal.τ Cert.ReferenceIdeal.sig (Elt Ideal) := StableHlo.after (Cert.ReferenceIdeal.Hand.ops3 (F := Ideal)) (R2 m' c)
abbrev R4 : Valuation Cert.ReferenceIdeal.τ Cert.ReferenceIdeal.sig (Elt Ideal) := StableHlo.after (Cert.ReferenceIdeal.Hand.ops4 (F := Ideal)) (R3 m' c)

variable {m ρ m' c}

/-- An argument at launch, on the two sides. -/
theorem arg_launch (hag : Agree m m' c) :
      Cert.KernelIdeal.Hand.W0 (F := Ideal) m ρ c (Proc.devRef .tc Cert.KernelIdeal.main_arg0) = StableHlo.launchContents m' c (Proc.devRef .tc Cert.ReferenceIdeal.main_arg0)
    ∧ Cert.KernelIdeal.Hand.W0 (F := Ideal) m ρ c (Proc.devRef .tc Cert.KernelIdeal.main_arg1) = StableHlo.launchContents m' c (Proc.devRef .tc Cert.ReferenceIdeal.main_arg1)
    ∧ Cert.KernelIdeal.Hand.W0 (F := Ideal) m ρ c (Proc.devRef .tc Cert.KernelIdeal.main_arg2) = StableHlo.launchContents m' c (Proc.devRef .tc Cert.ReferenceIdeal.main_arg2)
    ∧ Cert.KernelIdeal.Hand.W0 (F := Ideal) m ρ c (Proc.devRef .tc Cert.KernelIdeal.main_arg3) = StableHlo.launchContents m' c (Proc.devRef .tc Cert.ReferenceIdeal.main_arg3)
    ∧ Cert.KernelIdeal.Hand.W0 (F := Ideal) m ρ c (Proc.devRef .tc Cert.KernelIdeal.main_arg4) = StableHlo.launchContents m' c (Proc.devRef .tc Cert.ReferenceIdeal.main_arg4)
    ∧ Cert.KernelIdeal.Hand.W0 (F := Ideal) m ρ c (Proc.devRef .tc Cert.KernelIdeal.main_arg5) = StableHlo.launchContents m' c (Proc.devRef .tc Cert.ReferenceIdeal.main_arg5)
    ∧ Cert.KernelIdeal.Hand.W0 (F := Ideal) m ρ c (Proc.devRef .tc Cert.KernelIdeal.main_arg6) = StableHlo.launchContents m' c (Proc.devRef .tc Cert.ReferenceIdeal.main_arg6)
    ∧ Cert.KernelIdeal.Hand.W0 (F := Ideal) m ρ c (Proc.devRef .tc Cert.KernelIdeal.main_arg7) = StableHlo.launchContents m' c (Proc.devRef .tc Cert.ReferenceIdeal.main_arg7)
    ∧ Cert.KernelIdeal.Hand.W0 (F := Ideal) m ρ c (Proc.devRef .tc Cert.KernelIdeal.main_arg8) = StableHlo.launchContents m' c (Proc.devRef .tc Cert.ReferenceIdeal.main_arg8)
    ∧ Cert.KernelIdeal.Hand.W0 (F := Ideal) m ρ c (Proc.devRef .tc Cert.KernelIdeal.main_arg9) = StableHlo.launchContents m' c (Proc.devRef .tc Cert.ReferenceIdeal.main_arg9)
    ∧ Cert.KernelIdeal.Hand.W0 (F := Ideal) m ρ c (Proc.devRef .tc Cert.KernelIdeal.main_arg10) = StableHlo.launchContents m' c (Proc.devRef .tc Cert.ReferenceIdeal.main_arg10)
    ∧ Cert.KernelIdeal.Hand.W0 (F := Ideal) m ρ c (Proc.devRef .tc Cert.KernelIdeal.main_arg11) = StableHlo.launchContents m' c (Proc.devRef .tc Cert.ReferenceIdeal.main_arg11)
    ∧ Cert.KernelIdeal.Hand.W0 (F := Ideal) m ρ c (Proc.devRef .tc Cert.KernelIdeal.main_arg12) = StableHlo.launchContents m' c (Proc.devRef .tc Cert.ReferenceIdeal.main_arg12)
    ∧ Cert.KernelIdeal.Hand.W0 (F := Ideal) m ρ c (Proc.devRef .tc Cert.KernelIdeal.main_arg13) = StableHlo.launchContents m' c (Proc.devRef .tc Cert.ReferenceIdeal.main_arg13)
    ∧ Cert.KernelIdeal.Hand.W0 (F := Ideal) m ρ c (Proc.devRef .tc Cert.KernelIdeal.main_arg14) = StableHlo.launchContents m' c (Proc.devRef .tc Cert.ReferenceIdeal.main_arg14) :=
  ⟨(hag.1).symm, (hag.2.1).symm, (hag.2.2.1).symm, (hag.2.2.2.1).symm, (hag.2.2.2.2.1).symm, (hag.2.2.2.2.2.1).symm, (hag.2.2.2.2.2.2.1).symm, (hag.2.2.2.2.2.2.2.1).symm, (hag.2.2.2.2.2.2.2.2.1).symm, (hag.2.2.2.2.2.2.2.2.2.1).symm, (hag.2.2.2.2.2.2.2.2.2.2.1).symm, (hag.2.2.2.2.2.2.2.2.2.2.2.1).symm, (hag.2.2.2.2.2.2.2.2.2.2.2.2.1).symm, (hag.2.2.2.2.2.2.2.2.2.2.2.2.2.1).symm, (hag.2.2.2.2.2.2.2.2.2.2.2.2.2.2).symm⟩

/-- The arguments read at this stage hold their launch contents on both sides. -/
theorem args_msg (hag : Agree m m' c) :
      Cert.KernelIdeal.Hand.W1 (F := Ideal) m ρ c (Proc.devRef .tc Cert.KernelIdeal.main_arg5) = R0 m' c (Proc.devRef .tc Cert.ReferenceIdeal.main_arg5)
    ∧ Cert.KernelIdeal.Hand.W1 (F := Ideal) m ρ c (Proc.devRef .tc Cert.KernelIdeal.main_arg6) = R0 m' c (Proc.devRef .tc Cert.ReferenceIdeal.main_arg6)
    ∧ Cert.KernelIdeal.Hand.W1 (F := Ideal) m ρ c (Proc.devRef .tc Cert.KernelIdeal.main_arg7) = R0 m' c (Proc.devRef .tc Cert.ReferenceIdeal.main_arg7)
    ∧ Cert.KernelIdeal.Hand.W1 (F := Ideal) m ρ c (Proc.devRef .tc Cert.KernelIdeal.main_arg8) = R0 m' c (Proc.devRef .tc Cert.ReferenceIdeal.main_arg8) :=
  ⟨((Cert.KernelIdeal.Hand.W1_of m ρ c Cert.KernelIdeal.main_arg5 (by decide)).trans ((hag.2.2.2.2.2.1).symm.trans (StableHlo.after_of_writes_sub (Cert.ReferenceIdeal.Hand.ops0 (F := Ideal)) (StableHlo.launchContents m' c) Cert.ReferenceIdeal.Hand.ops0_writes (by decide : Cert.ReferenceIdeal.main_arg5 ∉ Cert.ReferenceIdeal.Hand.W0)).symm)),
   ((Cert.KernelIdeal.Hand.W1_of m ρ c Cert.KernelIdeal.main_arg6 (by decide)).trans ((hag.2.2.2.2.2.2.1).symm.trans (StableHlo.after_of_writes_sub (Cert.ReferenceIdeal.Hand.ops0 (F := Ideal)) (StableHlo.launchContents m' c) Cert.ReferenceIdeal.Hand.ops0_writes (by decide : Cert.ReferenceIdeal.main_arg6 ∉ Cert.ReferenceIdeal.Hand.W0)).symm)),
   ((Cert.KernelIdeal.Hand.W1_of m ρ c Cert.KernelIdeal.main_arg7 (by decide)).trans ((hag.2.2.2.2.2.2.2.1).symm.trans (StableHlo.after_of_writes_sub (Cert.ReferenceIdeal.Hand.ops0 (F := Ideal)) (StableHlo.launchContents m' c) Cert.ReferenceIdeal.Hand.ops0_writes (by decide : Cert.ReferenceIdeal.main_arg7 ∉ Cert.ReferenceIdeal.Hand.W0)).symm)),
   ((Cert.KernelIdeal.Hand.W1_of m ρ c Cert.KernelIdeal.main_arg8 (by decide)).trans ((hag.2.2.2.2.2.2.2.2.1).symm.trans (StableHlo.after_of_writes_sub (Cert.ReferenceIdeal.Hand.ops0 (F := Ideal)) (StableHlo.launchContents m' c) Cert.ReferenceIdeal.Hand.ops0_writes (by decide : Cert.ReferenceIdeal.main_arg8 ∉ Cert.ReferenceIdeal.Hand.W0)).symm))⟩

/-- The arguments read at this stage hold their launch contents on both sides. -/
theorem args_bn (hag : Agree m m' c) :
      Cert.KernelIdeal.Hand.W4 (F := Ideal) m ρ c (Proc.devRef .tc Cert.KernelIdeal.main_arg9) = R2 m' c (Proc.devRef .tc Cert.ReferenceIdeal.main_arg9)
    ∧ Cert.KernelIdeal.Hand.W4 (F := Ideal) m ρ c (Proc.devRef .tc Cert.KernelIdeal.main_arg10) = R2 m' c (Proc.devRef .tc Cert.ReferenceIdeal.main_arg10) :=
  ⟨(((((Cert.KernelIdeal.Hand.W4_of m ρ c Cert.KernelIdeal.main_arg9 (by decide)).trans (Cert.KernelIdeal.Hand.W3_of m ρ c Cert.KernelIdeal.main_arg9 (by decide))).trans (Cert.KernelIdeal.Hand.W2_of_ne m ρ c Cert.KernelIdeal.main_arg9 (by decide))).trans (Cert.KernelIdeal.Hand.W1_of m ρ c Cert.KernelIdeal.main_arg9 (by decide))).trans ((hag.2.2.2.2.2.2.2.2.2.1).symm.trans (((StableHlo.after_of_writes_sub (Cert.ReferenceIdeal.Hand.ops2 (F := Ideal)) (R1 m' c) Cert.ReferenceIdeal.Hand.ops2_writes (by decide : Cert.ReferenceIdeal.main_arg9 ∉ Cert.ReferenceIdeal.Hand.W2)).trans (StableHlo.after_of_writes_sub (Cert.ReferenceIdeal.Hand.ops1 (F := Ideal)) (R0 m' c) Cert.ReferenceIdeal.Hand.ops1_writes (by decide : Cert.ReferenceIdeal.main_arg9 ∉ Cert.ReferenceIdeal.Hand.W1))).trans (StableHlo.after_of_writes_sub (Cert.ReferenceIdeal.Hand.ops0 (F := Ideal)) (StableHlo.launchContents m' c) Cert.ReferenceIdeal.Hand.ops0_writes (by decide : Cert.ReferenceIdeal.main_arg9 ∉ Cert.ReferenceIdeal.Hand.W0))).symm)),
   (((((Cert.KernelIdeal.Hand.W4_of m ρ c Cert.KernelIdeal.main_arg10 (by decide)).trans (Cert.KernelIdeal.Hand.W3_of m ρ c Cert.KernelIdeal.main_arg10 (by decide))).trans (Cert.KernelIdeal.Hand.W2_of_ne m ρ c Cert.KernelIdeal.main_arg10 (by decide))).trans (Cert.KernelIdeal.Hand.W1_of m ρ c Cert.KernelIdeal.main_arg10 (by decide))).trans ((hag.2.2.2.2.2.2.2.2.2.2.1).symm.trans (((StableHlo.after_of_writes_sub (Cert.ReferenceIdeal.Hand.ops2 (F := Ideal)) (R1 m' c) Cert.ReferenceIdeal.Hand.ops2_writes (by decide : Cert.ReferenceIdeal.main_arg10 ∉ Cert.ReferenceIdeal.Hand.W2)).trans (StableHlo.after_of_writes_sub (Cert.ReferenceIdeal.Hand.ops1 (F := Ideal)) (R0 m' c) Cert.ReferenceIdeal.Hand.ops1_writes (by decide : Cert.ReferenceIdeal.main_arg10 ∉ Cert.ReferenceIdeal.Hand.W1))).trans (StableHlo.after_of_writes_sub (Cert.ReferenceIdeal.Hand.ops0 (F := Ideal)) (StableHlo.launchContents m' c) Cert.ReferenceIdeal.Hand.ops0_writes (by decide : Cert.ReferenceIdeal.main_arg10 ∉ Cert.ReferenceIdeal.Hand.W0))).symm))⟩

/-- The arguments read at this stage hold their launch contents on both sides. -/
theorem args_head (hag : Agree m m' c) :
      Cert.KernelIdeal.Hand.W6 (F := Ideal) m ρ c (Proc.devRef .tc Cert.KernelIdeal.main_arg11) = R4 m' c (Proc.devRef .tc Cert.ReferenceIdeal.main_arg11)
    ∧ Cert.KernelIdeal.Hand.W6 (F := Ideal) m ρ c (Proc.devRef .tc Cert.KernelIdeal.main_arg12) = R4 m' c (Proc.devRef .tc Cert.ReferenceIdeal.main_arg12)
    ∧ Cert.KernelIdeal.Hand.W6 (F := Ideal) m ρ c (Proc.devRef .tc Cert.KernelIdeal.main_arg13) = R4 m' c (Proc.devRef .tc Cert.ReferenceIdeal.main_arg13)
    ∧ Cert.KernelIdeal.Hand.W6 (F := Ideal) m ρ c (Proc.devRef .tc Cert.KernelIdeal.main_arg14) = R4 m' c (Proc.devRef .tc Cert.ReferenceIdeal.main_arg14) :=
  ⟨(((((((Cert.KernelIdeal.Hand.W6_of m ρ c Cert.KernelIdeal.main_arg11 (by decide)).trans (Cert.KernelIdeal.Hand.W5_of_ne m ρ c Cert.KernelIdeal.main_arg11 (by decide))).trans (Cert.KernelIdeal.Hand.W4_of m ρ c Cert.KernelIdeal.main_arg11 (by decide))).trans (Cert.KernelIdeal.Hand.W3_of m ρ c Cert.KernelIdeal.main_arg11 (by decide))).trans (Cert.KernelIdeal.Hand.W2_of_ne m ρ c Cert.KernelIdeal.main_arg11 (by decide))).trans (Cert.KernelIdeal.Hand.W1_of m ρ c Cert.KernelIdeal.main_arg11 (by decide))).trans ((hag.2.2.2.2.2.2.2.2.2.2.2.1).symm.trans (((((StableHlo.after_of_writes_sub (Cert.ReferenceIdeal.Hand.ops4 (F := Ideal)) (R3 m' c) Cert.ReferenceIdeal.Hand.ops4_writes (by decide : Cert.ReferenceIdeal.main_arg11 ∉ Cert.ReferenceIdeal.Hand.W4)).trans (StableHlo.after_of_writes_sub (Cert.ReferenceIdeal.Hand.ops3 (F := Ideal)) (R2 m' c) Cert.ReferenceIdeal.Hand.ops3_writes (by decide : Cert.ReferenceIdeal.main_arg11 ∉ Cert.ReferenceIdeal.Hand.W3))).trans (StableHlo.after_of_writes_sub (Cert.ReferenceIdeal.Hand.ops2 (F := Ideal)) (R1 m' c) Cert.ReferenceIdeal.Hand.ops2_writes (by decide : Cert.ReferenceIdeal.main_arg11 ∉ Cert.ReferenceIdeal.Hand.W2))).trans (StableHlo.after_of_writes_sub (Cert.ReferenceIdeal.Hand.ops1 (F := Ideal)) (R0 m' c) Cert.ReferenceIdeal.Hand.ops1_writes (by decide : Cert.ReferenceIdeal.main_arg11 ∉ Cert.ReferenceIdeal.Hand.W1))).trans (StableHlo.after_of_writes_sub (Cert.ReferenceIdeal.Hand.ops0 (F := Ideal)) (StableHlo.launchContents m' c) Cert.ReferenceIdeal.Hand.ops0_writes (by decide : Cert.ReferenceIdeal.main_arg11 ∉ Cert.ReferenceIdeal.Hand.W0))).symm)),
   (((((((Cert.KernelIdeal.Hand.W6_of m ρ c Cert.KernelIdeal.main_arg12 (by decide)).trans (Cert.KernelIdeal.Hand.W5_of_ne m ρ c Cert.KernelIdeal.main_arg12 (by decide))).trans (Cert.KernelIdeal.Hand.W4_of m ρ c Cert.KernelIdeal.main_arg12 (by decide))).trans (Cert.KernelIdeal.Hand.W3_of m ρ c Cert.KernelIdeal.main_arg12 (by decide))).trans (Cert.KernelIdeal.Hand.W2_of_ne m ρ c Cert.KernelIdeal.main_arg12 (by decide))).trans (Cert.KernelIdeal.Hand.W1_of m ρ c Cert.KernelIdeal.main_arg12 (by decide))).trans ((hag.2.2.2.2.2.2.2.2.2.2.2.2.1).symm.trans (((((StableHlo.after_of_writes_sub (Cert.ReferenceIdeal.Hand.ops4 (F := Ideal)) (R3 m' c) Cert.ReferenceIdeal.Hand.ops4_writes (by decide : Cert.ReferenceIdeal.main_arg12 ∉ Cert.ReferenceIdeal.Hand.W4)).trans (StableHlo.after_of_writes_sub (Cert.ReferenceIdeal.Hand.ops3 (F := Ideal)) (R2 m' c) Cert.ReferenceIdeal.Hand.ops3_writes (by decide : Cert.ReferenceIdeal.main_arg12 ∉ Cert.ReferenceIdeal.Hand.W3))).trans (StableHlo.after_of_writes_sub (Cert.ReferenceIdeal.Hand.ops2 (F := Ideal)) (R1 m' c) Cert.ReferenceIdeal.Hand.ops2_writes (by decide : Cert.ReferenceIdeal.main_arg12 ∉ Cert.ReferenceIdeal.Hand.W2))).trans (StableHlo.after_of_writes_sub (Cert.ReferenceIdeal.Hand.ops1 (F := Ideal)) (R0 m' c) Cert.ReferenceIdeal.Hand.ops1_writes (by decide : Cert.ReferenceIdeal.main_arg12 ∉ Cert.ReferenceIdeal.Hand.W1))).trans (StableHlo.after_of_writes_sub (Cert.ReferenceIdeal.Hand.ops0 (F := Ideal)) (StableHlo.launchContents m' c) Cert.ReferenceIdeal.Hand.ops0_writes (by decide : Cert.ReferenceIdeal.main_arg12 ∉ Cert.ReferenceIdeal.Hand.W0))).symm)),
   (((((((Cert.KernelIdeal.Hand.W6_of m ρ c Cert.KernelIdeal.main_arg13 (by decide)).trans (Cert.KernelIdeal.Hand.W5_of_ne m ρ c Cert.KernelIdeal.main_arg13 (by decide))).trans (Cert.KernelIdeal.Hand.W4_of m ρ c Cert.KernelIdeal.main_arg13 (by decide))).trans (Cert.KernelIdeal.Hand.W3_of m ρ c Cert.KernelIdeal.main_arg13 (by decide))).trans (Cert.KernelIdeal.Hand.W2_of_ne m ρ c Cert.KernelIdeal.main_arg13 (by decide))).trans (Cert.KernelIdeal.Hand.W1_of m ρ c Cert.KernelIdeal.main_arg13 (by decide))).trans ((hag.2.2.2.2.2.2.2.2.2.2.2.2.2.1).symm.trans (((((StableHlo.after_of_writes_sub (Cert.ReferenceIdeal.Hand.ops4 (F := Ideal)) (R3 m' c) Cert.ReferenceIdeal.Hand.ops4_writes (by decide : Cert.ReferenceIdeal.main_arg13 ∉ Cert.ReferenceIdeal.Hand.W4)).trans (StableHlo.after_of_writes_sub (Cert.ReferenceIdeal.Hand.ops3 (F := Ideal)) (R2 m' c) Cert.ReferenceIdeal.Hand.ops3_writes (by decide : Cert.ReferenceIdeal.main_arg13 ∉ Cert.ReferenceIdeal.Hand.W3))).trans (StableHlo.after_of_writes_sub (Cert.ReferenceIdeal.Hand.ops2 (F := Ideal)) (R1 m' c) Cert.ReferenceIdeal.Hand.ops2_writes (by decide : Cert.ReferenceIdeal.main_arg13 ∉ Cert.ReferenceIdeal.Hand.W2))).trans (StableHlo.after_of_writes_sub (Cert.ReferenceIdeal.Hand.ops1 (F := Ideal)) (R0 m' c) Cert.ReferenceIdeal.Hand.ops1_writes (by decide : Cert.ReferenceIdeal.main_arg13 ∉ Cert.ReferenceIdeal.Hand.W1))).trans (StableHlo.after_of_writes_sub (Cert.ReferenceIdeal.Hand.ops0 (F := Ideal)) (StableHlo.launchContents m' c) Cert.ReferenceIdeal.Hand.ops0_writes (by decide : Cert.ReferenceIdeal.main_arg13 ∉ Cert.ReferenceIdeal.Hand.W0))).symm)),
   (((((((Cert.KernelIdeal.Hand.W6_of m ρ c Cert.KernelIdeal.main_arg14 (by decide)).trans (Cert.KernelIdeal.Hand.W5_of_ne m ρ c Cert.KernelIdeal.main_arg14 (by decide))).trans (Cert.KernelIdeal.Hand.W4_of m ρ c Cert.KernelIdeal.main_arg14 (by decide))).trans (Cert.KernelIdeal.Hand.W3_of m ρ c Cert.KernelIdeal.main_arg14 (by decide))).trans (Cert.KernelIdeal.Hand.W2_of_ne m ρ c Cert.KernelIdeal.main_arg14 (by decide))).trans (Cert.KernelIdeal.Hand.W1_of m ρ c Cert.KernelIdeal.main_arg14 (by decide))).trans ((hag.2.2.2.2.2.2.2.2.2.2.2.2.2.2).symm.trans (((((StableHlo.after_of_writes_sub (Cert.ReferenceIdeal.Hand.ops4 (F := Ideal)) (R3 m' c) Cert.ReferenceIdeal.Hand.ops4_writes (by decide : Cert.ReferenceIdeal.main_arg14 ∉ Cert.ReferenceIdeal.Hand.W4)).trans (StableHlo.after_of_writes_sub (Cert.ReferenceIdeal.Hand.ops3 (F := Ideal)) (R2 m' c) Cert.ReferenceIdeal.Hand.ops3_writes (by decide : Cert.ReferenceIdeal.main_arg14 ∉ Cert.ReferenceIdeal.Hand.W3))).trans (StableHlo.after_of_writes_sub (Cert.ReferenceIdeal.Hand.ops2 (F := Ideal)) (R1 m' c) Cert.ReferenceIdeal.Hand.ops2_writes (by decide : Cert.ReferenceIdeal.main_arg14 ∉ Cert.ReferenceIdeal.Hand.W2))).trans (StableHlo.after_of_writes_sub (Cert.ReferenceIdeal.Hand.ops1 (F := Ideal)) (R0 m' c) Cert.ReferenceIdeal.Hand.ops1_writes (by decide : Cert.ReferenceIdeal.main_arg14 ∉ Cert.ReferenceIdeal.Hand.W1))).trans (StableHlo.after_of_writes_sub (Cert.ReferenceIdeal.Hand.ops0 (F := Ideal)) (StableHlo.launchContents m' c) Cert.ReferenceIdeal.Hand.ops0_writes (by decide : Cert.ReferenceIdeal.main_arg14 ∉ Cert.ReferenceIdeal.Hand.W0))).symm))⟩

/-- After the first host stretch: z, x and the source index agree. -/
theorem after_first (hag : Agree m m' c) :
      Cert.KernelIdeal.Hand.W1 (F := Ideal) m ρ c (Proc.devRef .tc Cert.KernelIdeal.main_v43) = R0 m' c (Proc.devRef .tc Cert.ReferenceIdeal.main_v50)
    ∧ Cert.KernelIdeal.Hand.W1 (F := Ideal) m ρ c (Proc.devRef .tc Cert.KernelIdeal.main_v6) = R0 m' c (Proc.devRef .tc Cert.ReferenceIdeal.main_v6)
    ∧ Cert.KernelIdeal.Hand.W1 (F := Ideal) m ρ c (Proc.devRef .tc Cert.KernelIdeal.main_v8) = R0 m' c (Proc.devRef .tc Cert.ReferenceIdeal.main_v8) :=
  ⟨Cert.Chains.zJoin _ _ (hag.1).symm (hag.2.1).symm (hag.2.2.1).symm (hag.2.2.2.2.1).symm,
   Cert.Chains.embed _ _ (hag.1).symm (hag.2.2.2.2.1).symm,
   Cert.Chains.srcIdx _ _ (hag.2.2.1).symm⟩

/-- After the message stage, if the message arrays agree: the scatter-mean, its mean and variance, and x agree. -/
theorem after_msg (hag : Agree m m' c) (hmsg : Cert.KernelIdeal.Hand.W2 (F := Ideal) m ρ c (Proc.devRef .tc Cert.KernelIdeal.main_v44) = R1 m' c (Proc.devRef .tc Cert.ReferenceIdeal.main_v66)) :
      Cert.KernelIdeal.Hand.W4 (F := Ideal) m ρ c (Proc.devRef .tc Cert.KernelIdeal.main_v55) = R2 m' c (Proc.devRef .tc Cert.ReferenceIdeal.main_v77)
    ∧ Cert.KernelIdeal.Hand.W4 (F := Ideal) m ρ c (Proc.devRef .tc Cert.KernelIdeal.main_v58) = R2 m' c (Proc.devRef .tc Cert.ReferenceIdeal.main_v80)
    ∧ Cert.KernelIdeal.Hand.W4 (F := Ideal) m ρ c (Proc.devRef .tc Cert.KernelIdeal.main_v59) = R2 m' c (Proc.devRef .tc Cert.ReferenceIdeal.main_v81)
    ∧ Cert.KernelIdeal.Hand.W4 (F := Ideal) m ρ c (Proc.devRef .tc Cert.KernelIdeal.main_v6) = R2 m' c (Proc.devRef .tc Cert.ReferenceIdeal.main_v6) := by
  have hs : Cert.KernelIdeal.Hand.W2 (F := Ideal) m ρ c (Proc.devRef .tc Cert.KernelIdeal.main_v8) = R1 m' c (Proc.devRef .tc Cert.ReferenceIdeal.main_v8) :=
    (Cert.KernelIdeal.Hand.W2_of_ne m ρ c Cert.KernelIdeal.main_v8 (by decide)).trans ((after_first hag).2.2.trans (StableHlo.after_of_writes_sub (Cert.ReferenceIdeal.Hand.ops1 (F := Ideal)) (R0 m' c) Cert.ReferenceIdeal.Hand.ops1_writes (by decide : Cert.ReferenceIdeal.main_v8 ∉ Cert.ReferenceIdeal.Hand.W1)).symm)
  exact ⟨Cert.Chains.aggOut _ _ hmsg hs, Cert.Chains.aggMean _ _ hmsg hs, Cert.Chains.aggVar _ _ hmsg hs,
    (((Cert.KernelIdeal.Hand.W4_of m ρ c Cert.KernelIdeal.main_v6 (by decide)).trans (Cert.KernelIdeal.Hand.W3_of m ρ c Cert.KernelIdeal.main_v6 (by decide))).trans (Cert.KernelIdeal.Hand.W2_of_ne m ρ c Cert.KernelIdeal.main_v6 (by decide))).trans ((after_first hag).2.1.trans ((StableHlo.after_of_writes_sub (Cert.ReferenceIdeal.Hand.ops2 (F := Ideal)) (R1 m' c) Cert.ReferenceIdeal.Hand.ops2_writes (by decide : Cert.ReferenceIdeal.main_v6 ∉ Cert.ReferenceIdeal.Hand.W2)).trans (StableHlo.after_of_writes_sub (Cert.ReferenceIdeal.Hand.ops1 (F := Ideal)) (R0 m' c) Cert.ReferenceIdeal.Hand.ops1_writes (by decide : Cert.ReferenceIdeal.main_v6 ∉ Cert.ReferenceIdeal.Hand.W1))).symm)⟩

/-- After the normalisation stage, if the normalised arrays agree: the pooled features agree. -/
theorem after_bn (hag : Agree m m' c) (hbn : Cert.KernelIdeal.Hand.W5 (F := Ideal) m ρ c (Proc.devRef .tc Cert.KernelIdeal.main_v60) = R3 m' c (Proc.devRef .tc Cert.ReferenceIdeal.main_v98)) :
    Cert.KernelIdeal.Hand.W6 (F := Ideal) m ρ c (Proc.devRef .tc Cert.KernelIdeal.main_v71) = R4 m' c (Proc.devRef .tc Cert.ReferenceIdeal.main_v109) :=
  Cert.Chains.pooled _ _ hbn ((((((Cert.KernelIdeal.Hand.W5_of_ne m ρ c Cert.KernelIdeal.main_arg3 (by decide)).trans (Cert.KernelIdeal.Hand.W4_of m ρ c Cert.KernelIdeal.main_arg3 (by decide))).trans (Cert.KernelIdeal.Hand.W3_of m ρ c Cert.KernelIdeal.main_arg3 (by decide))).trans (Cert.KernelIdeal.Hand.W2_of_ne m ρ c Cert.KernelIdeal.main_arg3 (by decide))).trans (Cert.KernelIdeal.Hand.W1_of m ρ c Cert.KernelIdeal.main_arg3 (by decide))).trans ((hag.2.2.2.1).symm.trans ((((StableHlo.after_of_writes_sub (Cert.ReferenceIdeal.Hand.ops3 (F := Ideal)) (R2 m' c) Cert.ReferenceIdeal.Hand.ops3_writes (by decide : Cert.ReferenceIdeal.main_arg3 ∉ Cert.ReferenceIdeal.Hand.W3)).trans (StableHlo.after_of_writes_sub (Cert.ReferenceIdeal.Hand.ops2 (F := Ideal)) (R1 m' c) Cert.ReferenceIdeal.Hand.ops2_writes (by decide : Cert.ReferenceIdeal.main_arg3 ∉ Cert.ReferenceIdeal.Hand.W2))).trans (StableHlo.after_of_writes_sub (Cert.ReferenceIdeal.Hand.ops1 (F := Ideal)) (R0 m' c) Cert.ReferenceIdeal.Hand.ops1_writes (by decide : Cert.ReferenceIdeal.main_arg3 ∉ Cert.ReferenceIdeal.Hand.W1))).trans (StableHlo.after_of_writes_sub (Cert.ReferenceIdeal.Hand.ops0 (F := Ideal)) (StableHlo.launchContents m' c) Cert.ReferenceIdeal.Hand.ops0_writes (by decide : Cert.ReferenceIdeal.main_arg3 ∉ Cert.ReferenceIdeal.Hand.W0))).symm))

end Cert.Links

end
-- ==== Proof.KIFinal.Reg0.lean ====
/- The message kernel's result array, its 150 tiles put back together. The windows' index maps send point t to rows
   4000 t … 4000 t + 3999 of the input z and of the result, and to the whole of each weight and bias; so what point t
   writes back is tile t of ONE function `G0` of the five arrays the launch finds — at row r, the body's result `out0_5` of
   rows 4000 (r / 4000) … of z and of the whole weights, read at local row r mod 4000 — and, the 150 tiles
   covering the 600000 rows, the result array after the launch is `G0` of those arrays (`final0`). -/
import proofs.«173417_j18064632447537_1_alg».proof.Proof.KIRun.Reg0
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! # Region 0: from the blocks to the array -/

/-- The windows' index maps at every point of the grid: a row-blocked window's block index is the point's number on the row
    axis and zero on the other; a whole window's is zero on every axis. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = t.val
    ∧ win0_5.index t (1 : Fin 2) = 0 :=
  (by decide +kernel : ∀ t : Fin grid0.N, _)

/-- Rows `4000·t … 4000·t + 3999` of an array of 600000 rows, as one block. -/
def rows0 (z : S600000x222.Idx → Elt F .f32) (t : Fin 150) : Vec F S4000x222 .f32 :=
  fun y => z (ix2 ⟨4000 * t.val + (y 0).val, by have h : (y 0).val < 4000 := (y 0).isLt; have := t.isLt; omega⟩ ⟨(y 1).val, (y 1).isLt⟩)

/-- Input window 0's block at point `t` is rows `4000·t …` of its array. -/
theorem iblk0_0_eq (c : Dev nD) (t : Fin cfg0.N) (ht : t.val < 150) :
    (iblk0 V c 0 t : Vec F S4000x222 .f32) = rows0 (V c main_v43 : S600000x222.Idx → Elt F .f32) ⟨t.val, ht⟩ := by
  obtain ⟨e0_0, e0_1, e1_0, e1_1, e2_0, e3_0, e3_1, e4_0, e5_0, e5_1⟩ := idx_facts0 t
  unfold iblk0 rows0
  funext y
  rw [View.read_apply]
  show V c main_v43 _ = V c main_v43 _
  congr 1
  funext a; apply Fin.ext
  match a with
  | ⟨0, _⟩ => show win0_0.index t (0 : Fin 2) * 4000 + 1 * (y 0).val = 4000 * t.val + (y 0).val; rw [e0_0]; omega
  | ⟨1, _⟩ => show win0_0.index t (1 : Fin 2) * 222 + 1 * (y 1).val = (y 1).val; rw [e0_1]; omega
/-- Input window 1's block is its whole array. -/
theorem iblk0_1_eq (c : Dev nD) (t : Fin cfg0.N) : (iblk0 V c 1 t : Vec F S222x64 .f32) = (V c main_arg5 : S222x64.Idx → Elt F .f32) := by
  obtain ⟨e0_0, e0_1, e1_0, e1_1, e2_0, e3_0, e3_1, e4_0, e5_0, e5_1⟩ := idx_facts0 t
  unfold iblk0
  funext y
  rw [View.read_apply]
  show V c main_arg5 _ = V c main_arg5 y
  congr 1
  funext a; apply Fin.ext
  match a with
  | ⟨0, _⟩ => show win0_1.index t (0 : Fin 2) * 222 + 1 * (y 0).val = (y 0).val; rw [e1_0]; omega
  | ⟨1, _⟩ => show win0_1.index t (1 : Fin 2) * 64 + 1 * (y 1).val = (y 1).val; rw [e1_1]; omega
/-- Input window 2's block is its whole array. -/
theorem iblk0_2_eq (c : Dev nD) (t : Fin cfg0.N) : (iblk0 V c 2 t : Vec F S64 .f32) = (V c main_arg6 : S64.Idx → Elt F .f32) := by
  obtain ⟨e0_0, e0_1, e1_0, e1_1, e2_0, e3_0, e3_1, e4_0, e5_0, e5_1⟩ := idx_facts0 t
  unfold iblk0
  funext y
  rw [View.read_apply]
  show V c main_arg6 _ = V c main_arg6 y
  congr 1
  funext a; apply Fin.ext
  match a with
  | ⟨0, _⟩ => show win0_2.index t (0 : Fin 1) * 64 + 1 * (y 0).val = (y 0).val; rw [e2_0]; omega
/-- Input window 3's block is its whole array. -/
theorem iblk0_3_eq (c : Dev nD) (t : Fin cfg0.N) : (iblk0 V c 3 t : Vec F S222x64 .f32) = (V c main_arg7 : S222x64.Idx → Elt F .f32) := by
  obtain ⟨e0_0, e0_1, e1_0, e1_1, e2_0, e3_0, e3_1, e4_0, e5_0, e5_1⟩ := idx_facts0 t
  unfold iblk0
  funext y
  rw [View.read_apply]
  show V c main_arg7 _ = V c main_arg7 y
  congr 1
  funext a; apply Fin.ext
  match a with
  | ⟨0, _⟩ => show win0_3.index t (0 : Fin 2) * 222 + 1 * (y 0).val = (y 0).val; rw [e3_0]; omega
  | ⟨1, _⟩ => show win0_3.index t (1 : Fin 2) * 64 + 1 * (y 1).val = (y 1).val; rw [e3_1]; omega
/-- Input window 4's block is its whole array. -/
theorem iblk0_4_eq (c : Dev nD) (t : Fin cfg0.N) : (iblk0 V c 4 t : Vec F S64 .f32) = (V c main_arg8 : S64.Idx → Elt F .f32) := by
  obtain ⟨e0_0, e0_1, e1_0, e1_1, e2_0, e3_0, e3_1, e4_0, e5_0, e5_1⟩ := idx_facts0 t
  unfold iblk0
  funext y
  rw [View.read_apply]
  show V c main_arg8 _ = V c main_arg8 y
  congr 1
  funext a; apply Fin.ext
  match a with
  | ⟨0, _⟩ => show win0_4.index t (0 : Fin 1) * 64 + 1 * (y 0).val = (y 0).val; rw [e4_0]; omega

/-- The result array of region 0 as ONE function of its entry arrays: at row `r`, the body's result of block
    `r / 4000` of the row-blocked arrays and of the whole others, read at local row `r % 4000`. -/
def G0 (a0 : S600000x222.Idx → Elt F .f32) (a1 : S222x64.Idx → Elt F .f32) (a2 : S64.Idx → Elt F .f32) (a3 : S222x64.Idx → Elt F .f32) (a4 : S64.Idx → Elt F .f32) : S600000x64.Idx → Elt F .f32 := fun i =>
  out0_5 (rows0 a0 ⟨(i 0).val / 4000, by have h : (i 0).val < 600000 := (i 0).isLt; omega⟩) a1 a2 a3 a4
    (ix2 ⟨(i 0).val % 4000, Nat.mod_lt _ (by decide)⟩ ⟨(i 1).val, (i 1).isLt⟩)

/-- `G0` at an index given as block `t`, local index `y`. -/
theorem G0_at (a0 : S600000x222.Idx → Elt F .f32) (a1 : S222x64.Idx → Elt F .f32) (a2 : S64.Idx → Elt F .f32) (a3 : S222x64.Idx → Elt F .f32) (a4 : S64.Idx → Elt F .f32) (t : Fin 150) (y : S4000x64.Idx) (i : S600000x64.Idx)
    (h0 : (i 0).val = 4000 * t.val + (y 0).val) (h1 : (i 1).val = (y 1).val) :
    G0 a0 a1 a2 a3 a4 i = out0_5 (rows0 a0 t) a1 a2 a3 a4 y := by
  have hy0 : (y 0).val < 4000 := (y 0).isLt
  have e1 : (⟨(i 0).val / 4000, by have h : (i 0).val < 600000 := (i 0).isLt; omega⟩ : Fin 150) = t := Fin.ext (by show (i 0).val / 4000 = t.val; omega)
  have e2 : ((ix2 ⟨(i 0).val % 4000, Nat.mod_lt _ (by decide)⟩ ⟨(i 1).val, (i 1).isLt⟩) : S4000x64.Idx) = y := by
    funext a; apply Fin.ext
    match a with
    | ⟨0, _⟩ => show (i 0).val % 4000 = (y 0).val; omega
    | ⟨1, _⟩ => show (i 1).val = (y 1).val; exact h1
  unfold G0
  rw [e1, e2]

/-- The same with the index and the blocks spelt out. -/
theorem G0_apply (a0 : S600000x222.Idx → Elt F .f32) (a1 : S222x64.Idx → Elt F .f32) (a2 : S64.Idx → Elt F .f32) (a3 : S222x64.Idx → Elt F .f32) (a4 : S64.Idx → Elt F .f32) (t : Fin 150) (p : Fin 4000) (j : Fin 64) :
    G0 a0 a1 a2 a3 a4 (ix2 ⟨4000 * t.val + p.val, by have := t.isLt; have := p.isLt; omega⟩ j)
      = out0_5 (fun y => a0 (ix2 ⟨4000 * t.val + (y 0).val, by have h : (y 0).val < 4000 := (y 0).isLt; have := t.isLt; omega⟩ ⟨(y 1).val, (y 1).isLt⟩)) a1 a2 a3 a4 (ix2 p j) :=
  G0_at a0 a1 a2 a3 a4 t (ix2 p j) _ rfl rfl

/-- A block cut to its point's extent is a whole-array function read through the point's block, once the two agree
    index by index. -/
theorem flushed0_aux (G : S600000x64.Idx → Elt F .f32) (X : Vec F S4000x64 .f32) (t : Fin cfg0.N)
    (h : ∀ j, X ((cfg0.win 5).xinj (grid0.coords t) j) = G (((cfg0.win 5).blk t).view.emb j)) :
    (cfg0.win 5).cut (grid0.coords t) X = ((cfg0.win 5).blk t).view.read (Elt F) G := by
  funext j
  rw [View.read_apply]
  exact h j

/-- What point `t` writes back is block `t` of `G0` of the entry arrays. -/
theorem flushed0_eq (c : Dev nD) (t : Fin cfg0.N) :
    (dat0 V c).flushed 5 t = ((cfg0.win 5).blk t).view.read (Elt F) (G0 (V c main_v43) (V c main_arg5) (V c main_arg6) (V c main_arg7) (V c main_arg8)) := by
  have ht : t.val < 150 := Nat.lt_of_lt_of_eq t.isLt N_0
  obtain ⟨e0_0, e0_1, e1_0, e1_1, e2_0, e3_0, e3_1, e4_0, e5_0, e5_1⟩ := idx_facts0 t
  show (cfg0.win 5).cut (grid0.coords t) ((dat0 V c).after 5 t) = _
  rw [after0_5, iblk0_0_eq V c t ht, iblk0_1_eq V c t, iblk0_2_eq V c t, iblk0_3_eq V c t, iblk0_4_eq V c t]
  refine flushed0_aux _ _ t fun j => ?_
  exact (G0_at _ _ _ _ _ ⟨t.val, ht⟩ ((cfg0.win 5).xinj (grid0.coords t) j) (((cfg0.win 5).blk t).view.emb j)
    (by show win0_5.index t (0 : Fin 2) * 4000 + 1 * (j 0).val = 4000 * t.val + (j 0).val; rw [e5_0]; omega)
    (by show win0_5.index t (1 : Fin 2) * 64 + 1 * (j 1).val = (j 1).val; rw [e5_1]; omega)).symm

/-- An index of the result array is in point `t`'s block iff each coordinate is in the block's range on its axis. -/
theorem mem_blk0 (t : Fin cfg0.N) (i : S600000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v44).slice (win0_5.rect t)).set ↔ _
  rw [View.set_slice_whole, Rect.mem_set_unit]
  exact Iff.rfl

/-- THE RESULT ARRAY after region 0: the blocks tile it (row `r` is in block `r / 4000`), so it ends holding `G0`
    of the entry arrays. -/
theorem final0 (c : Dev nD) : (dat0 V c).arrAt 5 cfg0.N = G0 (V c main_v43) (V c main_arg5) (V c main_arg6) (V c main_arg7) (V c main_arg8) :=
  (dat0 V c).arrAt_eq_of_cover 5 _ (fun t _ => flushed0_eq V c t) fun i => by
    have h0 : (i 0).val < 600000 := (i 0).isLt
    have h1 : (i 1).val < 64 := (i 1).isLt
    refine ⟨(⟨(i 0).val / 4000, by rw [show cfg0.N = 150 from N_0]; omega⟩ : Fin cfg0.N), flush0_5 _, ?_⟩
    obtain ⟨e0_0, e0_1, e1_0, e1_1, e2_0, e3_0, e3_1, e4_0, e5_0, e5_1⟩ := idx_facts0 (⟨(i 0).val / 4000, by rw [show cfg0.N = 150 from N_0]; omega⟩ : Fin cfg0.N)
    rw [mem_blk0]
    intro a
    match a with
    | ⟨0, _⟩ =>
      show win0_5.index _ (0 : Fin 2) * 4000 ≤ (i 0).val ∧ (i 0).val < win0_5.index _ (0 : Fin 2) * 4000 + 4000
      rw [e5_0]
      show (i 0).val / 4000 * 4000 ≤ (i 0).val ∧ (i 0).val < (i 0).val / 4000 * 4000 + 4000
      omega
    | ⟨1, _⟩ =>
      show win0_5.index _ (1 : Fin 2) * 64 ≤ (i 1).val ∧ (i 1).val < win0_5.index _ (1 : Fin 2) * 64 + 64
      rw [e5_1]
      omega

end Cert.KernelIdeal.Hand

end
-- ==== Proof.KIFinal.Reg1.lean ====
/- The normalisation kernel's result array, its 10 tiles put back together. The windows' index maps send point t to rows
   5000 t … 5000 t + 4999 of the two row-tiled inputs and of the result, and to the whole of each statistics vector; so what
   point t writes back is tile t of ONE function `G1` of the six arrays the launch finds — at row r, the body's result
   `out1_6` of rows 5000 (r / 5000) … of the two inputs and of the whole vectors, read at local row r mod 5000 — and, the 10
   tiles covering the 50000 rows, the result array after the launch is `G1` of those arrays (`final1`). -/
import proofs.«173417_j18064632447537_1_alg».proof.Proof.KIRun.Reg1
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! # Region 1: from the blocks to the array -/

/-- The windows' index maps at every point of the grid: a row-blocked window's block index is the point's number on the row
    axis and zero on the other; a whole window's is zero on every axis. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 1) = 0
    ∧ win1_3.index t (0 : Fin 1) = 0
    ∧ win1_4.index t (0 : Fin 1) = 0
    ∧ win1_5.index t (0 : Fin 1) = 0
    ∧ win1_6.index t (0 : Fin 2) = t.val
    ∧ win1_6.index t (1 : Fin 2) = 0 :=
  (by decide +kernel : ∀ t : Fin grid1.N, _)

/-- Rows `5000·t … 5000·t + 4999` of an array of 50000 rows, as one block. -/
def rows1 (z : S50000x64.Idx → Elt F .f32) (t : Fin 10) : Vec F S5000x64 .f32 :=
  fun y => z (ix2 ⟨5000 * t.val + (y 0).val, by have h : (y 0).val < 5000 := (y 0).isLt; have := t.isLt; omega⟩ ⟨(y 1).val, (y 1).isLt⟩)

/-- Input window 0's block at point `t` is rows `5000·t …` of its array. -/
theorem iblk1_0_eq (c : Dev nD) (t : Fin cfg1.N) (ht : t.val < 10) :
    (iblk1 V c 0 t : Vec F S5000x64 .f32) = rows1 (V c main_v55 : S50000x64.Idx → Elt F .f32) ⟨t.val, ht⟩ := by
  obtain ⟨e0_0, e0_1, e1_0, e1_1, e2_0, e3_0, e4_0, e5_0, e6_0, e6_1⟩ := idx_facts1 t
  unfold iblk1 rows1
  funext y
  rw [View.read_apply]
  show V c main_v55 _ = V c main_v55 _
  congr 1
  funext a; apply Fin.ext
  match a with
  | ⟨0, _⟩ => show win1_0.index t (0 : Fin 2) * 5000 + 1 * (y 0).val = 5000 * t.val + (y 0).val; rw [e0_0]; omega
  | ⟨1, _⟩ => show win1_0.index t (1 : Fin 2) * 64 + 1 * (y 1).val = (y 1).val; rw [e0_1]; omega
/-- Input window 1's block at point `t` is rows `5000·t …` of its array. -/
theorem iblk1_1_eq (c : Dev nD) (t : Fin cfg1.N) (ht : t.val < 10) :
    (iblk1 V c 1 t : Vec F S5000x64 .f32) = rows1 (V c main_v6 : S50000x64.Idx → Elt F .f32) ⟨t.val, ht⟩ := by
  obtain ⟨e0_0, e0_1, e1_0, e1_1, e2_0, e3_0, e4_0, e5_0, e6_0, e6_1⟩ := idx_facts1 t
  unfold iblk1 rows1
  funext y
  rw [View.read_apply]
  show V c main_v6 _ = V c main_v6 _
  congr 1
  funext a; apply Fin.ext
  match a with
  | ⟨0, _⟩ => show win1_1.index t (0 : Fin 2) * 5000 + 1 * (y 0).val = 5000 * t.val + (y 0).val; rw [e1_0]; omega
  | ⟨1, _⟩ => show win1_1.index t (1 : Fin 2) * 64 + 1 * (y 1).val = (y 1).val; rw [e1_1]; omega
/-- Input window 2's block is its whole array. -/
theorem iblk1_2_eq (c : Dev nD) (t : Fin cfg1.N) : (iblk1 V c 2 t : Vec F S64 .f32) = (V c main_v58 : S64.Idx → Elt F .f32) := by
  obtain ⟨e0_0, e0_1, e1_0, e1_1, e2_0, e3_0, e4_0, e5_0, e6_0, e6_1⟩ := idx_facts1 t
  unfold iblk1
  funext y
  rw [View.read_apply]
  show V c main_v58 _ = V c main_v58 y
  congr 1
  funext a; apply Fin.ext
  match a with
  | ⟨0, _⟩ => show win1_2.index t (0 : Fin 1) * 64 + 1 * (y 0).val = (y 0).val; rw [e2_0]; omega
/-- Input window 3's block is its whole array. -/
theorem iblk1_3_eq (c : Dev nD) (t : Fin cfg1.N) : (iblk1 V c 3 t : Vec F S64 .f32) = (V c main_v59 : S64.Idx → Elt F .f32) := by
  obtain ⟨e0_0, e0_1, e1_0, e1_1, e2_0, e3_0, e4_0, e5_0, e6_0, e6_1⟩ := idx_facts1 t
  unfold iblk1
  funext y
  rw [View.read_apply]
  show V c main_v59 _ = V c main_v59 y
  congr 1
  funext a; apply Fin.ext
  match a with
  | ⟨0, _⟩ => show win1_3.index t (0 : Fin 1) * 64 + 1 * (y 0).val = (y 0).val; rw [e3_0]; omega
/-- Input window 4's block is its whole array. -/
theorem iblk1_4_eq (c : Dev nD) (t : Fin cfg1.N) : (iblk1 V c 4 t : Vec F S64 .f32) = (V c main_arg9 : S64.Idx → Elt F .f32) := by
  obtain ⟨e0_0, e0_1, e1_0, e1_1, e2_0, e3_0, e4_0, e5_0, e6_0, e6_1⟩ := idx_facts1 t
  unfold iblk1
  funext y
  rw [View.read_apply]
  show V c main_arg9 _ = V c main_arg9 y
  congr 1
  funext a; apply Fin.ext
  match a with
  | ⟨0, _⟩ => show win1_4.index t (0 : Fin 1) * 64 + 1 * (y 0).val = (y 0).val; rw [e4_0]; omega
/-- Input window 5's block is its whole array. -/
theorem iblk1_5_eq (c : Dev nD) (t : Fin cfg1.N) : (iblk1 V c 5 t : Vec F S64 .f32) = (V c main_arg10 : S64.Idx → Elt F .f32) := by
  obtain ⟨e0_0, e0_1, e1_0, e1_1, e2_0, e3_0, e4_0, e5_0, e6_0, e6_1⟩ := idx_facts1 t
  unfold iblk1
  funext y
  rw [View.read_apply]
  show V c main_arg10 _ = V c main_arg10 y
  congr 1
  funext a; apply Fin.ext
  match a with
  | ⟨0, _⟩ => show win1_5.index t (0 : Fin 1) * 64 + 1 * (y 0).val = (y 0).val; rw [e5_0]; omega

/-- The result array of region 1 as ONE function of its entry arrays: at row `r`, the body's result of block
    `r / 5000` of the row-blocked arrays and of the whole others, read at local row `r % 5000`. -/
def G1 (a0 : S50000x64.Idx → Elt F .f32) (a1 : S50000x64.Idx → Elt F .f32) (a2 : S64.Idx → Elt F .f32) (a3 : S64.Idx → Elt F .f32) (a4 : S64.Idx → Elt F .f32) (a5 : S64.Idx → Elt F .f32) : S50000x64.Idx → Elt F .f32 := fun i =>
  out1_6 (rows1 a0 ⟨(i 0).val / 5000, by have h : (i 0).val < 50000 := (i 0).isLt; omega⟩) (rows1 a1 ⟨(i 0).val / 5000, by have h : (i 0).val < 50000 := (i 0).isLt; omega⟩) a2 a3 a4 a5
    (ix2 ⟨(i 0).val % 5000, Nat.mod_lt _ (by decide)⟩ ⟨(i 1).val, (i 1).isLt⟩)

/-- `G1` at an index given as block `t`, local index `y`. -/
theorem G1_at (a0 : S50000x64.Idx → Elt F .f32) (a1 : S50000x64.Idx → Elt F .f32) (a2 : S64.Idx → Elt F .f32) (a3 : S64.Idx → Elt F .f32) (a4 : S64.Idx → Elt F .f32) (a5 : S64.Idx → Elt F .f32) (t : Fin 10) (y : S5000x64.Idx) (i : S50000x64.Idx)
    (h0 : (i 0).val = 5000 * t.val + (y 0).val) (h1 : (i 1).val = (y 1).val) :
    G1 a0 a1 a2 a3 a4 a5 i = out1_6 (rows1 a0 t) (rows1 a1 t) a2 a3 a4 a5 y := by
  have hy0 : (y 0).val < 5000 := (y 0).isLt
  have e1 : (⟨(i 0).val / 5000, by have h : (i 0).val < 50000 := (i 0).isLt; omega⟩ : Fin 10) = t := Fin.ext (by show (i 0).val / 5000 = t.val; omega)
  have e2 : ((ix2 ⟨(i 0).val % 5000, Nat.mod_lt _ (by decide)⟩ ⟨(i 1).val, (i 1).isLt⟩) : S5000x64.Idx) = y := by
    funext a; apply Fin.ext
    match a with
    | ⟨0, _⟩ => show (i 0).val % 5000 = (y 0).val; omega
    | ⟨1, _⟩ => show (i 1).val = (y 1).val; exact h1
  unfold G1
  rw [e1, e2]

/-- The same with the index and the blocks spelt out. -/
theorem G1_apply (a0 : S50000x64.Idx → Elt F .f32) (a1 : S50000x64.Idx → Elt F .f32) (a2 : S64.Idx → Elt F .f32) (a3 : S64.Idx → Elt F .f32) (a4 : S64.Idx → Elt F .f32) (a5 : S64.Idx → Elt F .f32) (t : Fin 10) (p : Fin 5000) (j : Fin 64) :
    G1 a0 a1 a2 a3 a4 a5 (ix2 ⟨5000 * t.val + p.val, by have := t.isLt; have := p.isLt; omega⟩ j)
      = out1_6 (fun y => a0 (ix2 ⟨5000 * t.val + (y 0).val, by have h : (y 0).val < 5000 := (y 0).isLt; have := t.isLt; omega⟩ ⟨(y 1).val, (y 1).isLt⟩)) (fun y => a1 (ix2 ⟨5000 * t.val + (y 0).val, by have h : (y 0).val < 5000 := (y 0).isLt; have := t.isLt; omega⟩ ⟨(y 1).val, (y 1).isLt⟩)) a2 a3 a4 a5 (ix2 p j) :=
  G1_at a0 a1 a2 a3 a4 a5 t (ix2 p j) _ rfl rfl

/-- A block cut to its point's extent is a whole-array function read through the point's block, once the two agree
    index by index. -/
theorem flushed1_aux (G : S50000x64.Idx → Elt F .f32) (X : Vec F S5000x64 .f32) (t : Fin cfg1.N)
    (h : ∀ j, X ((cfg1.win 6).xinj (grid1.coords t) j) = G (((cfg1.win 6).blk t).view.emb j)) :
    (cfg1.win 6).cut (grid1.coords t) X = ((cfg1.win 6).blk t).view.read (Elt F) G := by
  funext j
  rw [View.read_apply]
  exact h j

/-- What point `t` writes back is block `t` of `G1` of the entry arrays. -/
theorem flushed1_eq (c : Dev nD) (t : Fin cfg1.N) :
    (dat1 V c).flushed 6 t = ((cfg1.win 6).blk t).view.read (Elt F) (G1 (V c main_v55) (V c main_v6) (V c main_v58) (V c main_v59) (V c main_arg9) (V c main_arg10)) := by
  have ht : t.val < 10 := Nat.lt_of_lt_of_eq t.isLt N_1
  obtain ⟨e0_0, e0_1, e1_0, e1_1, e2_0, e3_0, e4_0, e5_0, e6_0, e6_1⟩ := idx_facts1 t
  show (cfg1.win 6).cut (grid1.coords t) ((dat1 V c).after 6 t) = _
  rw [after1_6, iblk1_0_eq V c t ht, iblk1_1_eq V c t ht, iblk1_2_eq V c t, iblk1_3_eq V c t, iblk1_4_eq V c t, iblk1_5_eq V c t]
  refine flushed1_aux _ _ t fun j => ?_
  exact (G1_at _ _ _ _ _ _ ⟨t.val, ht⟩ ((cfg1.win 6).xinj (grid1.coords t) j) (((cfg1.win 6).blk t).view.emb j)
    (by show win1_6.index t (0 : Fin 2) * 5000 + 1 * (j 0).val = 5000 * t.val + (j 0).val; rw [e6_0]; omega)
    (by show win1_6.index t (1 : Fin 2) * 64 + 1 * (j 1).val = (j 1).val; rw [e6_1]; omega)).symm

/-- An index of the result array is in point `t`'s block iff each coordinate is in the block's range on its axis. -/
theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v60).slice (win1_6.rect t)).set ↔ _
  rw [View.set_slice_whole, Rect.mem_set_unit]
  exact Iff.rfl

/-- THE RESULT ARRAY after region 1: the blocks tile it (row `r` is in block `r / 5000`), so it ends holding `G1`
    of the entry arrays. -/
theorem final1 (c : Dev nD) : (dat1 V c).arrAt 6 cfg1.N = G1 (V c main_v55) (V c main_v6) (V c main_v58) (V c main_v59) (V c main_arg9) (V c main_arg10) :=
  (dat1 V c).arrAt_eq_of_cover 6 _ (fun t _ => flushed1_eq V c t) fun i => by
    have h0 : (i 0).val < 50000 := (i 0).isLt
    have h1 : (i 1).val < 64 := (i 1).isLt
    refine ⟨(⟨(i 0).val / 5000, by rw [show cfg1.N = 10 from N_1]; omega⟩ : Fin cfg1.N), flush1_6 _, ?_⟩
    obtain ⟨e0_0, e0_1, e1_0, e1_1, e2_0, e3_0, e4_0, e5_0, e6_0, e6_1⟩ := idx_facts1 (⟨(i 0).val / 5000, by rw [show cfg1.N = 10 from N_1]; omega⟩ : Fin cfg1.N)
    rw [mem_blk1]
    intro a
    match a with
    | ⟨0, _⟩ =>
      show win1_6.index _ (0 : Fin 2) * 5000 ≤ (i 0).val ∧ (i 0).val < win1_6.index _ (0 : Fin 2) * 5000 + 5000
      rw [e6_0]
      show (i 0).val / 5000 * 5000 ≤ (i 0).val ∧ (i 0).val < (i 0).val / 5000 * 5000 + 5000
      omega
    | ⟨1, _⟩ =>
      show win1_6.index _ (1 : Fin 2) * 64 ≤ (i 1).val ∧ (i 1).val < win1_6.index _ (1 : Fin 2) * 64 + 64
      rw [e6_1]
      omega

end Cert.KernelIdeal.Hand

end
-- ==== Proof.KIFinal.Reg2.lean ====
/- The read-out head's result array. The grid has one point and every window's block is its whole array, so the result
   array after the launch is the body's result `out2_5` of the five arrays the launch finds (`final2`). -/
import proofs.«173417_j18064632447537_1_alg».proof.Proof.KIRun.Reg2
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! # Region 2: from the one block to the array -/

/-- The windows' index maps at the grid's one point: every window's block index is zero on every axis. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0 :=
  (by decide +kernel : ∀ t : Fin grid2.N, _)

/-- Each input window's block is its whole array. -/
theorem iblk2_0_eq (c : Dev nD) (t : Fin cfg2.N) : (iblk2 V c 0 t : Vec F S512x64 .f32) = (V c main_v71 : S512x64.Idx → Elt F .f32) := by
  obtain ⟨e0, e1, -⟩ := idx_facts2 t
  unfold iblk2
  funext y
  rw [View.read_apply]
  show V c main_v71 _ = V c main_v71 y
  congr 1
  funext a; apply Fin.ext
  match a with
  | ⟨0, _⟩ => show win2_0.index t (0 : Fin 2) * 512 + 1 * (y 0).val = (y 0).val; rw [e0]; omega
  | ⟨1, _⟩ => show win2_0.index t (1 : Fin 2) * 64 + 1 * (y 1).val = (y 1).val; rw [e1]; omega
theorem iblk2_1_eq (c : Dev nD) (t : Fin cfg2.N) : (iblk2 V c 1 t : Vec F S64x128 .f32) = (V c main_arg11 : S64x128.Idx → Elt F .f32) := by
  obtain ⟨-, -, e0, e1, -⟩ := idx_facts2 t
  unfold iblk2
  funext y
  rw [View.read_apply]
  show V c main_arg11 _ = V c main_arg11 y
  congr 1
  funext a; apply Fin.ext
  match a with
  | ⟨0, _⟩ => show win2_1.index t (0 : Fin 2) * 64 + 1 * (y 0).val = (y 0).val; rw [e0]; omega
  | ⟨1, _⟩ => show win2_1.index t (1 : Fin 2) * 128 + 1 * (y 1).val = (y 1).val; rw [e1]; omega
theorem iblk2_2_eq (c : Dev nD) (t : Fin cfg2.N) : (iblk2 V c 2 t : Vec F S128 .f32) = (V c main_arg12 : S128.Idx → Elt F .f32) := by
  obtain ⟨-, -, -, -, e0, -⟩ := idx_facts2 t
  unfold iblk2
  funext y
  rw [View.read_apply]
  show V c main_arg12 _ = V c main_arg12 y
  congr 1
  funext a; apply Fin.ext
  match a with
  | ⟨0, _⟩ => show win2_2.index t (0 : Fin 1) * 128 + 1 * (y 0).val = (y 0).val; rw [e0]; omega
theorem iblk2_3_eq (c : Dev nD) (t : Fin cfg2.N) : (iblk2 V c 3 t : Vec F S128x1 .f32) = (V c main_arg13 : S128x1.Idx → Elt F .f32) := by
  obtain ⟨-, -, -, -, -, e0, e1, -⟩ := idx_facts2 t
  unfold iblk2
  funext y
  rw [View.read_apply]
  show V c main_arg13 _ = V c main_arg13 y
  congr 1
  funext a; apply Fin.ext
  match a with
  | ⟨0, _⟩ => show win2_3.index t (0 : Fin 2) * 128 + 1 * (y 0).val = (y 0).val; rw [e0]; omega
  | ⟨1, _⟩ => show win2_3.index t (1 : Fin 2) * 1 + 1 * (y 1).val = (y 1).val; rw [e1]; omega
theorem iblk2_4_eq (c : Dev nD) (t : Fin cfg2.N) : (iblk2 V c 4 t : Vec F S1 .f32) = (V c main_arg14 : S1.Idx → Elt F .f32) := by
  obtain ⟨-, -, -, -, -, -, -, e0, -⟩ := idx_facts2 t
  unfold iblk2
  funext y
  rw [View.read_apply]
  show V c main_arg14 _ = V c main_arg14 y
  congr 1
  funext a; apply Fin.ext
  match a with
  | ⟨0, _⟩ => show win2_4.index t (0 : Fin 1) * 1 + 1 * (y 0).val = (y 0).val; rw [e0]; omega

/-- What the one point writes back is the body's result of the whole entry arrays, read through its block. -/
theorem flushed2_eq (c : Dev nD) (t : Fin cfg2.N) :
    (dat2 V c).flushed 5 t = ((cfg2.win 5).blk t).view.read (Elt F)
      (out2_5 (V c main_v71) (V c main_arg11) (V c main_arg12) (V c main_arg13) (V c main_arg14)) := by
  show (cfg2.win 5).cut (grid2.coords t) ((dat2 V c).after 5 t) = _
  rw [after2_5, iblk2_0_eq, iblk2_1_eq, iblk2_2_eq, iblk2_3_eq, iblk2_4_eq]
  obtain ⟨-, -, -, -, -, -, -, -, e0, e1⟩ := idx_facts2 t
  funext j
  rw [View.read_apply]
  show out2_5 _ _ _ _ _ ((cfg2.win 5).xinj (grid2.coords t) j) = out2_5 _ _ _ _ _ (((cfg2.win 5).blk t).view.emb j)
  congr 1
  funext a; apply Fin.ext
  match a with
  | ⟨0, _⟩ => show (j 0).val = win2_5.index t (0 : Fin 2) * 512 + 1 * (j 0).val; rw [e0]; omega
  | ⟨1, _⟩ => show (j 1).val = win2_5.index t (1 : Fin 2) * 1 + 1 * (j 1).val; rw [e1]; omega

/-- An index of the result array is in point `t`'s block iff each coordinate is in the block's range on its axis. -/
theorem mem_blk2 (t : Fin cfg2.N) (i : S512x1.Idx) :
    i ∈ ((cfg2.win 5).blk t).view.set ↔ ∀ a : Fin 2, win2_5.index t a * S512x1.size a ≤ (i a).val ∧ (i a).val < win2_5.index t a * S512x1.size a + S512x1.size a := by
  show i ∈ ((View.whole main_v72).slice (win2_5.rect t)).set ↔ _
  rw [View.set_slice_whole, Rect.mem_set_unit]
  exact Iff.rfl

/-- THE RESULT ARRAY after region 2: the body's result of the whole entry arrays (the one block is the array). -/
theorem final2 (c : Dev nD) : (dat2 V c).arrAt 5 cfg2.N
    = out2_5 (V c main_v71) (V c main_arg11) (V c main_arg12) (V c main_arg13) (V c main_arg14) :=
  (dat2 V c).arrAt_eq_of_cover 5 _ (fun t _ => flushed2_eq V c t) fun i => by
    refine ⟨t2_0, flush2_5 t2_0, ?_⟩
    obtain ⟨-, -, -, -, -, -, -, -, e0, e1⟩ := idx_facts2 t2_0
    rw [mem_blk2]
    intro a
    have h0 : (i 0).val < 512 := (i 0).isLt
    have h1 : (i 1).val < 1 := (i 1).isLt
    match a with
    | ⟨0, _⟩ => show win2_5.index t2_0 (0 : Fin 2) * 512 ≤ (i 0).val ∧ (i 0).val < win2_5.index t2_0 (0 : Fin 2) * 512 + 512; rw [e0]; omega
    | ⟨1, _⟩ => show win2_5.index t2_0 (1 : Fin 2) * 1 ≤ (i 1).val ∧ (i 1).val < win2_5.index t2_0 (1 : Fin 2) * 1 + 1; rw [e1]; omega

end Cert.KernelIdeal.Hand

end
-- ==== Proof.KIFinal.lean ====
/- Each launch's result array when the launch is left, as one function of the arrays when it is entered: the message kernel's
   (`W2_v44`: `G0` of the input, weights and biases at the first launch's entry), the normalisation kernel's (`W5_v60`:
   `G1` of the two inputs and the four vectors at the second launch's entry) and the read-out head's, the program's result
   (`W7_v72`: `out2_5` of the input and weights at the third launch's entry). -/
import proofs.«173417_j18064632447537_1_alg».proof.Proof.KIRun
import proofs.«173417_j18064632447537_1_alg».proof.Proof.KIFinal.Reg0
import proofs.«173417_j18064632447537_1_alg».proof.Proof.KIFinal.Reg1
import proofs.«173417_j18064632447537_1_alg».proof.Proof.KIFinal.Reg2

noncomputable section

namespace Cert.KernelIdeal.Hand

open Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! # Each region's result array at its exit, as one function of the arrays at its entry -/

/-- Region 0 leaves in its result array `G0` of its five operand arrays as it found them. -/
theorem W2_v44 (c : Dev nD) : W2 m ρ c (Proc.devRef .tc main_v44)
    = G0 (W1 m ρ c (Proc.devRef .tc main_v43)) (W1 m ρ c (Proc.devRef .tc main_arg5)) (W1 m ρ c (Proc.devRef .tc main_arg6))
        (W1 m ρ c (Proc.devRef .tc main_arg7)) (W1 m ρ c (Proc.devRef .tc main_arg8)) :=
  (W2_arr m ρ c 5).trans (final0 (V1 m ρ) c)

/-- Region 1 leaves in its result array `G1` of its six operand arrays as it found them. -/
theorem W5_v60 (c : Dev nD) : W5 m ρ c (Proc.devRef .tc main_v60)
    = G1 (W4 m ρ c (Proc.devRef .tc main_v55)) (W4 m ρ c (Proc.devRef .tc main_v6)) (W4 m ρ c (Proc.devRef .tc main_v58))
        (W4 m ρ c (Proc.devRef .tc main_v59)) (W4 m ρ c (Proc.devRef .tc main_arg9)) (W4 m ρ c (Proc.devRef .tc main_arg10)) :=
  (W5_arr m ρ c 6).trans (final1 (V4 m ρ) c)

/-- Region 2 leaves in the program's result array the body's result of its five operand arrays as it found them. -/
theorem W7_v72 (c : Dev nD) : W7 m ρ c (Proc.devRef .tc main_v72)
    = out2_5 (W6 m ρ c (Proc.devRef .tc main_v71)) (W6 m ρ c (Proc.devRef .tc main_arg11)) (W6 m ρ c (Proc.devRef .tc main_arg12))
        (W6 m ρ c (Proc.devRef .tc main_arg13)) (W6 m ρ c (Proc.devRef .tc main_arg14)) :=
  (W7_arr m ρ c 5).trans (final2 (V6 m ρ) c)

end Cert.KernelIdeal.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibHostLogistic.lean ====
/-
  The logistic function and the swish as a host program spells them, and a bias vector added to every row of a matrix,
  read at an index over the extended reals. Independent of any program.

  A host program may spell σ(z) out as 1 / (1 + e^(-z)) in four elementwise operations — negate, exponential, add,
  divide — with the scalar 1.0 broadcast to the array's shape; the swish is z times that. Over the extended reals the f32 word of
  1.0 denotes 1, and `Ideal.logistic z` is by definition `Ideal.div 1 (1 + Ideal.exp (-z))`: so the spelt-out quotient
  IS the logistic function at every index, infinities included. A bias vector [f] broadcast to the row [1, f] and then
  down n rows contributes its entry q to entry (p, q).
-/
import Idealize.ShloMosaic.Lib.ValueIdx
import Idealize.ShloMosaic.Lib.Pipeline.Value
import Idealize.ShloMosaic.PureOps.Ideal
import Idealize.ShloMosaic.PureOps.IdealRules

noncomputable section

namespace Cert.Lib

open Idealize.ShloMosaic Idealize.ShloMosaic.ValueIdx

/-- The f32 word of 1.0 denotes the extended real 1. -/
theorem one_f32 : Ideal.ofBits .f32 0x3F800000#32 = 1 := IdealRules.sign_bit.ideal_onePat .f32

/-- The scalar 1.0 broadcast to any shape is 1 at every index. -/
theorem ones_apply {s : Shape} (h0 : (⟨0, ![]⟩ : Shape).BroadcastsInDim s ![]) (i : s.Idx) :
    broadcastInDim s ![] h0 (constant (F := Ideal) ⟨0, ![]⟩ .f32 0x3F800000#32) i = 1 :=
  (broadcastInDim_apply ![] h0 _ i ix0 (fun a => a.elim0)).trans one_f32

/-- 1 / (1 + e^(-z)), spelt in the host's operations, is the logistic function at every index. -/
theorem hostLogistic_apply {s : Shape} (z : FVec Ideal s .f32) (h0 : (⟨0, ![]⟩ : Shape).BroadcastsInDim s ![]) (i : s.Idx) :
    Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z))) i
      = Ideal.logistic (z i) := by
  show Ideal.div (broadcastInDim s ![] h0 (constant (F := Ideal) ⟨0, ![]⟩ .f32 0x3F800000#32) i)
      (broadcastInDim s ![] h0 (constant (F := Ideal) ⟨0, ![]⟩ .f32 0x3F800000#32) i + Ideal.exp (-(z i)))
    = Ideal.div 1 (1 + Ideal.exp (-(z i)))
  rw [ones_apply h0 i]

/-- z · (1 / (1 + e^(-z))), spelt in the host's operations, is z · σ(z) at every index. -/
theorem hostSwish_apply {s : Shape} (z : FVec Ideal s .f32) (h0 : (⟨0, ![]⟩ : Shape).BroadcastsInDim s ![]) (i : s.Idx) :
    mulf z (Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z)))) i
      = z i * Ideal.logistic (z i) :=
  congrArg (z i * ·) (hostLogistic_apply z h0 i)

/-- A bias vector [f] broadcast to the row [1, f], then down n rows, and added: entry (p, q) gains the vector's entry q. -/
theorem hostRowBias_apply {n f : Nat} (a : FVec Ideal ⟨2, ![n, f]⟩ .f32) (b : FVec Ideal ⟨1, ![f]⟩ .f32)
    (h1 : (⟨1, ![f]⟩ : Shape).BroadcastsInDim ⟨2, ![1, f]⟩ ![1])
    (h2 : (⟨2, ![1, f]⟩ : Shape).BroadcastsInDim ⟨2, ![n, f]⟩ ![0, 1]) (p : Fin n) (q : Fin f) :
    addf a (broadcastInDim ⟨2, ![n, f]⟩ ![0, 1] h2 (broadcastInDim ⟨2, ![1, f]⟩ ![1] h1 b)) (ix2 p q)
      = a (ix2 p q) + b (ix1 q) := by
  have hq := q.isLt
  have e2 : broadcastInDim ⟨2, ![n, f]⟩ ![0, 1] h2 (broadcastInDim ⟨2, ![1, f]⟩ ![1] h1 b) (ix2 p q)
      = broadcastInDim ⟨2, ![1, f]⟩ ![1] h1 b (ix2 0 q) :=
    broadcastInDim_apply ![0, 1] h2 _ (ix2 p q) (ix2 0 q) (fun d => by
      match d with
      | ⟨0, _⟩ => show (0 : Nat) = if (1 : Nat) = 1 then 0 else p.val; rw [if_pos rfl]
      | ⟨1, _⟩ => show q.val = if f = 1 then 0 else q.val; split <;> omega)
  have e1 : broadcastInDim ⟨2, ![1, f]⟩ ![1] h1 b (ix2 0 q) = b (ix1 q) :=
    broadcastInDim_apply ![1] h1 b (ix2 0 q) (ix1 q) (fun d => by
      match d with
      | ⟨0, _⟩ => show q.val = if f = 1 then 0 else q.val; split <;> omega)
  show a (ix2 p q) + _ = a (ix2 p q) + b (ix1 q)
  rw [e2, e1]

end Cert.Lib

end
-- ==== Proof.StageSp.lean ====
/-
  The softplus function as both programs spell it, over the extended reals.

  Both programs compute softplus(c) as  select (d ≠ d) (c + 0) (max c 0 + log1p (exp (−|d|)))  with d = c − 0, the
  absolute value being max d (−d). On a linear order d ≠ d is false, so the selection always takes its last operand;
  the f32 word of zero denotes 0, and 0 − a = −a. One program writes the comparison "ordered and not equal" and the
  negation as a subtraction from 0, the other "unordered or not equal" and a negation: over the extended reals these
  are the same values.

  Also here: the same two spellings over whole arrays read at an index, and a bias vector cast to a row and broadcast
  down the rows of a matrix.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.Stage

open Idealize.ShloMosaic Idealize.ShloMosaic.ValueIdx

/-- softplus(c), in the spelling both programs reduce to. -/
def sp (c : EReal) : EReal := max c 0 + Ideal.log1p (Ideal.exp (-(max (c - 0) (-(c - 0)))))

/-- Nothing differs from itself: the "ordered and not equal" comparison of a value with itself is the zero bit. -/
theorem cmp_one_self (d : EReal) : Ideal.cmp .one d d = 0#1 := by
  unfold Ideal.cmp
  simp

/-- The same for "unordered or not equal". -/
theorem cmp_une_self (d : EReal) : Ideal.cmp .une d d = 0#1 := by
  unfold Ideal.cmp
  simp

/-- The kernel's spelling: comparison "one", the negation written 0 − |d|. -/
theorem sp_kernel (c : EReal) :
    Scalar.select (Ideal.cmp .one (c - Ideal.ofBits .f32 0x00000000#32) (c - Ideal.ofBits .f32 0x00000000#32))
        (c + Ideal.ofBits .f32 0x00000000#32)
        (max c (Ideal.ofBits .f32 0x00000000#32)
          + Ideal.log1p (Ideal.exp (Ideal.ofBits .f32 0x00000000#32
              - max (c - Ideal.ofBits .f32 0x00000000#32) (-(c - Ideal.ofBits .f32 0x00000000#32)))))
      = sp c := by
  rw [cmp_one_self, select_zero, Ideal.ofBits_zero_f32, zero_sub]
  rfl

/-- The host's spelling: comparison "une", the negation written −|d|. -/
theorem sp_host (c : EReal) :
    Scalar.select (Ideal.cmp .une (c - Ideal.ofBits .f32 0x00000000#32) (c - Ideal.ofBits .f32 0x00000000#32))
        (c + Ideal.ofBits .f32 0x00000000#32)
        (max c (Ideal.ofBits .f32 0x00000000#32)
          + Ideal.log1p (Ideal.exp (-(max (c - Ideal.ofBits .f32 0x00000000#32) (-(c - Ideal.ofBits .f32 0x00000000#32))))))
      = sp c := by
  rw [cmp_une_self, select_zero, Ideal.ofBits_zero_f32]
  rfl

/-- A bias vector [f] cast to the row [1, f] and broadcast down n rows, read at (p, q): the vector's entry q. -/
theorem kernelRowBias_apply {n f : Nat} (b : (⟨1, ![f]⟩ : Shape).Idx → EReal)
    (h1 : (⟨1, ![f]⟩ : Shape).ShapeCasts ⟨2, ![1, f]⟩) (h2 : (⟨2, ![1, f]⟩ : Shape).Broadcasts ⟨2, ![n, f]⟩)
    (p : Fin n) (q : Fin f) :
    broadcastTo ⟨2, ![n, f]⟩ (shapeCast ⟨2, ![1, f]⟩ b h1) h2 (ix2 p q) = b (ix1 q) :=
  (broadcastTo_1b_ab_apply _ h2 p q).trans (shapeCast_a_1a_apply b h1 0 q)

/-- The kernel's softplus of an array, at an index. -/
theorem kernelSoftplus_apply {s : Shape} (c : FVec Ideal s .f32) (i : s.Idx) :
    select (cmpf .one (subf c (broadcast s (Scalar.ofBits (F := Ideal) .f32 0x00000000#32))) (subf c (broadcast s (Scalar.ofBits (F := Ideal) .f32 0x00000000#32))))
      (addf c (broadcast s (Scalar.ofBits (F := Ideal) .f32 0x00000000#32)))
      (addf (maximumf c (broadcast s (Scalar.ofBits (F := Ideal) .f32 0x00000000#32)))
        (log1p (exp (subf (broadcast s (Scalar.ofBits (F := Ideal) .f32 0x00000000#32))
          (absf (subf c (broadcast s (Scalar.ofBits (F := Ideal) .f32 0x00000000#32)))))))) i
      = sp (c i) :=
  sp_kernel (c i)

/-- The scalar 0.0 broadcast to any shape is the f32 word of zero at every index. -/
theorem hostZero_apply {s : Shape} (h0 : (⟨0, ![]⟩ : Shape).BroadcastsInDim s ![]) (i : s.Idx) :
    broadcastInDim s ![] h0 (constant (F := Ideal) ⟨0, ![]⟩ .f32 0x00000000#32) i = Ideal.ofBits .f32 0x00000000#32 :=
  broadcastInDim_apply ![] h0 _ i ix0 (fun a => a.elim0)

/-- The reference's softplus of an array, at an index. -/
theorem hostSoftplus_apply {s : Shape} (c : FVec Ideal s .f32) (h0 : (⟨0, ![]⟩ : Shape).BroadcastsInDim s ![]) (i : s.Idx) :
    select (cmpf .une (subf c (broadcastInDim s ![] h0 (constant (F := Ideal) ⟨0, ![]⟩ .f32 0x00000000#32)))
          (subf c (broadcastInDim s ![] h0 (constant (F := Ideal) ⟨0, ![]⟩ .f32 0x00000000#32))))
      (addf c (broadcastInDim s ![] h0 (constant (F := Ideal) ⟨0, ![]⟩ .f32 0x00000000#32)))
      (addf (maximumf c (broadcastInDim s ![] h0 (constant (F := Ideal) ⟨0, ![]⟩ .f32 0x00000000#32)))
        (Host.log1p (Host.exp (Host.negf (Host.absf
          (subf c (broadcastInDim s ![] h0 (constant (F := Ideal) ⟨0, ![]⟩ .f32 0x00000000#32)))))))) i
      = sp (c i) := by
  have hz := hostZero_apply h0 i
  show Scalar.select
      (Ideal.cmp .une (c i - broadcastInDim s ![] h0 (constant (F := Ideal) ⟨0, ![]⟩ .f32 0x00000000#32) i)
        (c i - broadcastInDim s ![] h0 (constant (F := Ideal) ⟨0, ![]⟩ .f32 0x00000000#32) i))
      (c i + broadcastInDim s ![] h0 (constant (F := Ideal) ⟨0, ![]⟩ .f32 0x00000000#32) i)
      (max (c i) (broadcastInDim s ![] h0 (constant (F := Ideal) ⟨0, ![]⟩ .f32 0x00000000#32) i)
        + Ideal.log1p (Ideal.exp (-(max (c i - broadcastInDim s ![] h0 (constant (F := Ideal) ⟨0, ![]⟩ .f32 0x00000000#32) i)
            (-(c i - broadcastInDim s ![] h0 (constant (F := Ideal) ⟨0, ![]⟩ .f32 0x00000000#32) i))))))
    = sp (c i)
  rw [hz]
  exact sp_host (c i)

end Cert.Stage

end
-- ==== Proof.StageMsg.lean ====
/-
  The message stage: a logistic gate times a softplus, each of an affine map of the same row, on the kernel's side and
  on the reference's, read at an output index.
-/
import proofs.«173417_j18064632447537_1_alg».proof.Proof.KIRun.Reg0
import proofs.«173417_j18064632447537_1_alg».proof.Proof.RefRun
import proofs.«173417_j18064632447537_1_alg».proof.Proof.HostRead
import proofs.«173417_j18064632447537_1_alg».proof.Proof.LibPlainDot
import proofs.«173417_j18064632447537_1_alg».proof.Proof.LibHostLogistic
import proofs.«173417_j18064632447537_1_alg».proof.Proof.StageSp
import Idealize.ShloMosaic.Lib.ValueIdx
import Idealize.ShloMosaic.Lib.ValueLayout
import Idealize.ShloMosaic.Lib.Pipeline.Value

set_option maxRecDepth 16384

noncomputable section

namespace Cert.Stage

open Idealize.ShloMosaic Idealize.ShloMosaic.TcCoe Idealize.ShloMosaic.ValueIdx

/-- The message at column j from one row of features: σ(row · w_f + b_f) · softplus(row · w_c + b_c). -/
def msgAt (zrow : Fin 222 → EReal) (wf : (⟨2, ![222, 64]⟩ : Shape).Idx → EReal) (bf : (⟨1, ![64]⟩ : Shape).Idx → EReal)
    (wc : (⟨2, ![222, 64]⟩ : Shape).Idx → EReal) (bc : (⟨1, ![64]⟩ : Shape).Idx → EReal) (j : Fin 64) : EReal :=
  Ideal.logistic (∑ k : Fin 222, zrow k * wf (ix2 k j) + bf (ix1 j))
    * sp (∑ k : Fin 222, zrow k * wc (ix2 k j) + bc (ix1 j))

/-- The kernel's message block at (p, j): the message of the block's row p. -/
theorem out0_5_apply (x0 : Vec Ideal Cert.KernelIdeal.S4000x222 .f32) (wf : Vec Ideal Cert.KernelIdeal.S222x64 .f32)
    (bf : Vec Ideal Cert.KernelIdeal.S64 .f32) (wc : Vec Ideal Cert.KernelIdeal.S222x64 .f32)
    (bc : Vec Ideal Cert.KernelIdeal.S64 .f32) (p : Fin 4000) (j : Fin 64) :
    Cert.KernelIdeal.Hand.out0_5 (F := Ideal) x0 wf bf wc bc (ix2 p j) = msgAt (fun k => x0 (ix2 p k)) wf bf wc bc j := by
  rw [Cert.KernelIdeal.Hand.out0_5_eq]
  unfold Cert.KernelIdeal.Gen.k0_pay1 msgAt
  rw [mulf_apply]
  refine congrArg₂ (· * ·) ?_ ?_
  · change Ideal.logistic _ = Ideal.logistic _
    refine congrArg Ideal.logistic ?_
    rw [addf_apply]
    refine congrArg₂ (· + ·) ?_ (kernelRowBias_apply (n := 4000) (f := 64) bf _ _ p j)
    refine (Cert.Lib.matmul_zero_apply (M := 4000) (K := 222) (N := 64) _ none _ _ p j).trans ?_
    refine Finset.sum_congr rfl fun k _ => congrArg (· * wf (ix2 k j)) ?_
    rw [truncf_apply, shapeCast_self]
  · refine (kernelSoftplus_apply _ (ix2 p j)).trans (congrArg sp ?_)
    rw [addf_apply]
    refine congrArg₂ (· + ·) ?_ (kernelRowBias_apply (n := 4000) (f := 64) bc _ _ p j)
    refine (Cert.Lib.matmul_zero_apply (M := 4000) (K := 222) (N := 64) _ none _ _ p j).trans ?_
    refine Finset.sum_congr rfl fun k _ => congrArg (· * wc (ix2 k j)) ?_
    rw [truncf_apply, shapeCast_self]

open Idealize.SL.Sem Cert.ReferenceIdeal Cert.ReferenceIdeal.Hand Cert.HostRead in
/-- The reference's message array at (r, j): the message of row r of the feature array. -/
theorem hostMsg (V : Valuation τ sig (Elt Ideal)) (r : Fin 600000) (j : Fin 64) :
    StableHlo.after (ops1 (F := Ideal)) V (Proc.devRef .tc main_v66) (ix2 r j)
      = msgAt (fun k => V (Proc.devRef .tc main_v50) (ix2 r k)) (V (Proc.devRef .tc main_arg5))
          (V (Proc.devRef .tc main_arg6)) (V (Proc.devRef .tc main_arg7)) (V (Proc.devRef .tc main_arg8)) j := by
  read_line
  simp only [StableHlo.TRef.toBuf, StableHlo.TRef.ofBuf, cast_eq]
  unfold msgAt
  rw [mulf_apply]
  refine congrArg₂ (· * ·) ?_ ?_
  · refine (Cert.Lib.hostLogistic_apply _ _ (ix2 r j)).trans (congrArg Ideal.logistic ?_)
    refine (Cert.Lib.hostRowBias_apply (n := 600000) (f := 64) _ _ _ _ r j).trans ?_
    refine congrArg (· + _) ?_
    exact Cert.Lib.dotGeneral_plain_apply (M := 600000) (K := 222) (N := 64) _ none .single _ _ r j
  · refine (hostSoftplus_apply _ _ (ix2 r j)).trans (congrArg sp ?_)
    refine (Cert.Lib.hostRowBias_apply (n := 600000) (f := 64) _ _ _ _ r j).trans ?_
    refine congrArg (· + _) ?_
    exact Cert.Lib.dotGeneral_plain_apply (M := 600000) (K := 222) (N := 64) _ none .single _ _ r j

end Cert.Stage

end
-- ==== Proof.StageHead.lean ====
/-
  The head stage: two dense layers with a softplus between them, on the kernel's side and on the reference's, read at
  an output index.
-/
import proofs.«173417_j18064632447537_1_alg».proof.Proof.KIRun.Reg2
import proofs.«173417_j18064632447537_1_alg».proof.Proof.RefRun
import proofs.«173417_j18064632447537_1_alg».proof.Proof.HostRead
import proofs.«173417_j18064632447537_1_alg».proof.Proof.LibPlainDot
import proofs.«173417_j18064632447537_1_alg».proof.Proof.LibHostLogistic
import proofs.«173417_j18064632447537_1_alg».proof.Proof.StageSp
import Idealize.ShloMosaic.Lib.ValueIdx
import Idealize.ShloMosaic.Lib.ValueLayout
import Idealize.ShloMosaic.Lib.Pipeline.Value

set_option maxRecDepth 16384

noncomputable section

namespace Cert.Stage

open Idealize.ShloMosaic Idealize.ShloMosaic.TcCoe Idealize.ShloMosaic.ValueIdx

/-- The head's value at row p. -/
def headAt (g : (⟨2, ![512, 64]⟩ : Shape).Idx → EReal) (wl1 : (⟨2, ![64, 128]⟩ : Shape).Idx → EReal)
    (bl1 : (⟨1, ![128]⟩ : Shape).Idx → EReal) (wo : (⟨2, ![128, 1]⟩ : Shape).Idx → EReal)
    (bo : (⟨1, ![1]⟩ : Shape).Idx → EReal) (p : Fin 512) : EReal :=
  ∑ k : Fin 128, sp (∑ l : Fin 64, g (ix2 p l) * wl1 (ix2 l k) + bl1 (ix1 k)) * wo (ix2 k (0 : Fin 1)) + bo (ix1 (0 : Fin 1))

theorem out2_5_apply (g : Vec Ideal Cert.KernelIdeal.S512x64 .f32) (wl1 : Vec Ideal Cert.KernelIdeal.S64x128 .f32)
    (bl1 : Vec Ideal Cert.KernelIdeal.S128 .f32) (wo : Vec Ideal Cert.KernelIdeal.S128x1 .f32)
    (bo : Vec Ideal Cert.KernelIdeal.S1 .f32) (p : Fin 512) :
    Cert.KernelIdeal.Hand.out2_5 (F := Ideal) g wl1 bl1 wo bo (ix2 p (0 : Fin 1)) = headAt g wl1 bl1 wo bo p := by
  rw [Cert.KernelIdeal.Hand.out2_5_eq]
  unfold Cert.KernelIdeal.Gen.k2_pay1 headAt
  rw [addf_apply]
  refine congrArg₂ (· + ·) ?_ (kernelRowBias_apply (n := 512) (f := 1) bo _ _ p 0)
  refine (Cert.Lib.matmul_zero_apply (M := 512) (K := 128) (N := 1) _ none _ _ p 0).trans ?_
  refine Finset.sum_congr rfl fun k _ => congrArg (· * wo (ix2 k (0 : Fin 1))) ?_
  rw [truncf_apply]
  refine (kernelSoftplus_apply _ (ix2 p k)).trans (congrArg sp ?_)
  rw [addf_apply]
  refine congrArg₂ (· + ·) ?_ (kernelRowBias_apply (n := 512) (f := 128) bl1 _ _ p k)
  refine (Cert.Lib.matmul_zero_apply (M := 512) (K := 64) (N := 128) _ none _ _ p k).trans ?_
  refine Finset.sum_congr rfl fun l _ => congrArg (· * wl1 (ix2 l k)) ?_
  rw [truncf_apply, shapeCast_self]
open Idealize.SL.Sem Cert.ReferenceIdeal Cert.ReferenceIdeal.Hand Cert.HostRead in
/-- The reference's head, read at row p. -/
theorem hostHead_apply (V : Valuation τ sig (Elt Ideal)) (p : Fin 512) :
    StableHlo.after (ops5 (F := Ideal)) V (Proc.devRef .tc main_v118) (ix2 p (0 : Fin 1))
      = headAt (V (Proc.devRef .tc main_v109)) (V (Proc.devRef .tc main_arg11)) (V (Proc.devRef .tc main_arg12))
          (V (Proc.devRef .tc main_arg13)) (V (Proc.devRef .tc main_arg14)) p := by
  read_line
  simp only [StableHlo.TRef.toBuf, StableHlo.TRef.ofBuf, cast_eq]
  unfold headAt
  refine (Cert.Lib.hostRowBias_apply (n := 512) (f := 1) _ _ _ _ p 0).trans ?_
  refine congrArg (· + _) ?_
  refine (Cert.Lib.dotGeneral_plain_apply (M := 512) (K := 128) (N := 1) _ none .single _ _ p 0).trans ?_
  refine Finset.sum_congr rfl fun k _ => congrArg (· * _) ?_
  refine (hostSoftplus_apply _ _ (ix2 p k)).trans (congrArg sp ?_)
  refine (Cert.Lib.hostRowBias_apply (n := 512) (f := 128) _ _ _ _ p k).trans ?_
  refine congrArg (· + _) ?_
  exact Cert.Lib.dotGeneral_plain_apply (M := 512) (K := 64) (N := 128) _ none .single _ _ p k

open Idealize.SL.Sem Cert.ReferenceIdeal Cert.ReferenceIdeal.Hand in
/-- THE HEAD STAGE: the reference's last stretch leaves in its result array what the kernel's head body stores, from
    the same five arrays. -/
theorem headEq (V : Valuation τ sig (Elt Ideal)) :
    StableHlo.after (ops5 (F := Ideal)) V (Proc.devRef .tc main_v118)
      = Cert.KernelIdeal.Hand.out2_5 (F := Ideal) (V (Proc.devRef .tc main_v109)) (V (Proc.devRef .tc main_arg11))
          (V (Proc.devRef .tc main_arg12)) (V (Proc.devRef .tc main_arg13)) (V (Proc.devRef .tc main_arg14)) := by
  funext i
  obtain ⟨p, q, rfl⟩ : ∃ (p : Fin 512) (q : Fin 1), i = ix2 p q := ⟨i 0, i 1, eq_ix2 i⟩
  obtain rfl : q = 0 := Subsingleton.elim _ _
  exact (hostHead_apply V p).trans (out2_5_apply _ _ _ _ _ p).symm

end Cert.Stage

end
-- ==== Proof.StageBn.lean ====
/-
  The batch-norm stage read at one entry, on both sides, over the extended reals.

  The kernel multiplies the centred entry by the reciprocal square root of (variance + ε); the host divides it by the
  square root. For a positive argument (⊤ included) the two agree exactly: rsqrt ⊤ = 0 and x / ⊤ = x · ⊤⁻¹ = x · 0, and for
  a positive real v the square root is a positive real, whose inverse as an extended real is the inverse of the real.
  At 0 and below they differ, so the host's reading asks for a variance that is not negative; ε is a positive real.
-/
import proofs.«173417_j18064632447537_1_alg».proof.Proof.KIRun
import proofs.«173417_j18064632447537_1_alg».proof.Proof.RefRun
import proofs.«173417_j18064632447537_1_alg».proof.Proof.HostRead
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.IdealRules

set_option maxRecDepth 8192

noncomputable section

namespace Cert.Stage

open Idealize.ShloMosaic Idealize.ShloMosaic.ValueIdx Idealize.ShloMosaic.TcCoe Idealize.ShloMosaic.StableHlo

/-! ## The one law -/

/-- For a positive extended real v (⊤ included), multiplying by the reciprocal square root is dividing by the square root. -/
theorem mul_rsqrt_eq_div_sqrt (a v : EReal) (hv : 0 < v) : a * Ideal.rsqrt v = Ideal.div a (Ideal.sqrt v) := by
  induction v using EReal.rec with
  | bot => exact absurd hv (by simp)
  | top =>
    show a * 0 = Ideal.div a ⊤
    unfold Ideal.div
    rw [if_neg (by simp)]
    simp
  | coe r =>
    have hr : 0 < r := by exact_mod_cast hv
    have hs : 0 < Real.sqrt r := Real.sqrt_pos.mpr hr
    show a * (if r < 0 then ⊥ else if r = 0 then ⊤ else (((Real.sqrt r)⁻¹ : ℝ) : EReal))
        = Ideal.div a (if r < 0 then ⊥ else (Real.sqrt r : EReal))
    rw [if_neg (not_lt.mpr hr.le), if_neg hr.ne', if_neg (not_lt.mpr hr.le)]
    unfold Ideal.div
    rw [if_neg (by exact_mod_cast hs.ne'), EReal.coe_inv]

/-- The f32 word 0x3727C5AC denotes a positive real. -/
theorem eps_pos : 0 < Ideal.ofBits .f32 0x3727C5AC#32 := by
  simp [Ideal.ofBits, Ideal.ieee, -EReal.coe_mul]

/-- A variance that is not negative, plus ε, is positive. -/
theorem var_add_eps_pos (v : EReal) (hv : 0 ≤ v) : 0 < v + Ideal.ofBits .f32 0x3727C5AC#32 :=
  lt_of_lt_of_le eps_pos (le_add_of_nonneg_left hv)

/-! ## The stage at one entry -/

/-- Batch normalization, scale and shift, the residual sum and relu at one entry: o the entry of the aggregated
    features, x of the residual, mu and var the column's mean and variance, gamma and beta its scale and shift. -/
def bnAt (o x mu var gamma beta : EReal) : EReal :=
  max (((o - mu) * Ideal.rsqrt (var + Ideal.ofBits .f32 0x3727C5AC#32)) * gamma + beta + x) (Ideal.ofBits .f32 0x00000000#32)

/-! ## The kernel's body -/

theorem rsqrt_apply {s : Shape} {φ : FTy} (a : FVec Ideal s φ) (i : s.Idx) : rsqrt a i = Ideal.rsqrt (a i) := rfl

/-- A vector [b] cast to the row [1, b] and broadcast down a rows reads, at (p, c), the vector at c. -/
theorem rowOf_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- What the batch-norm kernel's body stores, at entry (p, j) of its block. -/
theorem out1_6_apply (o x : Vec Ideal Cert.KernelIdeal.S5000x64 .f32) (mu var gamma beta : Vec Ideal Cert.KernelIdeal.S64 .f32)
    (p : Fin 5000) (j : Fin 64) :
    Cert.KernelIdeal.Hand.out1_6 (F := Ideal) o x mu var gamma beta (ix2 p j)
      = bnAt (o (ix2 p j)) (x (ix2 p j)) (mu (ix1 j)) (var (ix1 j)) (gamma (ix1 j)) (beta (ix1 j)) := by
  rw [Cert.KernelIdeal.Hand.out1_6_eq]
  unfold Cert.KernelIdeal.Gen.k1_pay1 bnAt
  simp only [shapeCast_self]
  simp only [maximumf_apply, addf_apply, mulf_apply, subf_apply, broadcast_apply, rowOf_apply, broadcastTo_1b_ab_apply,
    rsqrt_apply, shapeCast_a_1a_apply, Ideal.ofBits_def]

/-! ## The reference's stretch -/

open Cert.ReferenceIdeal Cert.ReferenceIdeal.Gen Cert.HostRead in
/-- The reference's normalization stretch as one term over its six input arrays. -/
theorem ops3_read (V : Valuation Cert.ReferenceIdeal.τ Cert.ReferenceIdeal.sig (Elt Ideal)) :
    StableHlo.after (Cert.ReferenceIdeal.Hand.ops3 (F := Ideal)) V (Proc.devRef .tc Cert.ReferenceIdeal.main_v98)
      = (maximumf
          (addf
            (addf
              (mulf
                (Host.divf
                  (subf (V (Proc.devRef .tc main_v77))
                    (broadcastInDim S50000x64 ![0, 1] bcast_S1x64_S50000x64_0_1
                      (broadcastInDim S1x64 ![1] bcast_S64_S1x64_1 (V (Proc.devRef .tc main_v80)))))
                  (broadcastInDim S50000x64 ![0, 1] bcast_S1x64_S50000x64_0_1
                    (broadcastInDim S1x64 ![1] bcast_S64_S1x64_1
                      (Host.sqrt
                        (addf (V (Proc.devRef .tc main_v81))
                          (broadcastInDim S64 ![] bcast_S_S64 (constant (F := Ideal) S_ .f32 0x3727C5AC#32)))))))
                (broadcastInDim S50000x64 ![0, 1] bcast_S1x64_S50000x64_0_1
                  (broadcastInDim S1x64 ![1] bcast_S64_S1x64_1 (V (Proc.devRef .tc main_arg9)))))
              (broadcastInDim S50000x64 ![0, 1] bcast_S1x64_S50000x64_0_1
                (broadcastInDim S1x64 ![1] bcast_S64_S1x64_1 (V (Proc.devRef .tc main_arg10)))))
            (V (Proc.devRef .tc main_v6)))
          (broadcastInDim S50000x64 ![] bcast_S_S50000x64 (constant (F := Ideal) S_ .f32 0x00000000#32))
          : FVec Ideal S50000x64 .f32) := by
  read_line
  rfl

/-- A vector [f] broadcast to the row [1, f] and then down n rows reads, at (p, q), the vector at q. -/
theorem hostRow_apply {α : Type} {n f : Nat} (b : (⟨1, ![f]⟩ : Shape).Idx → α)
    (h1 : (⟨1, ![f]⟩ : Shape).BroadcastsInDim ⟨2, ![1, f]⟩ ![1])
    (h2 : (⟨2, ![1, f]⟩ : Shape).BroadcastsInDim ⟨2, ![n, f]⟩ ![0, 1]) (p : Fin n) (q : Fin f) :
    broadcastInDim ⟨2, ![n, f]⟩ ![0, 1] h2 (broadcastInDim ⟨2, ![1, f]⟩ ![1] h1 b) (ix2 p q) = b (ix1 q) := by
  have hq := q.isLt
  refine (broadcastInDim_apply ![0, 1] h2 _ (ix2 p q) (ix2 0 q) (fun d => ?_)).trans
    (broadcastInDim_apply ![1] h1 b (ix2 0 q) (ix1 q) (fun d => ?_))
  · match d with
    | ⟨0, _⟩ => show (0 : Nat) = if (1 : Nat) = 1 then 0 else p.val; rw [if_pos rfl]
    | ⟨1, _⟩ => show q.val = if f = 1 then 0 else q.val; split <;> omega
  · match d with
    | ⟨0, _⟩ => show q.val = if f = 1 then 0 else q.val; split <;> omega

/-- A scalar broadcast to any shape reads the scalar at every index. -/
theorem hostScalar_apply {α : Type} {s : Shape} (h0 : (⟨0, ![]⟩ : Shape).BroadcastsInDim s ![]) (c : (⟨0, ![]⟩ : Shape).Idx → α) (i : s.Idx) :
    broadcastInDim s ![] h0 c i = c ix0 :=
  broadcastInDim_apply ![] h0 c i ix0 (fun a => a.elim0)

open Cert.ReferenceIdeal Cert.ReferenceIdeal.Gen in
/-- The stretch's term at entry (r, j), over any six arrays, for a variance that is not negative at column j. -/
theorem hostBn_term (o x : FVec Ideal S50000x64 .f32) (mu var gamma beta : FVec Ideal S64 .f32) (r : Fin 50000) (j : Fin 64)
    (hv : 0 ≤ var (ix1 j)) :
    (maximumf
      (addf
        (addf
          (mulf
            (Host.divf
              (subf o
                (broadcastInDim S50000x64 ![0, 1] bcast_S1x64_S50000x64_0_1 (broadcastInDim S1x64 ![1] bcast_S64_S1x64_1 mu)))
              (broadcastInDim S50000x64 ![0, 1] bcast_S1x64_S50000x64_0_1
                (broadcastInDim S1x64 ![1] bcast_S64_S1x64_1
                  (Host.sqrt
                    (addf var (broadcastInDim S64 ![] bcast_S_S64 (constant (F := Ideal) S_ .f32 0x3727C5AC#32)))))))
            (broadcastInDim S50000x64 ![0, 1] bcast_S1x64_S50000x64_0_1 (broadcastInDim S1x64 ![1] bcast_S64_S1x64_1 gamma)))
          (broadcastInDim S50000x64 ![0, 1] bcast_S1x64_S50000x64_0_1 (broadcastInDim S1x64 ![1] bcast_S64_S1x64_1 beta)))
        x)
      (broadcastInDim S50000x64 ![] bcast_S_S50000x64 (constant (F := Ideal) S_ .f32 0x00000000#32))
      : FVec Ideal S50000x64 .f32) (ix2 r j)
      = bnAt (o (ix2 r j)) (x (ix2 r j)) (mu (ix1 j)) (var (ix1 j)) (gamma (ix1 j)) (beta (ix1 j)) := by
  have emu := hostRow_apply mu bcast_S64_S1x64_1 bcast_S1x64_S50000x64_0_1 r j
  have ega := hostRow_apply gamma bcast_S64_S1x64_1 bcast_S1x64_S50000x64_0_1 r j
  have ebe := hostRow_apply beta bcast_S64_S1x64_1 bcast_S1x64_S50000x64_0_1 r j
  have esq := hostRow_apply
    (Host.sqrt (addf var (broadcastInDim S64 ![] bcast_S_S64 (constant (F := Ideal) S_ .f32 0x3727C5AC#32))))
    bcast_S64_S1x64_1 bcast_S1x64_S50000x64_0_1 r j
  have eeps : broadcastInDim S64 ![] bcast_S_S64 (constant (F := Ideal) S_ .f32 0x3727C5AC#32) (ix1 j)
      = Ideal.ofBits .f32 0x3727C5AC#32 := hostScalar_apply bcast_S_S64 _ (ix1 j)
  have ezero : broadcastInDim S50000x64 ![] bcast_S_S50000x64 (constant (F := Ideal) S_ .f32 0x00000000#32) (ix2 r j)
      = Ideal.ofBits .f32 0x00000000#32 := hostScalar_apply bcast_S_S50000x64 _ (ix2 r j)
  show max
      (Ideal.div
          (o (ix2 r j) - broadcastInDim S50000x64 ![0, 1] bcast_S1x64_S50000x64_0_1 (broadcastInDim S1x64 ![1] bcast_S64_S1x64_1 mu) (ix2 r j))
          (broadcastInDim S50000x64 ![0, 1] bcast_S1x64_S50000x64_0_1
            (broadcastInDim S1x64 ![1] bcast_S64_S1x64_1
              (Host.sqrt (addf var (broadcastInDim S64 ![] bcast_S_S64 (constant (F := Ideal) S_ .f32 0x3727C5AC#32))))) (ix2 r j))
        * broadcastInDim S50000x64 ![0, 1] bcast_S1x64_S50000x64_0_1 (broadcastInDim S1x64 ![1] bcast_S64_S1x64_1 gamma) (ix2 r j)
        + broadcastInDim S50000x64 ![0, 1] bcast_S1x64_S50000x64_0_1 (broadcastInDim S1x64 ![1] bcast_S64_S1x64_1 beta) (ix2 r j)
        + x (ix2 r j))
      (broadcastInDim S50000x64 ![] bcast_S_S50000x64 (constant (F := Ideal) S_ .f32 0x00000000#32) (ix2 r j))
    = bnAt (o (ix2 r j)) (x (ix2 r j)) (mu (ix1 j)) (var (ix1 j)) (gamma (ix1 j)) (beta (ix1 j))
  rw [emu, ega, ebe, esq, ezero]
  show max (Ideal.div (o (ix2 r j) - mu (ix1 j))
        (Ideal.sqrt (var (ix1 j) + broadcastInDim S64 ![] bcast_S_S64 (constant (F := Ideal) S_ .f32 0x3727C5AC#32) (ix1 j)))
        * gamma (ix1 j) + beta (ix1 j) + x (ix2 r j)) (Ideal.ofBits .f32 0x00000000#32) = _
  rw [eeps, ← mul_rsqrt_eq_div_sqrt _ _ (var_add_eps_pos _ hv)]
  rfl

/-- The reference's normalization stretch at entry (r, j), for a variance that is not negative at column j. -/
theorem hostBn (V : Valuation Cert.ReferenceIdeal.τ Cert.ReferenceIdeal.sig (Elt Ideal)) (r : Fin 50000) (j : Fin 64)
    (hv : @LE.le EReal _ 0 (V (Proc.devRef .tc Cert.ReferenceIdeal.main_v81) (ix1 j))) :
    (StableHlo.after (Cert.ReferenceIdeal.Hand.ops3 (F := Ideal)) V (Proc.devRef .tc Cert.ReferenceIdeal.main_v98)
        : (⟨2, ![50000, 64]⟩ : Shape).Idx → EReal) (ix2 r j)
      = bnAt (V (Proc.devRef .tc Cert.ReferenceIdeal.main_v77) (ix2 r j))
          (V (Proc.devRef .tc Cert.ReferenceIdeal.main_v6) (ix2 r j))
          (V (Proc.devRef .tc Cert.ReferenceIdeal.main_v80) (ix1 j))
          (V (Proc.devRef .tc Cert.ReferenceIdeal.main_v81) (ix1 j))
          (V (Proc.devRef .tc Cert.ReferenceIdeal.main_arg9) (ix1 j))
          (V (Proc.devRef .tc Cert.ReferenceIdeal.main_arg10) (ix1 j)) :=
  (congrFun (ops3_read V) (ix2 r j)).trans
    (hostBn_term (V (Proc.devRef .tc Cert.ReferenceIdeal.main_v77)) (V (Proc.devRef .tc Cert.ReferenceIdeal.main_v6))
      (V (Proc.devRef .tc Cert.ReferenceIdeal.main_v80)) (V (Proc.devRef .tc Cert.ReferenceIdeal.main_v81))
      (V (Proc.devRef .tc Cert.ReferenceIdeal.main_arg9)) (V (Proc.devRef .tc Cert.ReferenceIdeal.main_arg10)) r j hv)

end Cert.Stage

end
-- ==== Proof.StageVar.lean ====
/-
  The reference's column variance is not negative, whatever the array it is taken of, over the extended reals.

  The variance function sums the squares of the centred entries of a column from the initial value 0 and divides by
  50000 − 0, then selects that quotient when 50000 − 0 > 0. A square x · x is not negative on the extended reals
  (⊥ · ⊥ = ⊤), a sum of such terms from 0 is not negative, a quotient of that by a positive real is not negative, and
  the comparison holds, so the select takes the quotient.
-/
import proofs.«173417_j18064632447537_1_alg».proof.Proof.RefRun
import proofs.«173417_j18064632447537_1_alg».proof.Proof.HostRead
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.IdealRules

set_option maxRecDepth 8192

noncomputable section

namespace Cert.Stage

open Idealize.ShloMosaic Idealize.ShloMosaic.ValueIdx Idealize.ShloMosaic.TcCoe Idealize.ShloMosaic.StableHlo
open Cert.ReferenceIdeal Cert.ReferenceIdeal.Gen

/-! ## Order facts on the extended reals -/

/-- A square is not negative, at the infinities too. -/
theorem mul_self_nonneg_ereal (x : EReal) : 0 ≤ x * x := by
  rcases le_total 0 x with h | h
  · exact mul_nonneg h h
  · have h' : 0 ≤ -x := by simpa using EReal.neg_le_neg_iff.2 h
    rw [← neg_mul_neg]
    exact mul_nonneg h' h'

/-- A quotient of a value that is not negative by a positive one is not negative. -/
theorem div_nonneg_ereal (x y : EReal) (hx : 0 ≤ x) (hy : 0 < y) : 0 ≤ Ideal.div x y := by
  unfold Ideal.div
  rw [if_neg hy.ne']
  exact mul_nonneg hx (EReal.inv_nonneg_of_nonneg hy.le)

/-- The f32 word 0x47435000 denotes 50000. -/
theorem n_f32 : Ideal.ofBits .f32 0x47435000#32 = ((50000 : ℝ) : EReal) := by
  simp [Ideal.ofBits, Ideal.ieee, -EReal.coe_mul]
  norm_num

/-- A scalar broadcast to any shape reads the scalar at every index. -/
theorem hostScalar_apply' {α : Type} {s : Shape} (h0 : (⟨0, ![]⟩ : Shape).BroadcastsInDim s ![]) (c : (⟨0, ![]⟩ : Shape).Idx → α) (i : s.Idx) :
    broadcastInDim s ![] h0 c i = c ix0 :=
  broadcastInDim_apply ![] h0 c i ix0 (fun a => a.elim0)

/-! ## The variance function's term -/

/-- The row count less the correction: 50000 − convert 0. -/
def cnt : FVec Ideal S_ .f32 := subf (constant (F := Ideal) S_ .f32 0x47435000#32) (sitofp .f32 (constantI S_ 32 0#32))

/-- The column means, as a row. -/
def colMean (A : FVec Ideal S50000x64 .f32) : FVec Ideal S1x64 .f32 :=
  Host.divf
    (broadcastInDim S1x64 ![1] bcast_S64_S1x64_1
      (Host.reduceAdd A (constant (F := Ideal) S_ .f32 0x00000000#32) reducesTo_S50000x64_S64_d0 h_S_))
    (broadcastInDim S1x64 ![] bcast_S_S1x64 (constant (F := Ideal) S_ .f32 0x47435000#32))

/-- The entries less their column's mean. -/
def centred (A : FVec Ideal S50000x64 .f32) : FVec Ideal S50000x64 .f32 :=
  subf A (broadcastInDim S50000x64 ![0, 1] bcast_S1x64_S50000x64_0_1 (colMean A))

/-- The variance function of the reference on an array A. -/
def varOf (A : FVec Ideal S50000x64 .f32) : FVec Ideal S64 .f32 :=
  select (broadcastInDim S64 ![] bcast_S_S64 (cmpf .ogt cnt (constant (F := Ideal) S_ .f32 0x00000000#32)))
    (Host.divf
      (Host.reduceAdd (mulf (centred A) (centred A)) (constant (F := Ideal) S_ .f32 0x00000000#32) reducesTo_S50000x64_S64_d0 h_S_)
      (broadcastInDim S64 ![] bcast_S_S64 cnt))
    (broadcastInDim S64 ![] bcast_S_S64 (id (constant (F := Ideal) S_ .f32 0x7FC00000#32)))

open Cert.HostRead in
/-- The last 28 operations of the stretch (from the zero of the column sum on) write the variance function of
    whatever array the scatter-mean's buffer holds. -/
theorem var_read (V : Valuation Cert.ReferenceIdeal.τ Cert.ReferenceIdeal.sig (Elt Ideal)) :
    StableHlo.after (List.drop 15 (Cert.ReferenceIdeal.Hand.ops2 (F := Ideal))) V (Proc.devRef .tc Cert.ReferenceIdeal.main_v81)
      = varOf (V (Proc.devRef .tc main_v77)) := by
  simp only [List.drop_succ_cons, List.drop_zero]
  read_line
  rfl

/-! ## It is not negative -/

theorem cnt_apply : cnt ix0 = ((50000 : ℝ) : EReal) := by
  show Ideal.ofBits .f32 0x47435000#32 - (((0#32 : BitVec 32).toInt : ℝ) : EReal) = _
  rw [n_f32]
  simp

theorem cnt_pos : 0 < cnt ix0 := by
  rw [cnt_apply]
  exact_mod_cast (by norm_num : (0 : ℝ) < 50000)

/-- The variance function's value at any column, of any array, is not negative. -/
theorem varOf_nonneg (A : FVec Ideal S50000x64 .f32) (j : Fin 64) : 0 ≤ varOf A (ix1 j) := by
  have hc : broadcastInDim S64 ![] bcast_S_S64 (cmpf .ogt cnt (constant (F := Ideal) S_ .f32 0x00000000#32)) (ix1 j) = 1#1 := by
    refine (hostScalar_apply' bcast_S_S64 _ (ix1 j)).trans ?_
    show Ideal.cmp .ogt (cnt ix0) (Ideal.ofBits .f32 0x00000000#32) = 1#1
    rw [Ideal.ofBits_zero_f32]
    show BitVec.ofBool (decide (0 < cnt ix0)) = 1#1
    rw [decide_eq_true cnt_pos]
    rfl
  have hn : broadcastInDim S64 ![] bcast_S_S64 cnt (ix1 j) = cnt ix0 := hostScalar_apply' bcast_S_S64 _ (ix1 j)
  show 0 ≤ Scalar.select (broadcastInDim S64 ![] bcast_S_S64 (cmpf .ogt cnt (constant (F := Ideal) S_ .f32 0x00000000#32)) (ix1 j))
      (Ideal.div
        (Ideal.hostReduceAdd reducesTo_S50000x64_S64_d0 (mulf (centred A) (centred A)) (Ideal.ofBits .f32 0x00000000#32) (ix1 j))
        (broadcastInDim S64 ![] bcast_S_S64 cnt (ix1 j)))
      (broadcastInDim S64 ![] bcast_S_S64 (id (constant (F := Ideal) S_ .f32 0x7FC00000#32)) (ix1 j))
  rw [hc, select_one, hn]
  refine div_nonneg_ereal _ _ ?_ cnt_pos
  unfold Ideal.hostReduceAdd
  rw [Ideal.ofBits_zero_f32, zero_add]
  exact Finset.sum_nonneg fun i _ => mul_self_nonneg_ereal _

/-- The reference's variance array is not negative at any column, whatever the launch contents. -/
theorem var_nonneg (V : Valuation Cert.ReferenceIdeal.τ Cert.ReferenceIdeal.sig (Elt Ideal)) (j : Fin 64) :
    @LE.le EReal _ 0
      (StableHlo.after (Cert.ReferenceIdeal.Hand.ops2 (F := Ideal)) V (Proc.devRef .tc Cert.ReferenceIdeal.main_v81) (ix1 j)) := by
  rw [← List.take_append_drop 15 (Cert.ReferenceIdeal.Hand.ops2 (F := Ideal)), Cert.ReferenceIdeal.Hand.after_append, var_read]
  exact varOf_nonneg _ j

end Cert.Stage

end
-- ==== Proof.Bridge.lean ====
/-
  The kernel program and the reference compute the same result.

  From memories that agree on the arguments the two programs hold the same arrays stage by stage. The three stages that the
  kernel program runs as kernels are, entry by entry, the reference's formulas: the gated message σ(z·W_f + b_f) ·
  softplus(z·W_c + b_c) row by row (a row of the result depends on one row of z, so computing it tile by tile changes
  nothing); the normalisation max(((o − μ)·(v + ε)^(−1/2))·γ + β + x, 0), where the reference divides by √(v + ε) and the
  kernel multiplies by the reciprocal square root — one value because a variance is not negative, so v + ε > 0; and the
  head softplus(g·W₁ + b₁)·W_o + b_o. Between them both sides apply the same host operations to equal arrays.
-/
import proofs.«173417_j18064632447537_1_alg».proof.Proof.Links
import proofs.«173417_j18064632447537_1_alg».proof.Proof.KIFinal
import proofs.«173417_j18064632447537_1_alg».proof.Proof.StageMsg
import proofs.«173417_j18064632447537_1_alg».proof.Proof.StageHead
import proofs.«173417_j18064632447537_1_alg».proof.Proof.StageBn
import proofs.«173417_j18064632447537_1_alg».proof.Proof.StageVar
import proofs.«173417_j18064632447537_1_alg».proof.Proof.Gen.Pre_finite_inputs
import proofs.«173417_j18064632447537_1_alg».proof.Proof.Gen.KernelIdeal
import proofs.«173417_j18064632447537_1_alg».proof.Proof.Gen.ReferenceIdeal

set_option maxRecDepth 8192

noncomputable section

namespace Cert.Bridge

open Idealize.ShloMosaic Idealize.ShloMosaic.TcCoe Idealize.ShloMosaic.ValueIdx Idealize.SL.Sem Cert.Links

/-- A row index below 600000 is 4000·t + p for one tile t and one row p of the tile. -/
theorem split600000 (i : (⟨2, ![600000, 64]⟩ : Shape).Idx) :
    ∃ (t : Fin 150) (p : Fin 4000) (j : Fin 64) (h : 4000 * t.val + p.val < 600000), i = ix2 ⟨4000 * t.val + p.val, h⟩ j := by
  have h0 : (i 0).val < 600000 := (i 0).isLt
  refine ⟨⟨(i 0).val / 4000, by omega⟩, ⟨(i 0).val % 4000, Nat.mod_lt _ (by decide)⟩, ⟨(i 1).val, (i 1).isLt⟩, by show 4000 * ((i 0).val / 4000) + (i 0).val % 4000 < 600000; omega, ?_⟩
  funext a; apply Fin.ext
  match a with
  | ⟨0, _⟩ => show (i 0).val = 4000 * ((i 0).val / 4000) + (i 0).val % 4000; omega
  | ⟨1, _⟩ => rfl

/-- A row index below 50000 is 5000·t + p for one tile t and one row p of the tile. -/
theorem split50000 (i : (⟨2, ![50000, 64]⟩ : Shape).Idx) :
    ∃ (t : Fin 10) (p : Fin 5000) (j : Fin 64) (h : 5000 * t.val + p.val < 50000), i = ix2 ⟨5000 * t.val + p.val, h⟩ j := by
  have h0 : (i 0).val < 50000 := (i 0).isLt
  refine ⟨⟨(i 0).val / 5000, by omega⟩, ⟨(i 0).val % 5000, Nat.mod_lt _ (by decide)⟩, ⟨(i 1).val, (i 1).isLt⟩, by show 5000 * ((i 0).val / 5000) + (i 0).val % 5000 < 50000; omega, ?_⟩
  funext a; apply Fin.ext
  match a with
  | ⟨0, _⟩ => show (i 0).val = 5000 * ((i 0).val / 5000) + (i 0).val % 5000; omega
  | ⟨1, _⟩ => rfl

variable {m : (ℓ : Loc Cert.KernelIdeal.nD Cert.KernelIdeal.τ Cert.KernelIdeal.sig) → Buf (Elt Ideal) ℓ} {ρ : Dev Cert.KernelIdeal.nD → PrngReg}
variable {m' : (ℓ : Loc Cert.ReferenceIdeal.nD Cert.ReferenceIdeal.τ Cert.ReferenceIdeal.sig) → Buf (Elt Ideal) ℓ} {c : Dev Cert.KernelIdeal.nD}

/-- THE MESSAGE STAGE: the kernel's tiles and the reference's whole-array formula are one array. -/
theorem msg_eq (hag : Agree m m' c) : Cert.KernelIdeal.Hand.W2 (F := Ideal) m ρ c (Proc.devRef .tc Cert.KernelIdeal.main_v44) = R1 m' c (Proc.devRef .tc Cert.ReferenceIdeal.main_v66) := by
  rw [Cert.KernelIdeal.Hand.W2_v44]
  obtain ⟨ez, -, -⟩ := after_first (ρ := ρ) hag
  obtain ⟨e5, e6, e7, e8⟩ := args_msg (ρ := ρ) hag
  rw [ez, e5, e6, e7, e8]
  funext i
  obtain ⟨t, p, j, h, rfl⟩ := split600000 i
  refine (Cert.KernelIdeal.Hand.G0_apply _ _ _ _ _ t p j).trans ?_
  refine (Cert.Stage.out0_5_apply _ _ _ _ _ p j).trans ?_
  refine Eq.trans ?_ (Cert.Stage.hostMsg (R0 m' c) ⟨4000 * t.val + p.val, h⟩ j).symm
  rfl

/-- THE NORMALISATION STAGE. -/
theorem bn_eq (hag : Agree m m' c) : Cert.KernelIdeal.Hand.W5 (F := Ideal) m ρ c (Proc.devRef .tc Cert.KernelIdeal.main_v60) = R3 m' c (Proc.devRef .tc Cert.ReferenceIdeal.main_v98) := by
  rw [Cert.KernelIdeal.Hand.W5_v60]
  obtain ⟨e55, e58, e59, e6⟩ := after_msg (ρ := ρ) hag (msg_eq hag)
  obtain ⟨e9, e10⟩ := args_bn (ρ := ρ) hag
  rw [e55, e6, e58, e59, e9, e10]
  funext i
  obtain ⟨t, p, j, h, rfl⟩ := split50000 i
  refine (Cert.KernelIdeal.Hand.G1_apply _ _ _ _ _ _ t p j).trans ?_
  refine (Cert.Stage.out1_6_apply _ _ _ _ _ _ p j).trans ?_
  refine Eq.trans ?_ (Cert.Stage.hostBn (R2 m' c) ⟨5000 * t.val + p.val, h⟩ j (Cert.Stage.var_nonneg (R1 m' c) j)).symm
  rfl

/-- THE RESULT: the kernel program's result array is the reference's. -/
theorem result_eq (hag : Agree m m' c) :
    Cert.KernelIdeal.Hand.W7 (F := Ideal) m ρ c (Proc.devRef .tc Cert.KernelIdeal.main_v72)
      = StableHlo.after (Cert.ReferenceIdeal.Hand.ops (F := Ideal)) (StableHlo.launchContents m' c) (Proc.devRef .tc Cert.ReferenceIdeal.main_v118) := by
  rw [Cert.KernelIdeal.Hand.W7_v72, Cert.ReferenceIdeal.Hand.after_ops]
  obtain ⟨e11, e12, e13, e14⟩ := args_head (ρ := ρ) hag
  rw [after_bn (ρ := ρ) hag (bn_eq hag), e11, e12, e13, e14]
  exact (Cert.Stage.headEq (R4 m' c)).symm

/-- At the extended reals, from memories agreeing on the arguments, both programs run and end with equal results and
    unchanged arguments. -/
theorem algebraic : Cert.algebraic_KernelIdeal_ReferenceIdeal := by
  intro m ρ m' ρ' _ hagree
  refine ⟨fun c => Cert.KernelIdeal.Hand.W7 (F := Ideal) m ρ c (Proc.devRef .tc Cert.KernelIdeal.main_v72), Cert.KernelIdeal.Hand.run m ρ, ?_⟩
  refine (θ_run Cert.ReferenceIdeal.defs _ _).mono (fun _ h c => ⟨(h c).1.trans ?_, (h c).2⟩) (Cert.ReferenceIdeal.Hand.run m' ρ')
  exact (result_eq (m := m) (ρ := ρ) (m' := m') (c := c) (hagree c)).symm

end Cert.Bridge

end
-- ==== Proof.lean ====
/-
  The certificate: the kernel program, its reading over the extended reals and the reference each run to the end without a
  fault and leave their arguments unchanged; the idealized kernel program is the kernel program's own text (nothing was
  rewritten); and over the extended reals the idealized kernel program and the reference, from memories that agree on the
  arguments, end with the same result array.
-/
import proofs.«173417_j18064632447537_1_alg».proof.Defs
import proofs.«173417_j18064632447537_1_alg».proof.Proof.Gen.Kernel
import proofs.«173417_j18064632447537_1_alg».proof.Proof.Gen.KernelIdeal
import proofs.«173417_j18064632447537_1_alg».proof.Proof.Gen.ReferenceIdeal
import proofs.«173417_j18064632447537_1_alg».proof.Proof.Gen.Pre_finite_inputs
import proofs.«173417_j18064632447537_1_alg».proof.Proof.KRun
import proofs.«173417_j18064632447537_1_alg».proof.Proof.KIRun
import proofs.«173417_j18064632447537_1_alg».proof.Proof.RefRun
import proofs.«173417_j18064632447537_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m g _ => Cert.Kernel.Hand.frame m g,
    fun m g _ => Cert.KernelIdeal.Hand.frame m g,
    fun m g _ => Cert.ReferenceIdeal.Hand.frame m g,
    trivial,
    Cert.Bridge.algebraic⟩

end Cert.Proof

end
